-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S257x256 : Shape := ⟨2, ![257, 256]⟩
abbrev S257 : Shape := ⟨1, ![257]⟩
abbrev S128x283 : Shape := ⟨2, ![128, 283]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S256x63 : S_.BroadcastsInDim S256x63 (![] : Fin 0 → Fin S256x63.rank)
  reducesTo_S256x63_S_d0_1 : S256x63.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x319 : S_.BroadcastsInDim S256x319 (![] : Fin 0 → Fin S256x319.rank)
  reducesTo_S256x319_S_d0_1 : S256x319.ReducesTo [0, 1] S_
  bcast_S_S257x256 : S_.BroadcastsInDim S257x256 (![] : Fin 0 → Fin S257x256.rank)
  reducesTo_S257x256_S_d0_1 : S257x256.ReducesTo [0, 1] S_
  bcast_S_S257 : S_.BroadcastsInDim S257 (![] : Fin 0 → Fin S257.rank)
  reducesTo_S257_S_d0 : S257.ReducesTo [0] S_
  bcast_S_S128x283 : S_.BroadcastsInDim S128x283 (![] : Fin 0 → Fin S128x283.rank)
  reducesTo_S128x283_S_d0_1 : S128x283.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg21 : FVec F S128 .f32) (main_arg22 : FVec F S3x128 .f32) (main_arg23 : FVec F S3 .f32) (main_v98 : IVec S_ 1) (main_v101 : IVec S128x283 1) (main_c_39 : IVec S_ 1) : IVec S_ 1 :=
  let main_v102 : IVec S_ 1 := (fun x v => Host.reduce IntOp.andi x v reducesTo_S128x283_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S3x128 .f32 := Host.absf main_arg22
  let main_cst_42 : FVec F S_ .f32 := constant S_ .f32 0x7F800000#32
  let main_v110 : FVec F S3x128 .f32 := broadcastInDim S3x128 ![] bcast_S_S3x128 main_cst_42
  let main_v111 : IVec S3x128 1 := cmpf .olt main_v109 main_v110
  let main_c_43 : IVec S_ 1 := constantI S_ 1 1#1
  let main_v112 : IVec S_ 1 := (fun x v => Host.reduce IntOp.andi x v reducesTo_S3x128_S_d0_1 h_S_) main_v111 main_c_43
  let main_v113 : IVec S_ 1 := andi main_v108 main_v112
  let main_v114 : FVec F S3 .f32 := Host.absf main_arg23
  let main_cst_44 : FVec F S_ .f32 := constant S_ .f32 0x7F800000#32
  let main_v115 : FVec F S3 .f32 := broadcastInDim S3 ![] bcast_S_S3 main_cst_44
  let main_v116 : IVec S3 1 := cmpf .olt main_v114 main_v115
  let main_c_45 : IVec S_ 1 := constantI S_ 1 1#1
  let main_v117 : IVec S_ 1 := (fun x v => Host.reduce IntOp.andi x v reducesTo_S3_S_d0 h_S_) main_v116 main_c_45
  let main_v118 : IVec S_ 1 := andi main_v113 main_v117
  main_v118

def fn_part5 {F : FTy → Type} [FloatOps F] (main_arg18 : FVec F S257x256 .f32) (main_arg19 : FVec F S257 .f32) (main_arg20 : FVec F S128x283 .f32) (main_arg21 : FVec F S128 .f32) (main_arg22 : FVec F S3x128 .f32) (main_arg23 : FVec F S3 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S257x256 .f32 := Host.absf main_arg18
  let main_cst_34 : FVec F S_ .f32 := constant S_ .f32 0x7F800000#32
  let main_v90 : FVec F S257x256 .f32 := broadcastInDim S257x256 ![] bcast_S_S257x256 main_cst_34
  let main_v91 : IVec S257x256 1 := cmpf .olt main_v89 main_v90
  let main_c_35 : IVec S_ 1 := constantI S_ 1 1#1
  let main_v92 : IVec S_ 1 := (fun x v => Host.reduce IntOp.andi x v reducesTo_S257x256_S_d0_1 h_S_) main_v91 main_c_35
  let main_v93 : IVec S_ 1 := andi main_v88 main_v92
  let main_v94 : FVec F S257 .f32 := Host.absf main_arg19
  let main_cst_36 : FVec F S_ .f32 := constant S_ .f32 0x7F800000#32
  let main_v95 : FVec F S257 .f32 := broadcastInDim S257 ![] bcast_S_S257 main_cst_36
  let main_v96 : IVec S257 1 := cmpf .olt main_v94 main_v95
  let main_c_37 : IVec S_ 1 := constantI S_ 1 1#1
  let main_v97 : IVec S_ 1 := (fun x v => Host.reduce IntOp.andi x v reducesTo_S257_S_d0 h_S_) main_v96 main_c_37
  let main_v98 : IVec S_ 1 := andi main_v93 main_v97
  let main_v99 : FVec F S128x283 .f32 := Host.absf main_arg20
  let main_cst_38 : FVec F S_ .f32 := constant S_ .f32 0x7F800000#32
  let main_v100 : FVec F S128x283 .f32 := broadcastInDim S128x283 ![] bcast_S_S128x283 main_cst_38
  let main_v101 : IVec S128x283 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S257x256 .f32) (main_arg19 : FVec F S257 .f32) (main_arg20 : FVec F S128x283 .f32) (main_arg21 : FVec F S128 .f32) (main_arg22 : FVec F S3x128 .f32) (main_arg23 : FVec F S3 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S257x256 .f32) (main_arg19 : FVec F S257 .f32) (main_arg20 : FVec F S128x283 .f32) (main_arg21 : FVec F S128 .f32) (main_arg22 : FVec F S3x128 .f32) (main_arg23 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x319 .f32 := Host.absf main_arg12
  let main_cst_22 : FVec F S_ .f32 := constant S_ .f32 0x7F800000#32
  let main_v60 : FVec F S256x319 .f32 := broadcastInDim S256x319 ![] bcast_S_S256x319 main_cst_22
  let main_v61 : IVec S256x319 1 := cmpf .olt main_v59 main_v60
  let main_c_23 : IVec S_ 1 := constantI S_ 1 1#1
  let main_v62 : IVec S_ 1 := (fun x v => Host.reduce IntOp.andi x v reducesTo_S256x319_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S257x256 .f32) (main_arg19 : FVec F S257 .f32) (main_arg20 : FVec F S128x283 .f32) (main_arg21 : FVec F S128 .f32) (main_arg22 : FVec F S3x128 .f32) (main_arg23 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S257x256 .f32) (main_arg19 : FVec F S257 .f32) (main_arg20 : FVec F S128x283 .f32) (main_arg21 : FVec F S128 .f32) (main_arg22 : FVec F S3x128 .f32) (main_arg23 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S262144x3 .f32) (main_arg1 : FVec F S262144x3 .f32) (main_arg2 : FVec F S256x63 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S257x256 .f32) (main_arg19 : FVec F S257 .f32) (main_arg20 : FVec F S128x283 .f32) (main_arg21 : FVec F S128 .f32) (main_arg22 : FVec F S3x128 .f32) (main_arg23 : FVec F S3 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S256x63 .f32 := Host.absf main_arg2
  let main_cst_2 : FVec F S_ .f32 := constant S_ .f32 0x7F800000#32
  let main_v10 : FVec F S256x63 .f32 := broadcastInDim S256x63 ![] bcast_S_S256x63 main_cst_2
  let main_v11 : IVec S256x63 1 := cmpf .olt main_v9 main_v10
  let main_c_3 : IVec S_ 1 := constantI S_ 1 1#1
  let main_v12 : IVec S_ 1 := (fun x v => Host.reduce IntOp.andi x v reducesTo_S256x63_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S257x256 : Shape := ⟨2, ![257, 256]⟩
abbrev S257 : Shape := ⟨1, ![257]⟩
abbrev S128x283 : Shape := ⟨2, ![128, 283]⟩
abbrev S128 : Shape := ⟨1, ![128]⟩
abbrev S3x128 : Shape := ⟨2, ![3, 128]⟩
abbrev S3 : Shape := ⟨1, ![3]⟩
abbrev S3x63 : Shape := ⟨2, ![3, 63]⟩
abbrev S3x27 : Shape := ⟨2, ![3, 27]⟩
abbrev S63x256 : Shape := ⟨2, ![63, 256]⟩
abbrev S319x256 : Shape := ⟨2, ![319, 256]⟩
abbrev S256x257 : Shape := ⟨2, ![256, 257]⟩
abbrev S256x1 : Shape := ⟨2, ![256, 1]⟩
abbrev S1 : Shape := ⟨1, ![1]⟩
abbrev S283x128 : Shape := ⟨2, ![283, 128]⟩
abbrev S256x128 : Shape := ⟨2, ![256, 128]⟩
abbrev S27x128 : Shape := ⟨2, ![27, 128]⟩
abbrev S128x3 : Shape := ⟨2, ![128, 3]⟩
abbrev S262144x4 : Shape := ⟨2, ![262144, 4]⟩
abbrev S4096x3 : Shape := ⟨2, ![4096, 3]⟩
abbrev S4096x4 : Shape := ⟨2, ![4096, 4]⟩
abbrev S4096x1 : Shape := ⟨2, ![4096, 1]⟩
abbrev S1x63 : Shape := ⟨2, ![1, 63]⟩
abbrev S4096x63 : Shape := ⟨2, ![4096, 63]⟩
abbrev S1x27 : Shape := ⟨2, ![1, 27]⟩
abbrev S4096x27 : Shape := ⟨2, ![4096, 27]⟩
abbrev S4096x256 : Shape := ⟨2, ![4096, 256]⟩
abbrev S1x256 : Shape := ⟨2, ![1, 256]⟩
abbrev S1x1 : Shape := ⟨2, ![1, 1]⟩
abbrev S4096x128 : Shape := ⟨2, ![4096, 128]⟩
abbrev S1x128 : Shape := ⟨2, ![1, 128]⟩
abbrev S1x3 : Shape := ⟨2, ![1, 3]⟩
abbrev S262144x1 : Shape := ⟨2, ![262144, 1]⟩
abbrev S262144 : Shape := ⟨1, ![262144]⟩

abbrev nBuf : Space → Nat
  | .hbm => 62
  | .vmem => 36
  | .smem => 0
  | _ => 0

abbrev bufTy : (tb : Table) → Fin (tcTables nBuf tb) → BufTy
  | .hbm, ⟨0, _⟩ => ⟨S262144x3, .f32⟩
  | .hbm, ⟨1, _⟩ => ⟨S262144x3, .f32⟩
  | .hbm, ⟨2, _⟩ => ⟨S256x63, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x319, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S257x256, .f32⟩
  | .hbm, ⟨19, _⟩ => ⟨S257, .f32⟩
  | .hbm, ⟨20, _⟩ => ⟨S128x283, .f32⟩
  | .hbm, ⟨21, _⟩ => ⟨S128, .f32⟩
  | .hbm, ⟨22, _⟩ => ⟨S3x128, .f32⟩
  | .hbm, ⟨23, _⟩ => ⟨S3, .f32⟩
  | .hbm, ⟨24, _⟩ => ⟨S3x63, .f32⟩
  | .hbm, ⟨25, _⟩ => ⟨S3x63, .f32⟩
  | .hbm, ⟨26, _⟩ => ⟨S3x27, .f32⟩
  | .hbm, ⟨27, _⟩ => ⟨S3x27, .f32⟩
  | .hbm, ⟨28, _⟩ => ⟨S63x256, .f32⟩
  | .hbm, ⟨29, _⟩ => ⟨S63x256, .bf16⟩
  | .hbm, ⟨30, _⟩ => ⟨S256x256, .f32⟩
  | .hbm, ⟨31, _⟩ => ⟨S256x256, .bf16⟩
  | .hbm, ⟨32, _⟩ => ⟨S256x256, .f32⟩
  | .hbm, ⟨33, _⟩ => ⟨S256x256, .bf16⟩
  | .hbm, ⟨34, _⟩ => ⟨S256x256, .f32⟩
  | .hbm, ⟨35, _⟩ => ⟨S256x256, .bf16⟩
  | .hbm, ⟨36, _⟩ => ⟨S256x256, .f32⟩
  | .hbm, ⟨37, _⟩ => ⟨S256x256, .bf16⟩
  | .hbm, ⟨38, _⟩ => ⟨S319x256, .f32⟩
  | .hbm, ⟨39, _⟩ => ⟨S319x256, .bf16⟩
  | .hbm, ⟨40, _⟩ => ⟨S256x256, .bf16⟩
  | .hbm, ⟨41, _⟩ => ⟨S63x256, .bf16⟩
  | .hbm, ⟨42, _⟩ => ⟨S256x256, .f32⟩
  | .hbm, ⟨43, _⟩ => ⟨S256x256, .bf16⟩
  | .hbm, ⟨44, _⟩ => ⟨S256x256, .f32⟩
  | .hbm, ⟨45, _⟩ => ⟨S256x256, .bf16⟩
  | .hbm, ⟨46, _⟩ => ⟨S256x257, .f32⟩
  | .hbm, ⟨47, _⟩ => ⟨S256x257, .bf16⟩
  | .hbm, ⟨48, _⟩ => ⟨S256x256, .bf16⟩
  | .hbm, ⟨49, _⟩ => ⟨S256x1, .bf16⟩
  | .hbm, ⟨50, _⟩ => ⟨S256, .f32⟩
  | .hbm, ⟨51, _⟩ => ⟨S1, .f32⟩
  | .hbm, ⟨52, _⟩ => ⟨S283x128, .f32⟩
  | .hbm, ⟨53, _⟩ => ⟨S283x128, .bf16⟩
  | .hbm, ⟨54, _⟩ => ⟨S256x128, .bf16⟩
  | .hbm, ⟨55, _⟩ => ⟨S27x128, .bf16⟩
  | .hbm, ⟨56, _⟩ => ⟨S128x3, .f32⟩
  | .hbm, ⟨57, _⟩ => ⟨S128x3, .bf16⟩
  | .hbm, ⟨58, _⟩ => ⟨S262144x4, .f32⟩
  | .hbm, ⟨59, _⟩ => ⟨S262144x3, .f32⟩
  | .hbm, ⟨60, _⟩ => ⟨S262144x1, .f32⟩
  | .hbm, ⟨61, _⟩ => ⟨S262144, .f32⟩
  | .local _ .vmem, ⟨0, _⟩ => ⟨S4096x3, .f32⟩
  | .local _ .vmem, ⟨1, _⟩ => ⟨S4096x3, .f32⟩
  | .local _ .vmem, ⟨2, _⟩ => ⟨S4096x3, .f32⟩
  | .local _ .vmem, ⟨3, _⟩ => ⟨S4096x3, .f32⟩
  | .local _ .vmem, ⟨4, _⟩ => ⟨S3x63, .f32⟩
  | .local _ .vmem, ⟨5, _⟩ => ⟨S3x63, .f32⟩
  | .local _ .vmem, ⟨6, _⟩ => ⟨S3x27, .f32⟩
  | .local _ .vmem, ⟨7, _⟩ => ⟨S3x27, .f32⟩
  | .local _ .vmem, ⟨8, _⟩ => ⟨S63x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S256x256, .bf16⟩
  | .local _ .vmem, ⟨15, _⟩ => ⟨S256, .f32⟩
  | .local _ .vmem, ⟨16, _⟩ => ⟨S256x256, .bf16⟩
  | .local _ .vmem, ⟨17, _⟩ => ⟨S256, .f32⟩
  | .local _ .vmem, ⟨18, _⟩ => ⟨S256x256, .bf16⟩
  | .local _ .vmem, ⟨19, _⟩ => ⟨S63x256, .bf16⟩
  | .local _ .vmem, ⟨20, _⟩ => ⟨S256, .f32⟩
  | .local _ .vmem, ⟨21, _⟩ => ⟨S256x256, .bf16⟩
  | .local _ .vmem, ⟨22, _⟩ => ⟨S256, .f32⟩
  | .local _ .vmem, ⟨23, _⟩ => ⟨S256x256, .bf16⟩
  | .local _ .vmem, ⟨24, _⟩ => ⟨S256, .f32⟩
  | .local _ .vmem, ⟨25, _⟩ => ⟨S256x256, .bf16⟩
  | .local _ .vmem, ⟨26, _⟩ => ⟨S256, .f32⟩
  | .local _ .vmem, ⟨27, _⟩ => ⟨S256x1, .bf16⟩
  | .local _ .vmem, ⟨28, _⟩ => ⟨S1, .f32⟩
  | .local _ .vmem, ⟨29, _⟩ => ⟨S256x128, .bf16⟩
  | .local _ .vmem, ⟨30, _⟩ => ⟨S27x128, .bf16⟩
  | .local _ .vmem, ⟨31, _⟩ => ⟨S128, .f32⟩
  | .local _ .vmem, ⟨32, _⟩ => ⟨S128x3, .bf16⟩
  | .local _ .vmem, ⟨33, _⟩ => ⟨S3, .f32⟩
  | .local _ .vmem, ⟨34, _⟩ => ⟨S4096x4, .f32⟩
  | .local _ .vmem, ⟨35, _⟩ => ⟨S4096x4, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_cst_0 : Ref sig .tc := ⟨.hbm, 25, rfl⟩
abbrev main_cst_1 : Ref sig .tc := ⟨.hbm, 26, rfl⟩
abbrev main_cst_2 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg32_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem32_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x63 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x63 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x27 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x27 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S63x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S63x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x1 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x128 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S27x128 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x3 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S3 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 2 → Memref sig .tc .vmem S4096x4 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

class Facts₀ : Prop where
  transposes_S256x63_S63x256_1_0 : S256x63.Transposes [1, 0] S63x256
  bitsLt_bf16_f32 : FTy.bits .bf16 < FTy.bits .f32
  transposes_S256x256_S256x256_1_0 : S256x256.Transposes [1, 0] S256x256
  transposes_S256x319_S319x256_1_0 : S256x319.Transposes [1, 0] S319x256
  slices_S319x256_S256x256_0_0 : S319x256.Slices ![0, 0] S256x256
  slices_S319x256_S63x256_256_0 : S319x256.Slices ![256, 0] S63x256
  transposes_S257x256_S256x257_1_0 : S257x256.Transposes [1, 0] S256x257
  slices_S256x257_S256x256_0_0 : S256x257.Slices ![0, 0] S256x256
  slices_S256x257_S256x1_0_256 : S256x257.Slices ![0, 256] S256x1
  slices_S257_S256_0 : S257.Slices ![0] S256
  slices_S257_S1_256 : S257.Slices ![256] S1
  transposes_S128x283_S283x128_1_0 : S128x283.Transposes [1, 0] S283x128
  slices_S283x128_S256x128_0_0 : S283x128.Slices ![0, 0] S256x128
  slices_S283x128_S27x128_256_0 : S283x128.Slices ![256, 0] S27x128
  transposes_S3x128_S128x3_1_0 : S3x128.Transposes [1, 0] S128x3
  inb_S4096x3_S4096x3_0_0 : ∀ a, (![0, 0] : Fin 2 → Nat) a + S4096x3.size a ≤ S4096x3.size a
  h_S4096x3 : 0 < S4096x3.numel
  inb_S3x63_S3x63_0_0 : ∀ a, (![0, 0] : Fin 2 → Nat) a + S3x63.size a ≤ S3x63.size a
  h_S3x63 : 0 < S3x63.numel
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  slices_S3x63_o0_0_S1x63 : S3x63.Slices ![0, 0] S1x63
  broadcasts_S4096x1_S4096x63 : S4096x1.Broadcasts S4096x63
  broadcasts_S1x63_S4096x63 : S1x63.Broadcasts S4096x63
  slices_S3x63_o1_0_S1x63 : S3x63.Slices ![1, 0] S1x63
  slices_S3x63_o2_0_S1x63 : S3x63.Slices ![2, 0] S1x63
  inb_S3x27_S3x27_0_0 : ∀ a, (![0, 0] : Fin 2 → Nat) a + S3x27.size a ≤ S3x27.size a
  h_S3x27 : 0 < S3x27.numel
  slices_S3x27_o0_0_S1x27 : S3x27.Slices ![0, 0] S1x27
  broadcasts_S4096x1_S4096x27 : S4096x1.Broadcasts S4096x27
  broadcasts_S1x27_S4096x27 : S1x27.Broadcasts S4096x27
  slices_S3x27_o1_0_S1x27 : S3x27.Slices ![1, 0] S1x27
  slices_S3x27_o2_0_S1x27 : S3x27.Slices ![2, 0] S1x27
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S4096x1 : S1x1.Broadcasts S4096x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  concatenates_S4096x3_S4096x1_S4096x4_d1 : Shape.Concatenates [S4096x3, S4096x1] S4096x4 1
  inb_S4096x4_S4096x4_0_0 : ∀ a, (![0, 0] : Fin 2 → Nat) a + S4096x4.size a ≤ S4096x4.size a
  h_S4096x4 : 0 < S4096x4.numel
  slices_S262144x4_S262144x3_0_0 : S262144x4.Slices ![0, 0] S262144x3
  slices_S262144x4_S262144x1_0_3 : S262144x4.Slices ![0, 3] S262144x1
  shapeCasts_S262144x1_S262144 : S262144x1.ShapeCasts S262144
  dot_S4096x63_S63x256_S4096x256_1_0_0_1_n_n_wf : DotDims.WF S4096x63 S63x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S4096x256_S256x128_S4096x128_1_0_0_1_n_n_wf : DotDims.WF S4096x256 S256x128 S4096x128 [1] [0] [0] [1] [] []
  dot_S4096x27_S27x128_S4096x128_1_0_0_1_n_n_wf : DotDims.WF S4096x27 S27x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S262144x3.size a
  hwx0_0 : ∀ i : grid0.Coords, EltTy.bits .f32 = 32 ∨ (Rect.block (s := S262144x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S262144x3.size a
  hwx0_1 : ∀ i : grid0.Coords, EltTy.bits .f32 = 32 ∨ (Rect.block (s := S262144x3) S4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x63.size a ≤ S3x63.size a
  hwx0_2 : ∀ i : grid0.Coords, EltTy.bits .f32 = 32 ∨ (Rect.block (s := S3x63) S3x63.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x63.size a ≤ S3x63.size a
  hwx0_3 : ∀ i : grid0.Coords, EltTy.bits .f32 = 32 ∨ (Rect.block (s := S3x63) S3x63.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x27.size a ≤ S3x27.size a
  hwx0_4 : ∀ i : grid0.Coords, EltTy.bits .f32 = 32 ∨ (Rect.block (s := S3x27) S3x27.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x27.size a ≤ S3x27.size a
  hwx0_5 : ∀ i : grid0.Coords, EltTy.bits .f32 = 32 ∨ (Rect.block (s := S3x27) S3x27.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S63x256.size a ≤ S63x256.size a
  hwx0_6 : ∀ i : grid0.Coords, EltTy.bits .bf16 = 32 ∨ (Rect.block (s := S63x256) S63x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S63x256.size a ≤ S63x256.size a
  hwx0_17 : ∀ i : grid0.Coords, EltTy.bits .bf16 = 32 ∨ (Rect.block (s := S63x256) S63x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .bf16 = 32 ∨ (Rect.block (s := S256x256) S256x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256.size a ≤ S256.size a
  hwx0_22 : ∀ i : grid0.Coords, EltTy.bits .f32 = 32 ∨ (Rect.block (s := S256) S256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S256x256.size a
  hwx0_23 : ∀ i : grid0.Coords, EltTy.bits .bf16 = 32 ∨ (Rect.block (s := S256x256) S256x256.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256.size a ≤ S256.size a
  hwx0_24 : ∀ i : grid0.Coords, EltTy.bits .f32 = 32 ∨ (Rect.block (s := S256) S256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x1.size a ≤ S256x1.size a
  hwx0_25 : ∀ i : grid0.Coords, EltTy.bits .bf16 = 32 ∨ (Rect.block (s := S256x1) S256x1.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1.size a ≤ S1.size a
  hwx0_26 : ∀ i : grid0.Coords, EltTy.bits .f32 = 32 ∨ (Rect.block (s := S1) S1.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256x128.size a ≤ S256x128.size a
  hwx0_27 : ∀ i : grid0.Coords, EltTy.bits .bf16 = 32 ∨ (Rect.block (s := S256x128) S256x128.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S27x128.size a ≤ S27x128.size a
  hwx0_28 : ∀ i : grid0.Coords, EltTy.bits .bf16 = 32 ∨ (Rect.block (s := S27x128) S27x128.size (cc0_transform_28 i) (hinb0_28 i)).WholeWords (EltTy.packing .bf16)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128.size a ≤ S128.size a
  hwx0_29 : ∀ i : grid0.Coords, EltTy.bits .f32 = 32 ∨ (Rect.block (s := S128) S128.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S128x3.size a ≤ S128x3.size a
  hwx0_30 : ∀ i : grid0.Coords, EltTy.bits .bf16 = 32 ∨ (Rect.block (s := S128x3) S128x3.size (cc0_transform_30 i) (hinb0_30 i)).WholeWords (EltTy.packing .bf16)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S3.size a ≤ S3.size a
  hwx0_31 : ∀ i : grid0.Coords, EltTy.bits .f32 = 32 ∨ (Rect.block (s := S3) S3.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S4096x4.size a ≤ S262144x4.size a
  hwx0_32 : ∀ i : grid0.Coords, EltTy.bits .f32 = 32 ∨ (Rect.block (s := S262144x4) S4096x4.size (cc0_transform_32 i) (hinb0_32 i)).WholeWords (EltTy.packing .f32)

variable [Facts₀]

def dot_S4096x63_S63x256_S4096x256_1_0_0_1_n_n : DotDims S4096x63 S63x256 S4096x256 where
  lhsContracting := [1]
  rhsContracting := [0]
  lhsNonContracting := [0]
  rhsNonContracting := [1]
  lhsBatch := []
  rhsBatch := []
  wf := dot_S4096x63_S63x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x27_S27x128_S4096x128_1_0_0_1_n_n : DotDims S4096x27 S27x128 S4096x128 where
  lhsContracting := [1]
  rhsContracting := [0]
  lhsNonContracting := [0]
  rhsNonContracting := [1]
  lhsBatch := []
  rhsBatch := []
  wf := dot_S4096x27_S27x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S3x63.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst_0) S3x63.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_1) S3x27.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst_2) S3x27.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S63x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S63x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg13) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg15) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v17) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg17) S256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v20) S256x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v22) S256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v21) S256x1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v23) S1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v26) S256x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v27) S27x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg21) S128.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v29) S128x3.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg23) S3.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v30) S4096x4.size cc0_transform_32 reads0_32 true false 2 stage0_32 sem0_32
    hrank0 hreads0_32 hinb0_32 nbuf0_32 (Memref.isWhole_whole _) hwx0_32 hstage0_32

abbrev win0 : Fin 33 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | ⟨_ + 33, h⟩ => absurd h (Nat.not_lt.2 (Nat.le_add_left _ _))
abbrev spec0 : Fin 33 → Pipeline.WinSpec sig grid0.rank := fun w => (win0 w).toWinSpec

class Facts : Prop extends Facts₀ where

variable [Facts]
-- ==== ReferenceIdeal.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S257x256 : Shape := ⟨2, ![257, 256]⟩
abbrev S257 : Shape := ⟨1, ![257]⟩
abbrev S128x283 : Shape := ⟨2, ![128, 283]⟩
abbrev S128 : Shape := ⟨1, ![128]⟩
abbrev S3x128 : Shape := ⟨2, ![3, 128]⟩
abbrev S3 : Shape := ⟨1, ![3]⟩
abbrev S10 : Shape := ⟨1, ![10]⟩
abbrev S_ : Shape := ⟨0, ![]⟩
abbrev S262144x1x3 : Shape := ⟨3, ![262144, 1, 3]⟩
abbrev S10x1 : Shape := ⟨2, ![10, 1]⟩
abbrev S1x10x1 : Shape := ⟨3, ![1, 10, 1]⟩
abbrev S262144x10x3 : Shape := ⟨3, ![262144, 10, 3]⟩
abbrev S262144x10x6 : Shape := ⟨3, ![262144, 10, 6]⟩
abbrev S262144x60 : Shape := ⟨2, ![262144, 60]⟩
abbrev S262144x63 : Shape := ⟨2, ![262144, 63]⟩
abbrev S4 : Shape := ⟨1, ![4]⟩
abbrev S4x1 : Shape := ⟨2, ![4, 1]⟩
abbrev S1x4x1 : Shape := ⟨3, ![1, 4, 1]⟩
abbrev S262144x4x3 : Shape := ⟨3, ![262144, 4, 3]⟩
abbrev S262144x4x6 : Shape := ⟨3, ![262144, 4, 6]⟩
abbrev S262144x24 : Shape := ⟨2, ![262144, 24]⟩
abbrev S262144x27 : Shape := ⟨2, ![262144, 27]⟩
abbrev S63x256 : Shape := ⟨2, ![63, 256]⟩
abbrev S262144x256 : Shape := ⟨2, ![262144, 256]⟩
abbrev S1x256 : Shape := ⟨2, ![1, 256]⟩
abbrev S262144x319 : Shape := ⟨2, ![262144, 319]⟩
abbrev S319x256 : Shape := ⟨2, ![319, 256]⟩
abbrev S256x257 : Shape := ⟨2, ![256, 257]⟩
abbrev S262144x257 : Shape := ⟨2, ![262144, 257]⟩
abbrev S1x257 : Shape := ⟨2, ![1, 257]⟩
abbrev S262144x1 : Shape := ⟨2, ![262144, 1]⟩
abbrev S262144 : Shape := ⟨1, ![262144]⟩
abbrev S262144x283 : Shape := ⟨2, ![262144, 283]⟩
abbrev S283x128 : Shape := ⟨2, ![283, 128]⟩
abbrev S262144x128 : Shape := ⟨2, ![262144, 128]⟩
abbrev S1x128 : Shape := ⟨2, ![1, 128]⟩
abbrev S128x3 : Shape := ⟨2, ![128, 3]⟩
abbrev S1x3 : Shape := ⟨2, ![1, 3]⟩

abbrev nBuf : Space → Nat
  | .hbm => 156
  | .vmem => 0
  | .smem => 0
  | _ => 0

abbrev hbmTy0_0 (i : Nat) : BufTy := match i % 128 with
  | 0 => ⟨S262144x3, .f32⟩
  | 1 => ⟨S262144x3, .f32⟩
  | 2 => ⟨S256x63, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x319, .f32⟩
  | 13 => ⟨S256, .f32⟩
  | 14 => ⟨S256x256, .f32⟩
  | 15 => ⟨S256, .f32⟩
  | 16 => ⟨S256x256, .f32⟩
  | 17 => ⟨S256, .f32⟩
  | 18 => ⟨S257x256, .f32⟩
  | 19 => ⟨S257, .f32⟩
  | 20 => ⟨S128x283, .f32⟩
  | 21 => ⟨S128, .f32⟩
  | 22 => ⟨S3x128, .f32⟩
  | 23 => ⟨S3, .f32⟩
  | 24 => ⟨S10, .i32⟩
  | 25 => ⟨S10, .f32⟩
  | 26 => ⟨S_, .f32⟩
  | 27 => ⟨S10, .f32⟩
  | 28 => ⟨S10, .f32⟩
  | 29 => ⟨S10, .f32⟩
  | 30 => ⟨S262144x1x3, .f32⟩
  | 31 => ⟨S10x1, .f32⟩
  | 32 => ⟨S1x10x1, .f32⟩
  | 33 => ⟨S262144x10x3, .f32⟩
  | 34 => ⟨S262144x10x3, .f32⟩
  | 35 => ⟨S262144x10x3, .f32⟩
  | 36 => ⟨S262144x10x3, .f32⟩
  | 37 => ⟨S262144x10x3, .f32⟩
  | 38 => ⟨S262144x10x6, .f32⟩
  | 39 => ⟨S262144x60, .f32⟩
  | 40 => ⟨S262144x63, .f32⟩
  | 41 => ⟨S4, .i32⟩
  | 42 => ⟨S4, .f32⟩
  | 43 => ⟨S_, .f32⟩
  | 44 => ⟨S4, .f32⟩
  | 45 => ⟨S4, .f32⟩
  | 46 => ⟨S4, .f32⟩
  | 47 => ⟨S262144x1x3, .f32⟩
  | 48 => ⟨S4x1, .f32⟩
  | 49 => ⟨S1x4x1, .f32⟩
  | 50 => ⟨S262144x4x3, .f32⟩
  | 51 => ⟨S262144x4x3, .f32⟩
  | 52 => ⟨S262144x4x3, .f32⟩
  | 53 => ⟨S262144x4x3, .f32⟩
  | 54 => ⟨S262144x4x3, .f32⟩
  | 55 => ⟨S262144x4x6, .f32⟩
  | 56 => ⟨S262144x24, .f32⟩
  | 57 => ⟨S262144x27, .f32⟩
  | 58 => ⟨S63x256, .f32⟩
  | 59 => ⟨S262144x256, .f32⟩
  | 60 => ⟨S1x256, .f32⟩
  | 61 => ⟨S262144x256, .f32⟩
  | 62 => ⟨S262144x256, .f32⟩
  | 63 => ⟨S_, .f32⟩
  | 64 => ⟨S262144x256, .f32⟩
  | 65 => ⟨S262144x256, .f32⟩
  | 66 => ⟨S256x256, .f32⟩
  | 67 => ⟨S262144x256, .f32⟩
  | 68 => ⟨S1x256, .f32⟩
  | 69 => ⟨S262144x256, .f32⟩
  | 70 => ⟨S262144x256, .f32⟩
  | 71 => ⟨S_, .f32⟩
  | 72 => ⟨S262144x256, .f32⟩
  | 73 => ⟨S262144x256, .f32⟩
  | 74 => ⟨S256x256, .f32⟩
  | 75 => ⟨S262144x256, .f32⟩
  | 76 => ⟨S1x256, .f32⟩
  | 77 => ⟨S262144x256, .f32⟩
  | 78 => ⟨S262144x256, .f32⟩
  | 79 => ⟨S_, .f32⟩
  | 80 => ⟨S262144x256, .f32⟩
  | 81 => ⟨S262144x256, .f32⟩
  | 82 => ⟨S256x256, .f32⟩
  | 83 => ⟨S262144x256, .f32⟩
  | 84 => ⟨S1x256, .f32⟩
  | 85 => ⟨S262144x256, .f32⟩
  | 86 => ⟨S262144x256, .f32⟩
  | 87 => ⟨S_, .f32⟩
  | 88 => ⟨S262144x256, .f32⟩
  | 89 => ⟨S262144x256, .f32⟩
  | 90 => ⟨S256x256, .f32⟩
  | 91 => ⟨S262144x256, .f32⟩
  | 92 => ⟨S1x256, .f32⟩
  | 93 => ⟨S262144x256, .f32⟩
  | 94 => ⟨S262144x256, .f32⟩
  | 95 => ⟨S_, .f32⟩
  | 96 => ⟨S262144x256, .f32⟩
  | 97 => ⟨S262144x256, .f32⟩
  | 98 => ⟨S262144x319, .f32⟩
  | 99 => ⟨S319x256, .f32⟩
  | 100 => ⟨S262144x256, .f32⟩
  | 101 => ⟨S1x256, .f32⟩
  | 102 => ⟨S262144x256, .f32⟩
  | 103 => ⟨S262144x256, .f32⟩
  | 104 => ⟨S_, .f32⟩
  | 105 => ⟨S262144x256, .f32⟩
  | 106 => ⟨S262144x256, .f32⟩
  | 107 => ⟨S256x256, .f32⟩
  | 108 => ⟨S262144x256, .f32⟩
  | 109 => ⟨S1x256, .f32⟩
  | 110 => ⟨S262144x256, .f32⟩
  | 111 => ⟨S262144x256, .f32⟩
  | 112 => ⟨S_, .f32⟩
  | 113 => ⟨S262144x256, .f32⟩
  | 114 => ⟨S262144x256, .f32⟩
  | 115 => ⟨S256x256, .f32⟩
  | 116 => ⟨S262144x256, .f32⟩
  | 117 => ⟨S1x256, .f32⟩
  | 118 => ⟨S262144x256, .f32⟩
  | 119 => ⟨S262144x256, .f32⟩
  | 120 => ⟨S_, .f32⟩
  | 121 => ⟨S262144x256, .f32⟩
  | 122 => ⟨S262144x256, .f32⟩
  | 123 => ⟨S256x257, .f32⟩
  | 124 => ⟨S262144x257, .f32⟩
  | 125 => ⟨S1x257, .f32⟩
  | 126 => ⟨S262144x257, .f32⟩
  | 127 => ⟨S262144x257, .f32⟩
  | _ => ⟨S262144x3, .f32⟩

abbrev hbmTy0_1 (i : Nat) : BufTy := match i % 128 with
  | 0 => ⟨S262144x1, .f32⟩
  | 1 => ⟨S262144, .f32⟩
  | 2 => ⟨S262144x256, .f32⟩
  | 3 => ⟨S262144x283, .f32⟩
  | 4 => ⟨S283x128, .f32⟩
  | 5 => ⟨S262144x128, .f32⟩
  | 6 => ⟨S1x128, .f32⟩
  | 7 => ⟨S262144x128, .f32⟩
  | 8 => ⟨S262144x128, .f32⟩
  | 9 => ⟨S_, .f32⟩
  | 10 => ⟨S262144x128, .f32⟩
  | 11 => ⟨S262144x128, .f32⟩
  | 12 => ⟨S128x3, .f32⟩
  | 13 => ⟨S262144x3, .f32⟩
  | 14 => ⟨S1x3, .f32⟩
  | 15 => ⟨S262144x3, .f32⟩
  | 16 => ⟨S262144x3, .f32⟩
  | 17 => ⟨S262144x3, .f32⟩
  | 18 => ⟨S262144x3, .f32⟩
  | 19 => ⟨S_, .f32⟩
  | 20 => ⟨S262144x3, .f32⟩
  | 21 => ⟨S262144x3, .f32⟩
  | 22 => ⟨S_, .f32⟩
  | 23 => ⟨S262144x3, .f32⟩
  | 24 => ⟨S262144x3, .f32⟩
  | 25 => ⟨S_, .f32⟩
  | 26 => ⟨S262144, .f32⟩
  | 27 => ⟨S262144, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call0_cst : Ref sig .tc := ⟨.hbm, 63, rfl⟩
abbrev main_call0_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call1_cst : Ref sig .tc := ⟨.hbm, 71, rfl⟩
abbrev main_call1_v0 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call2_cst : Ref sig .tc := ⟨.hbm, 79, rfl⟩
abbrev main_call2_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call3_cst : Ref sig .tc := ⟨.hbm, 87, rfl⟩
abbrev main_call3_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call4_cst : Ref sig .tc := ⟨.hbm, 95, rfl⟩
abbrev main_call4_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call5_cst : Ref sig .tc := ⟨.hbm, 104, rfl⟩
abbrev main_call5_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call6_cst : Ref sig .tc := ⟨.hbm, 112, rfl⟩
abbrev main_call6_v0 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call7_cst : Ref sig .tc := ⟨.hbm, 120, rfl⟩
abbrev main_call7_v0 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call8_cst : Ref sig .tc := ⟨.hbm, 137, rfl⟩
abbrev main_call8_v0 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_1 : Ref sig .tc := ⟨.hbm, 147, rfl⟩
abbrev main_v103 : Ref sig .tc := ⟨.hbm, 148, rfl⟩
abbrev main_v104 : Ref sig .tc := ⟨.hbm, 149, rfl⟩
abbrev main_cst_2 : Ref sig .tc := ⟨.hbm, 150, rfl⟩
abbrev main_v105 : Ref sig .tc := ⟨.hbm, 151, rfl⟩
abbrev main_v106 : Ref sig .tc := ⟨.hbm, 152, rfl⟩
abbrev main_call9_cst : Ref sig .tc := ⟨.hbm, 153, rfl⟩
abbrev main_call9_v0 : Ref sig .tc := ⟨.hbm, 154, rfl⟩
abbrev main_v107 : Ref sig .tc := ⟨.hbm, 155, rfl⟩

abbrev nD : Nat := 1
abbrev τ : Topo := Topo.v7x

variable {F : FTy → Type} [FloatOps F]

class Facts₀ : Prop where
  bcast_S_S10 : S_.BroadcastsInDim S10 (![] : Fin 0 → Fin S10.rank)
  bcast_S262144x3_S262144x1x3_0_2 : S262144x3.BroadcastsInDim S262144x1x3 (![0, 2] : Fin 2 → Fin S262144x1x3.rank)
  bcast_S10_S10x1_0 : S10.BroadcastsInDim S10x1 (![0] : Fin 1 → Fin S10x1.rank)
  bcast_S10x1_S1x10x1_1_2 : S10x1.BroadcastsInDim S1x10x1 (![1, 2] : Fin 2 → Fin S1x10x1.rank)
  bcast_S262144x1x3_S262144x10x3_0_1_2 : S262144x1x3.BroadcastsInDim S262144x10x3 (![0, 1, 2] : Fin 3 → Fin S262144x10x3.rank)
  bcast_S1x10x1_S262144x10x3_0_1_2 : S1x10x1.BroadcastsInDim S262144x10x3 (![0, 1, 2] : Fin 3 → Fin S262144x10x3.rank)
  concatenates_S262144x10x3_S262144x10x3_S262144x10x6_d2 : Shape.Concatenates [S262144x10x3, S262144x10x3] S262144x10x6 2
  shapeCasts_S262144x10x6_S262144x60 : S262144x10x6.ShapeCasts S262144x60
  concatenates_S262144x3_S262144x60_S262144x63_d1 : Shape.Concatenates [S262144x3, S262144x60] S262144x63 1
  bcast_S_S4 : S_.BroadcastsInDim S4 (![] : Fin 0 → Fin S4.rank)
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S262144x1x3_S262144x4x3_0_1_2 : S262144x1x3.BroadcastsInDim S262144x4x3 (![0, 1, 2] : Fin 3 → Fin S262144x4x3.rank)
  bcast_S1x4x1_S262144x4x3_0_1_2 : S1x4x1.BroadcastsInDim S262144x4x3 (![0, 1, 2] : Fin 3 → Fin S262144x4x3.rank)
  concatenates_S262144x4x3_S262144x4x3_S262144x4x6_d2 : Shape.Concatenates [S262144x4x3, S262144x4x3] S262144x4x6 2
  shapeCasts_S262144x4x6_S262144x24 : S262144x4x6.ShapeCasts S262144x24
  concatenates_S262144x3_S262144x24_S262144x27_d1 : Shape.Concatenates [S262144x3, S262144x24] S262144x27 1
  transposes_S256x63_S63x256_1_0 : S256x63.Transposes [1, 0] S63x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  concatenates_S262144x256_S262144x63_S262144x319_d1 : Shape.Concatenates [S262144x256, S262144x63] S262144x319 1
  transposes_S256x319_S319x256_1_0 : S256x319.Transposes [1, 0] S319x256
  transposes_S257x256_S256x257_1_0 : S257x256.Transposes [1, 0] S256x257
  bcast_S257_S1x257_1 : S257.BroadcastsInDim S1x257 (![1] : Fin 1 → Fin S1x257.rank)
  bcast_S1x257_S262144x257_0_1 : S1x257.BroadcastsInDim S262144x257 (![0, 1] : Fin 2 → Fin S262144x257.rank)
  slices_S262144x257_S262144x1_0_256 : S262144x257.Slices ![0, 256] S262144x1
  shapeCasts_S262144x1_S262144 : S262144x1.ShapeCasts S262144
  slices_S262144x257_S262144x256_0_0 : S262144x257.Slices ![0, 0] S262144x256
  concatenates_S262144x256_S262144x27_S262144x283_d1 : Shape.Concatenates [S262144x256, S262144x27] S262144x283 1
  transposes_S128x283_S283x128_1_0 : S128x283.Transposes [1, 0] S283x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  bcast_S_S262144 : S_.BroadcastsInDim S262144 (![] : Fin 0 → Fin S262144.rank)
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x257_S262144x257_1_0_0_1_n_n_wf : DotDims.WF S262144x256 S256x257 S262144x257 [1] [0] [0] [1] [] []
  dot_S262144x283_S283x128_S262144x128_1_0_0_1_n_n_wf : DotDims.WF S262144x283 S283x128 S262144x128 [1] [0] [0] [1] [] []
  dot_S262144x128_S128x3_S262144x3_1_0_0_1_n_n_wf : DotDims.WF S262144x128 S128x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x257_S262144x257_1_0_0_1_n_n : DotDims S262144x256 S256x257 S262144x257 where
  lhsContracting := [1]
  rhsContracting := [0]
  lhsNonContracting := [0]
  rhsNonContracting := [1]
  lhsBatch := []
  rhsBatch := []
  wf := dot_S262144x256_S256x257_S262144x257_1_0_0_1_n_n_wf
def dot_S262144x283_S283x128_S262144x128_1_0_0_1_n_n : DotDims S262144x283 S283x128 S262144x128 where
  lhsContracting := [1]
  rhsContracting := [0]
  lhsNonContracting := [0]
  rhsNonContracting := [1]
  lhsBatch := []
  rhsBatch := []
  wf := dot_S262144x283_S283x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.Spec.lean ====
/-
  The network both programs compute, as one function of a row, on the extended reals.

  A sample point x ∈ ℝ³ is ENCODED as 3 + 6·L numbers: the three coordinates themselves, then for each level
  l < L the sines of the three coordinates scaled by 2^l followed by their cosines. Column col ≥ 3 therefore has
  level (col − 3) / 6, is a sine when (col − 3) % 6 < 3 and a cosine otherwise, and reads coordinate (col − 3) % 3.

  A DENSE layer with weight rows w j (fan-out × fan-in) and bias b sends h to j ↦ (∑ k, h k · w j k) + b j; the
  rectifier is max · 0. The network: five rectified dense layers on the 63-number encoding of the position; a
  rectified layer on that output joined with the encoding again (written here as the sum of the two partial
  products, over the first 256 and the last 63 weight columns); two more rectified layers; a last dense layer of
  257 outputs whose first 256 are features and whose last is the raw density; a rectified layer of 128 outputs on
  the features joined with the 27-number encoding of the direction (again as two partial products); a dense layer
  of 3 outputs under the logistic function: the colour. The density is the rectified raw density.
-/
import Idealize.ShloMosaic.PureOps.Ideal
import Idealize.ShloMosaic.PureOps.Ideal.Laws

noncomputable section

open scoped BigOperators

namespace Cert.Nerf

open Idealize.ShloMosaic

/-- The coordinate an encoding column reads. -/
def chan (col : ℕ) : ℕ := if col < 3 then col else (col - 3) % 3

theorem chan_lt (col : ℕ) : chan col < 3 := by
  unfold chan; split
  · assumption
  · exact Nat.mod_lt _ (by norm_num)

/-- The level of an encoding column past the first three. -/
def lev (col : ℕ) : ℕ := (col - 3) / 6

/-- The factor on the coordinate: 1 on the first three columns, 2^level after them. -/
def scale (col : ℕ) : EReal := if col < 3 then 1 else (((2 : ℝ) ^ lev col : ℝ) : EReal)

/-- One number of the encoding of x. -/
def encAt (x : Fin 3 → EReal) (col : ℕ) : EReal :=
  if col < 3 then x ⟨chan col, chan_lt col⟩
  else if (col - 3) % 6 < 3 then Ideal.sin (x ⟨chan col, chan_lt col⟩ * scale col)
  else Ideal.cos (x ⟨chan col, chan_lt col⟩ * scale col)

/-- A dense layer. -/
def dense {K N : ℕ} (w : Fin N → Fin K → EReal) (b : Fin N → EReal) (h : Fin K → EReal) : Fin N → EReal :=
  fun j => (∑ k : Fin K, h k * w j k) + b j

/-- A dense layer on two inputs joined end to end, as the sum of the two partial products. -/
def dense2 {K₁ K₂ N : ℕ} (w : Fin N → Fin (K₁ + K₂) → EReal) (b : Fin N → EReal)
    (h : Fin K₁ → EReal) (e : Fin K₂ → EReal) : Fin N → EReal :=
  fun j => ((∑ k : Fin K₁, h k * w j (Fin.castAdd K₂ k)) + (∑ k : Fin K₂, e k * w j (Fin.natAdd K₁ k))) + b j

/-- The rectifier. -/
def relu (v : EReal) : EReal := max v 0

/-- The weights and biases, each weight as fan-out rows of fan-in numbers. -/
structure Params where
  w10 : Fin 256 → Fin 63 → EReal
  b10 : Fin 256 → EReal
  w11 : Fin 256 → Fin 256 → EReal
  b11 : Fin 256 → EReal
  w12 : Fin 256 → Fin 256 → EReal
  b12 : Fin 256 → EReal
  w13 : Fin 256 → Fin 256 → EReal
  b13 : Fin 256 → EReal
  w14 : Fin 256 → Fin 256 → EReal
  b14 : Fin 256 → EReal
  w20 : Fin 256 → Fin (256 + 63) → EReal
  b20 : Fin 256 → EReal
  w21 : Fin 256 → Fin 256 → EReal
  b21 : Fin 256 → EReal
  w22 : Fin 256 → Fin 256 → EReal
  b22 : Fin 256 → EReal
  w23 : Fin 257 → Fin 256 → EReal
  b23 : Fin 257 → EReal
  wr0 : Fin 128 → Fin (256 + 27) → EReal
  br0 : Fin 128 → EReal
  wr1 : Fin 3 → Fin 128 → EReal
  br1 : Fin 3 → EReal

variable (P : Params) (x d : Fin 3 → EReal)

/-- The encoding of the position (63 numbers) and of the direction (27 numbers). -/
def xe : Fin 63 → EReal := fun k => encAt x k.val
def de : Fin 27 → EReal := fun k => encAt d k.val

def h1 : Fin 256 → EReal := fun j => relu (dense P.w10 P.b10 (xe x) j)
def h2 : Fin 256 → EReal := fun j => relu (dense P.w11 P.b11 (h1 P x) j)
def h3 : Fin 256 → EReal := fun j => relu (dense P.w12 P.b12 (h2 P x) j)
def h4 : Fin 256 → EReal := fun j => relu (dense P.w13 P.b13 (h3 P x) j)
def h5 : Fin 256 → EReal := fun j => relu (dense P.w14 P.b14 (h4 P x) j)
def g1 : Fin 256 → EReal := fun j => relu (dense2 P.w20 P.b20 (h5 P x) (xe x) j)
def g2 : Fin 256 → EReal := fun j => relu (dense P.w21 P.b21 (g1 P x) j)
def g3 : Fin 256 → EReal := fun j => relu (dense P.w22 P.b22 (g2 P x) j)
/-- The last layer of the second block: 256 features … -/
def feat : Fin 256 → EReal := fun j => dense P.w23 P.b23 (g3 P x) (Fin.castSucc j)
/-- … and the raw density. -/
def sigRaw : EReal := dense P.w23 P.b23 (g3 P x) (Fin.last 256)
def r1 : Fin 128 → EReal := fun j => relu (dense2 P.wr0 P.br0 (feat P x) (de d) j)
/-- The colour. -/
def rgb : Fin 3 → EReal := fun j => Ideal.logistic (dense P.wr1 P.br1 (r1 P x d) j)
/-- The density. -/
def sigma : EReal := relu (sigRaw P x)

end Cert.Nerf

end
-- ==== Proof.Args.lean ====
/-
  The spec's parameters read off the argument arrays: a weight argument of shape [fan-out, fan-in] gives the rows
  w j k = a (j, k), a bias argument of shape [fan-out] gives b j = a (j); a row of the positions or directions array
  is the point x c = a (n, c).
-/
import Idealize.ShloMosaic.Lib.ValueIdx
import proofs.«106108_j29403346108731_2_alg».proof.Proof.Spec

noncomputable section

namespace Cert.Nerf

open Idealize.ShloMosaic Idealize.ShloMosaic.ValueIdx

/-- Row n of an [N, 3] array, as a point. -/
def rowOf {N : ℕ} (a : (⟨2, ![N, 3]⟩ : Shape).Idx → EReal) (n : Fin N) : Fin 3 → EReal := fun c => a (ix2 n c)

/-- A weight matrix argument as rows. -/
def wOf {N K : ℕ} (a : (⟨2, ![N, K]⟩ : Shape).Idx → EReal) : Fin N → Fin K → EReal := fun j k => a (ix2 j k)

/-- A bias argument as a function of the output number. -/
def bOf {N : ℕ} (a : (⟨1, ![N]⟩ : Shape).Idx → EReal) : Fin N → EReal := fun j => a (ix1 j)

/-- The parameters, from the 22 weight and bias arguments in the order of the entry point's parameter list. -/
def paramsOf
    (a2 : (⟨2, ![256, 63]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![256, 256]⟩ : Shape).Idx → EReal) (a11 : (⟨1, ![256]⟩ : Shape).Idx → EReal)
    (a12 : (⟨2, ![256, 319]⟩ : Shape).Idx → EReal) (a13 : (⟨1, ![256]⟩ : Shape).Idx → EReal)
    (a14 : (⟨2, ![256, 256]⟩ : Shape).Idx → EReal) (a15 : (⟨1, ![256]⟩ : Shape).Idx → EReal)
    (a16 : (⟨2, ![256, 256]⟩ : Shape).Idx → EReal) (a17 : (⟨1, ![256]⟩ : Shape).Idx → EReal)
    (a18 : (⟨2, ![257, 256]⟩ : Shape).Idx → EReal) (a19 : (⟨1, ![257]⟩ : Shape).Idx → EReal)
    (a20 : (⟨2, ![128, 283]⟩ : Shape).Idx → EReal) (a21 : (⟨1, ![128]⟩ : Shape).Idx → EReal)
    (a22 : (⟨2, ![3, 128]⟩ : Shape).Idx → EReal) (a23 : (⟨1, ![3]⟩ : Shape).Idx → EReal) : Params where
  w10 := wOf a2
  b10 := bOf a3
  w11 := wOf a4
  b11 := bOf a5
  w12 := wOf a6
  b12 := bOf a7
  w13 := wOf a8
  b13 := bOf a9
  w14 := wOf a10
  b14 := bOf a11
  w20 := wOf (K := 256 + 63) a12
  b20 := bOf a13
  w21 := wOf a14
  b21 := bOf a15
  w22 := wOf a16
  b22 := bOf a17
  w23 := wOf a18
  b23 := bOf a19
  wr0 := wOf (K := 256 + 27) a20
  br0 := bOf a21
  wr1 := wOf a22
  br1 := bOf a23

end Cert.Nerf

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.KOps.lean ====
/-
  The kernel's dense-layer pieces read at an index, at the ideal values and for any extents: the product of a
  slab (cast to a shorter float format, which is the identity here) with a weight block into the zero accumulator
  is, at (i, j), the sum over k of slab (i, k) · block (k, j); a bias vector laid as one row and repeated down the
  slab is, at (i, j), the bias at j; the rectifier's zero slab is 0 everywhere; two slabs joined side by side read, at a
  column, the slab that column falls in.
-/
import Idealize.ShloMosaic.PureOps.Ideal.Laws
import Idealize.ShloMosaic.Lib.ValueIdx
import Idealize.ShloMosaic.Lib.ValueLayout
import Idealize.ShloMosaic.Lib.Pipeline.Value
import proofs.«106108_j29403346108731_2_alg».proof.Proof.LibPlainMatmul
import proofs.«106108_j29403346108731_2_alg».proof.Proof.Spec

noncomputable section

open scoped BigOperators

namespace Cert.Nerf.KOps

open Idealize.ShloMosaic Idealize.ShloMosaic.ValueIdx Idealize.ShloMosaic.PlainMatmul

variable {M K N : ℕ}

/-- The slab times the weight block, at (i, j). -/
theorem mm_apply {φ : FTy} (h : FVec Ideal ⟨2, ![M, K]⟩ φ) (hlt : FTy.bf16.bits < φ.bits) (W : FVec Ideal ⟨2, ![K, N]⟩ .bf16)
    (i : Fin M) (j : Fin N) :
    matmul (DotDims.plain M K N) none (truncf .bf16 h hlt) W
      (constant ⟨2, ![M, N]⟩ .f32 0x00000000#32) (ix2 i j) = ∑ k : Fin K, h (ix2 i k) * W (ix2 k j) := by
  rw [plainMatmul_apply]
  rfl

/-- The same with a left operand already in the short format. -/
theorem mm_apply' (h : FVec Ideal ⟨2, ![M, K]⟩ .bf16) (W : FVec Ideal ⟨2, ![K, N]⟩ .bf16)
    (i : Fin M) (j : Fin N) :
    matmul (DotDims.plain M K N) none h W
      (constant ⟨2, ![M, N]⟩ .f32 0x00000000#32) (ix2 i j) = ∑ k : Fin K, h (ix2 i k) * W (ix2 k j) := by
  rw [plainMatmul_apply]

/-- The bias as a row repeated down the slab, at (i, j). -/
theorem biasRow_apply (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (i : Fin M) (j : Fin N) :
    broadcastTo ⟨2, ![M, N]⟩ (shapeCast ⟨2, ![1, N]⟩ b h1) h2 (ix2 i j) = b (ix1 j) :=
  (broadcastTo_1b_ab_apply _ h2 i j).trans (shapeCast_a_1a_apply b h1 0 j)

/-- The rectifier's zero. -/
theorem zero_apply {s : Shape} (i : s.Idx) :
    broadcast s (Scalar.ofBits (F := Ideal) .f32 0x00000000#32) i = (0 : EReal) :=
  Ideal.ofBits_zero_f32

/-- A weight block stored fan-in × fan-out, as fan-out rows. -/
def wT (W : (⟨2, ![K, N]⟩ : Shape).Idx → EReal) : Fin N → Fin K → EReal := fun j k => W (ix2 k j)

/-- A bias block as a function of the output number. -/
def bv (b : (⟨1, ![N]⟩ : Shape).Idx → EReal) : Fin N → EReal := fun j => b (ix1 j)

/-- Product plus bias row, at (i, j): the dense layer on row i of the slab. -/
theorem lin_apply (h : FVec Ideal ⟨2, ![M, K]⟩ .f32) (hlt : FTy.bf16.bits < FTy.f32.bits) (W : FVec Ideal ⟨2, ![K, N]⟩ .bf16)
    (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (i : Fin M) (j : Fin N) :
    addf (matmul (DotDims.plain M K N) none (truncf .bf16 h hlt) W
        (constant ⟨2, ![M, N]⟩ .f32 0x00000000#32)) (broadcastTo ⟨2, ![M, N]⟩ (shapeCast ⟨2, ![1, N]⟩ b h1) h2) (ix2 i j)
      = Cert.Nerf.dense (wT W) (bv b) (fun k => h (ix2 i k)) j := by
  show matmul _ _ _ _ _ (ix2 i j) + broadcastTo _ _ _ (ix2 i j) = _
  rw [mm_apply, biasRow_apply]
  rfl

/-- The same with a left operand already in the short format. -/
theorem lin_apply' (h : FVec Ideal ⟨2, ![M, K]⟩ .bf16) (W : FVec Ideal ⟨2, ![K, N]⟩ .bf16)
    (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (i : Fin M) (j : Fin N) :
    addf (matmul (DotDims.plain M K N) none h W
        (constant ⟨2, ![M, N]⟩ .f32 0x00000000#32)) (broadcastTo ⟨2, ![M, N]⟩ (shapeCast ⟨2, ![1, N]⟩ b h1) h2) (ix2 i j)
      = Cert.Nerf.dense (wT W) (bv b) (fun k => h (ix2 i k)) j := by
  show matmul _ _ _ _ _ (ix2 i j) + broadcastTo _ _ _ (ix2 i j) = _
  rw [mm_apply', biasRow_apply]
  rfl

/-- A rectified slab, at an index. -/
theorem relu_apply {s : Shape} (v : FVec Ideal s .f32) (i : s.Idx) :
    maximumf v (broadcast s (Scalar.ofBits (F := Ideal) .f32 0x00000000#32)) i = Cert.Nerf.relu (v i) := by
  show max (v i) (broadcast s _ i) = _
  rw [zero_apply]
  rfl

section Concat
variable {α : Type} {a b c : ℕ}

/-- Two slabs joined side by side: a column of the first. -/
theorem concat_cols_left (x₁ : (⟨2, ![M, a]⟩ : Shape).Idx → α) (x₂ : (⟨2, ![M, b]⟩ : Shape).Idx → α)
    (h : Shape.Concatenates [(⟨2, ![M, a]⟩ : Shape), ⟨2, ![M, b]⟩] ⟨2, ![M, c]⟩ (1 : Fin 2))
    (i : Fin M) (j : Fin a) (jc : Fin c) (hj : jc.val = j.val) :
    concatenate ⟨2, ![M, c]⟩ (1 : Fin 2) [⟨⟨2, ![M, a]⟩, x₁⟩, ⟨⟨2, ![M, b]⟩, x₂⟩] h (ix2 i jc) = x₁ (ix2 i j) :=
  concatenate_pair_apply_left (1 : Fin 2) x₁ x₂ h (ix2 i jc) rfl (ix2 i j) (fun d => by
    match d with
    | ⟨0, _⟩ => rfl
    | ⟨1, _⟩ => exact hj.symm)

/-- Two slabs joined side by side: a column of the second. -/
theorem concat_cols_right (x₁ : (⟨2, ![M, a]⟩ : Shape).Idx → α) (x₂ : (⟨2, ![M, b]⟩ : Shape).Idx → α)
    (h : Shape.Concatenates [(⟨2, ![M, a]⟩ : Shape), ⟨2, ![M, b]⟩] ⟨2, ![M, c]⟩ (1 : Fin 2))
    (i : Fin M) (j : Fin b) (jc : Fin c) (hj : jc.val = a + j.val) :
    concatenate ⟨2, ![M, c]⟩ (1 : Fin 2) [⟨⟨2, ![M, a]⟩, x₁⟩, ⟨⟨2, ![M, b]⟩, x₂⟩] h (ix2 i jc) = x₂ (ix2 i j) :=
  concatenate_pair_apply_right (1 : Fin 2) x₁ x₂ h (ix2 i jc) rfl rfl (ix2 i j)
    (fun d hd => by
      match d with
      | ⟨0, _⟩ => rfl
      | ⟨1, _⟩ => exact absurd rfl hd)
    (by show j.val + a = jc.val; omega)

end Concat

end Cert.Nerf.KOps

end
-- ==== Proof.KernelNet.lean ====
/-
  The kernel body's arithmetic, piece by piece, read at an index at the ideal values. The body is cut into pure
  terms of the blocks it loads: the first two rectified layers and the third layer's product; that layer's bias row;
  the third to fifth layers and the layer on the fifth layer's output joined with the position's encoding (two partial
  products summed, then the bias); two more rectified layers; the raw density (a one-column layer); the 256 features
  and their product with the first 256 rows of the colour head's weights; the colour head (that product plus the
  product of the direction's encoding with the last 27 rows, the bias, the rectifier, a last layer of three outputs
  under the logistic function) and the rectified density, written side by side as four columns. Each lemma says
  what its term is at row r and column j as sums over the contracted index.
-/
import Idealize.ShloMosaic.Lib.ValueIdx
import Idealize.ShloMosaic.Lib.ValueLayout
import Idealize.ShloMosaic.Lib.Pipeline.Value
import proofs.«106108_j29403346108731_2_alg».proof.Proof.Gen.KernelIdeal.Skeleton
import proofs.«106108_j29403346108731_2_alg».proof.Proof.Spec
import proofs.«106108_j29403346108731_2_alg».proof.Proof.KOps

noncomputable section

open scoped BigOperators

namespace Cert.KernelIdeal.KNet

open Cert.KernelIdeal Cert.KernelIdeal.Gen Idealize.ShloMosaic Idealize.ShloMosaic.ValueIdx Cert.Nerf Cert.Nerf.KOps

theorem dot_63_256 : dot_S4096x63_S63x256_S4096x256_1_0_0_1_n_n = DotDims.plain 4096 63 256 := rfl
theorem dot_256_256 : dot_S4096x256_S256x256_S4096x256_1_0_0_1_n_n = DotDims.plain 4096 256 256 := rfl
theorem dot_256_1 : dot_S4096x256_S256x1_S4096x1_1_0_0_1_n_n = DotDims.plain 4096 256 1 := rfl
theorem dot_256_128 : dot_S4096x256_S256x128_S4096x128_1_0_0_1_n_n = DotDims.plain 4096 256 128 := rfl
theorem dot_27_128 : dot_S4096x27_S27x128_S4096x128_1_0_0_1_n_n = DotDims.plain 4096 27 128 := rfl
theorem dot_128_3 : dot_S4096x128_S128x3_S4096x3_1_0_0_1_n_n = DotDims.plain 4096 128 3 := rfl

/-! ## Each piece of the body, at an index, from the blocks it reads -/

/-- Layers 1 and 2 and the third layer's product: at (r, j), the sum over k of (layer 2 of layer 1 of row r) k · block (k, j). -/
theorem pay7_apply (v33 : FVec Ideal S4096x63 .f32) (v66 : Vec Ideal S63x256 .bf16) (v68 : Vec Ideal S256 .f32)
    (v76 : Vec Ideal S256x256 .bf16) (v78 : Vec Ideal S256 .f32) (v86 : Vec Ideal S256x256 .bf16) (r : Fin 4096) (j : Fin 256) :
    k0_pay7 v33 v66 v68 v76 v78 v86 (ix2 r j)
      = ∑ k : Fin 256, relu (dense (wT v76) (bv v78) (fun k' => relu (dense (wT v66) (bv v68) (fun k'' => v33 (ix2 r k'')) k')) k) * wT v86 j k := by
  unfold k0_pay7
  simp only [dot_63_256, dot_256_256, shapeCast_self]
  rw [mm_apply]
  simp only [relu_apply, lin_apply]
  rfl

/-- The third layer's bias row. -/
theorem pay8_apply (v88 : Vec Ideal S256 .f32) (r : Fin 4096) (j : Fin 256) : k0_pay8 v88 (ix2 r j) = bv v88 j := by
  unfold k0_pay8
  exact biasRow_apply _ _ _ r j

/-- Layers 3 (rectified sum of product and bias), 4, 5 and the layer on the join with the encoding. -/
theorem pay9_apply (v33 : FVec Ideal S4096x63 .f32) (v90 v92 : FVec Ideal S4096x256 .f32) (v96 : Vec Ideal S256x256 .bf16)
    (v98 : Vec Ideal S256 .f32) (v106 : Vec Ideal S256x256 .bf16) (v108 : Vec Ideal S256 .f32) (v118 : Vec Ideal S256x256 .bf16)
    (v121 : Vec Ideal S63x256 .bf16) (v125 : Vec Ideal S256 .f32) (r : Fin 4096) (j : Fin 256) :
    k0_pay9 v33 v90 v92 v96 v98 v106 v108 v118 v121 v125 (ix2 r j)
      = relu (((∑ k : Fin 256, relu (dense (wT v106) (bv v108) (fun k' => relu (dense (wT v96) (bv v98)
            (fun k'' => relu (v90 (ix2 r k'') + v92 (ix2 r k''))) k')) k) * wT v118 j k)
          + (∑ k : Fin 63, v33 (ix2 r k) * wT v121 j k)) + bv v125 j) := by
  unfold k0_pay9
  simp only [dot_63_256, dot_256_256, shapeCast_self]
  rw [relu_apply]
  show relu ((matmul (F := Ideal) _ _ _ _ _ (ix2 r j) + matmul (F := Ideal) _ _ _ _ _ (ix2 r j)) + broadcastTo _ _ _ (ix2 r j)) = _
  rw [mm_apply, mm_apply, biasRow_apply]
  simp only [relu_apply, lin_apply]
  rfl

/-- Two more rectified layers. -/
theorem pay10_apply (v130 : FVec Ideal S4096x256 .f32) (v131 : Vec Ideal S256x256 .bf16) (v133 : Vec Ideal S256 .f32)
    (v141 : Vec Ideal S256x256 .bf16) (v143 : Vec Ideal S256 .f32) (r : Fin 4096) (j : Fin 256) :
    k0_pay10 v130 v131 v133 v141 v143 (ix2 r j)
      = relu (dense (wT v141) (bv v143) (fun k' => relu (dense (wT v131) (bv v133) (fun k'' => v130 (ix2 r k'')) k')) j) := by
  unfold k0_pay10
  simp only [dot_256_256, shapeCast_self]
  show maximumf (F := Ideal) _ _ (ix2 r j) = _
  simp only [relu_apply, lin_apply]

/-- The raw density: the one-column dense layer. -/
theorem pay11_apply (v130 : FVec Ideal S4096x256 .f32) (v131 : Vec Ideal S256x256 .bf16) (v133 : Vec Ideal S256 .f32)
    (v141 : Vec Ideal S256x256 .bf16) (v143 : Vec Ideal S256 .f32) (v160 : Vec Ideal S256x1 .bf16) (v163 : Vec Ideal S1 .f32)
    (r : Fin 4096) (z : Fin 1) :
    k0_pay11 v130 v131 v133 v141 v143 v160 v163 (ix2 r z)
      = dense (wT v160) (bv v163) (fun k => k0_pay10 v130 v131 v133 v141 v143 (ix2 r k)) z := by
  unfold k0_pay11
  simp only [dot_256_1, shapeCast_self]
  exact lin_apply' _ _ _ _ _ r z

/-- The features, then their product with the first part of the colour head's weights. -/
theorem pay13_apply (v130 : FVec Ideal S4096x256 .f32) (v131 : Vec Ideal S256x256 .bf16) (v133 : Vec Ideal S256 .f32)
    (v141 : Vec Ideal S256x256 .bf16) (v143 : Vec Ideal S256 .f32) (v152 : Vec Ideal S256x256 .bf16) (v155 : Vec Ideal S256 .f32)
    (v170 : Vec Ideal S256x128 .bf16) (r : Fin 4096) (j : Fin 128) :
    k0_pay13 v130 v131 v133 v141 v143 v152 v155 v170 (ix2 r j)
      = ∑ k : Fin 256, dense (wT v152) (bv v155) (fun k' => k0_pay10 v130 v131 v133 v141 v143 (ix2 r k')) k * wT v170 j k := by
  unfold k0_pay13
  simp only [dot_256_256, dot_256_128, shapeCast_self]
  rw [mm_apply]
  simp only [lin_apply']
  rfl

/-- The colour head's rectified layer (two partial products and the bias), at (r, k). -/
def headAt (v169 : FVec Ideal S4096x27 .bf16) (v172 : FVec Ideal S4096x128 .f32) (v173 : Vec Ideal S27x128 .bf16)
    (v177 : Vec Ideal S128 .f32) (r : Fin 4096) (k : Fin 128) : EReal :=
  relu ((v172 (ix2 r k) + ∑ k' : Fin 27, v169 (ix2 r k') * wT v173 k k') + bv v177 k)

/-- The output block's colour columns. -/
theorem pay1_rgb (v167 : FVec Ideal S4096x1 .f32) (v169 : FVec Ideal S4096x27 .bf16) (v172 : FVec Ideal S4096x128 .f32)
    (v173 : Vec Ideal S27x128 .bf16) (v177 : Vec Ideal S128 .f32) (v183 : Vec Ideal S128x3 .bf16) (v185 : Vec Ideal S3 .f32)
    (r : Fin 4096) (j : Fin 3) (jc : Fin 4) (hj : jc.val = j.val) :
    k0_pay1 v167 v169 v172 v173 v177 v183 v185 (ix2 r jc)
      = Ideal.logistic (dense (wT v183) (bv v185) (fun k => headAt v169 v172 v173 v177 r k) j) := by
  unfold k0_pay1
  simp only [dot_27_128, dot_128_3, shapeCast_self]
  rw [concat_cols_left _ _ _ r j jc hj]
  show Ideal.logistic (addf (F := Ideal) _ _ (ix2 r j)) = _
  rw [lin_apply]
  simp only [relu_apply]
  refine congrArg Ideal.logistic (congrArg (fun f => dense (wT v183) (bv v185) f j) (funext fun k => ?_))
  show relu ((v172 (ix2 r k) + matmul (F := Ideal) _ _ _ _ _ (ix2 r k)) + broadcastTo _ _ _ (ix2 r k)) = _
  rw [mm_apply', biasRow_apply]
  rfl

/-- The output block's density column. -/
theorem pay1_sigma (v167 : FVec Ideal S4096x1 .f32) (v169 : FVec Ideal S4096x27 .bf16) (v172 : FVec Ideal S4096x128 .f32)
    (v173 : Vec Ideal S27x128 .bf16) (v177 : Vec Ideal S128 .f32) (v183 : Vec Ideal S128x3 .bf16) (v185 : Vec Ideal S3 .f32)
    (r : Fin 4096) (jc : Fin 4) (hj : jc.val = 3) :
    k0_pay1 v167 v169 v172 v173 v177 v183 v185 (ix2 r jc) = relu (v167 (ix2 r 0)) := by
  unfold k0_pay1
  simp only [dot_27_128, dot_128_3, shapeCast_self]
  rw [concat_cols_right _ _ _ r (0 : Fin 1) jc (by rw [hj]; rfl)]
  exact relu_apply _ _

end Cert.KernelIdeal.KNet

end
-- ==== Proof.KernelChain.lean ====
/-
  The kernel body as the network of the specification. The body is written over the two encoding slabs and the 26
  weight and bias blocks; when each block holds the matching parameter — a weight block stored fan-in × fan-out holds
  w j k at (k, j); the two blocks of a layer on joined inputs hold the first and the last weight columns; the 257-output
  layer is split into its first 256 outputs and its last one — row r of the output block is the colour and the
  density of the points whose encodings are row r of the slabs.
-/
import proofs.«106108_j29403346108731_2_alg».proof.Proof.KernelNet

noncomputable section

open scoped BigOperators

namespace Cert.KernelIdeal.KNet

open Cert.KernelIdeal Cert.KernelIdeal.Gen Idealize.ShloMosaic Idealize.ShloMosaic.ValueIdx Cert.Nerf Cert.Nerf.KOps

/-- The body's stored value, from the encoding slabs and the blocks. -/
def body (XE : FVec Ideal S4096x63 .f32) (DE : FVec Ideal S4096x27 .f32)
    (x6 : Vec Ideal S63x256 .bf16) (x7 : Vec Ideal S256 .f32) (x8 : Vec Ideal S256x256 .bf16) (x9 : Vec Ideal S256 .f32)
    (x10 : Vec Ideal S256x256 .bf16) (x11 : Vec Ideal S256 .f32) (x12 : Vec Ideal S256x256 .bf16) (x13 : Vec Ideal S256 .f32)
    (x14 : Vec Ideal S256x256 .bf16) (x15 : Vec Ideal S256 .f32) (x16 : Vec Ideal S256x256 .bf16) (x17 : Vec Ideal S63x256 .bf16)
    (x18 : Vec Ideal S256 .f32) (x19 : Vec Ideal S256x256 .bf16) (x20 : Vec Ideal S256 .f32) (x21 : Vec Ideal S256x256 .bf16)
    (x22 : Vec Ideal S256 .f32) (x23 : Vec Ideal S256x256 .bf16) (x24 : Vec Ideal S256 .f32) (x25 : Vec Ideal S256x1 .bf16)
    (x26 : Vec Ideal S1 .f32) (x27 : Vec Ideal S256x128 .bf16) (x28 : Vec Ideal S27x128 .bf16) (x29 : Vec Ideal S128 .f32)
    (x30 : Vec Ideal S128x3 .bf16) (x31 : Vec Ideal S3 .f32) : FVec Ideal S4096x4 .f32 :=
  k0_pay1 (k0_pay11 (k0_pay9 XE (k0_pay7 XE x6 x7 x8 x9 x10) (k0_pay8 x11) x12 x13 x14 x15 x16 x17 x18) x19 x20 x21 x22 x25 x26) (k0_pay12 DE)
    (k0_pay13 (k0_pay9 XE (k0_pay7 XE x6 x7 x8 x9 x10) (k0_pay8 x11) x12 x13 x14 x15 x16 x17 x18) x19 x20 x21 x22 x23 x24 x27) x28 x29 x30 x31

/-- Each block holds its parameter. -/
structure Ties (P : Params)
    (x6 : Vec Ideal S63x256 .bf16) (x7 : Vec Ideal S256 .f32) (x8 : Vec Ideal S256x256 .bf16) (x9 : Vec Ideal S256 .f32)
    (x10 : Vec Ideal S256x256 .bf16) (x11 : Vec Ideal S256 .f32) (x12 : Vec Ideal S256x256 .bf16) (x13 : Vec Ideal S256 .f32)
    (x14 : Vec Ideal S256x256 .bf16) (x15 : Vec Ideal S256 .f32) (x16 : Vec Ideal S256x256 .bf16) (x17 : Vec Ideal S63x256 .bf16)
    (x18 : Vec Ideal S256 .f32) (x19 : Vec Ideal S256x256 .bf16) (x20 : Vec Ideal S256 .f32) (x21 : Vec Ideal S256x256 .bf16)
    (x22 : Vec Ideal S256 .f32) (x23 : Vec Ideal S256x256 .bf16) (x24 : Vec Ideal S256 .f32) (x25 : Vec Ideal S256x1 .bf16)
    (x26 : Vec Ideal S1 .f32) (x27 : Vec Ideal S256x128 .bf16) (x28 : Vec Ideal S27x128 .bf16) (x29 : Vec Ideal S128 .f32)
    (x30 : Vec Ideal S128x3 .bf16) (x31 : Vec Ideal S3 .f32) : Prop where
  t6 : wT x6 = P.w10
  t7 : bv x7 = P.b10
  t8 : wT x8 = P.w11
  t9 : bv x9 = P.b11
  t10 : wT x10 = P.w12
  t11 : bv x11 = P.b12
  t12 : wT x12 = P.w13
  t13 : bv x13 = P.b13
  t14 : wT x14 = P.w14
  t15 : bv x15 = P.b14
  t16 : ∀ j k, wT x16 j k = P.w20 j (Fin.castAdd 63 k)
  t17 : ∀ j k, wT x17 j k = P.w20 j (Fin.natAdd 256 k)
  t18 : bv x18 = P.b20
  t19 : wT x19 = P.w21
  t20 : bv x20 = P.b21
  t21 : wT x21 = P.w22
  t22 : bv x22 = P.b22
  t23 : ∀ j k, wT x23 j k = P.w23 (Fin.castSucc j) k
  t24 : ∀ j, bv x24 j = P.b23 (Fin.castSucc j)
  t25 : ∀ k, wT x25 0 k = P.w23 (Fin.last 256) k
  t26 : bv x26 0 = P.b23 (Fin.last 256)
  t27 : ∀ j k, wT x27 j k = P.wr0 j (Fin.castAdd 27 k)
  t28 : ∀ j k, wT x28 j k = P.wr0 j (Fin.natAdd 256 k)
  t29 : bv x29 = P.br0
  t30 : wT x30 = P.wr1
  t31 : bv x31 = P.br1

section Chain

variable (P : Params) (x d : Fin 3 → EReal) (XE : FVec Ideal S4096x63 .f32) (DE : FVec Ideal S4096x27 .f32)
    (x6 : Vec Ideal S63x256 .bf16) (x7 : Vec Ideal S256 .f32) (x8 : Vec Ideal S256x256 .bf16) (x9 : Vec Ideal S256 .f32)
    (x10 : Vec Ideal S256x256 .bf16) (x11 : Vec Ideal S256 .f32) (x12 : Vec Ideal S256x256 .bf16) (x13 : Vec Ideal S256 .f32)
    (x14 : Vec Ideal S256x256 .bf16) (x15 : Vec Ideal S256 .f32) (x16 : Vec Ideal S256x256 .bf16) (x17 : Vec Ideal S63x256 .bf16)
    (x18 : Vec Ideal S256 .f32) (x19 : Vec Ideal S256x256 .bf16) (x20 : Vec Ideal S256 .f32) (x21 : Vec Ideal S256x256 .bf16)
    (x22 : Vec Ideal S256 .f32) (x23 : Vec Ideal S256x256 .bf16) (x24 : Vec Ideal S256 .f32) (x25 : Vec Ideal S256x1 .bf16)
    (x26 : Vec Ideal S1 .f32) (x27 : Vec Ideal S256x128 .bf16) (x28 : Vec Ideal S27x128 .bf16) (x29 : Vec Ideal S128 .f32)
    (x30 : Vec Ideal S128x3 .bf16) (x31 : Vec Ideal S3 .f32)
    (T : Ties P x6 x7 x8 x9 x10 x11 x12 x13 x14 x15 x16 x17 x18 x19 x20 x21 x22 x23 x24 x25 x26 x27 x28 x29 x30 x31) (r : Fin 4096)
    (hxe : ∀ k, XE (ix2 r k) = xe x k) (hde : ∀ k, DE (ix2 r k) = de d k)

include T hxe in
/-- After two layers: the third layer's product. -/
theorem s7 (j : Fin 256) : k0_pay7 XE x6 x7 x8 x9 x10 (ix2 r j) = ∑ k : Fin 256, h2 P x k * P.w12 j k := by
  rw [pay7_apply, T.t6, T.t7, T.t8, T.t9, T.t10]
  simp only [hxe]
  rfl

include T hxe in
/-- After the layer on the join with the position's encoding. -/
theorem s9 (j : Fin 256) : (k0_pay9 XE (k0_pay7 XE x6 x7 x8 x9 x10) (k0_pay8 x11) x12 x13 x14 x15 x16 x17 x18) (ix2 r j) = g1 P x j := by
  rw [pay9_apply, T.t12, T.t13, T.t14, T.t15, T.t18]
  simp only [s7 P x XE x6 x7 x8 x9 x10 x11 x12 x13 x14 x15 x16 x17 x18 x19 x20 x21 x22 x23 x24 x25 x26 x27 x28 x29 x30 x31 T r hxe,
    pay8_apply, T.t11, T.t16, T.t17, hxe]
  rfl

include T hxe in
/-- After the second block's three rectified layers. -/
theorem s10 (j : Fin 256) : k0_pay10 (k0_pay9 XE (k0_pay7 XE x6 x7 x8 x9 x10) (k0_pay8 x11) x12 x13 x14 x15 x16 x17 x18) x19 x20 x21 x22 (ix2 r j) = g3 P x j := by
  rw [pay10_apply, T.t19, T.t20, T.t21, T.t22]
  simp only [s9 P x XE x6 x7 x8 x9 x10 x11 x12 x13 x14 x15 x16 x17 x18 x19 x20 x21 x22 x23 x24 x25 x26 x27 x28 x29 x30 x31 T r hxe]
  rfl

include T hxe in
/-- The raw density. -/
theorem s11 : k0_pay11 (k0_pay9 XE (k0_pay7 XE x6 x7 x8 x9 x10) (k0_pay8 x11) x12 x13 x14 x15 x16 x17 x18) x19 x20 x21 x22 x25 x26 (ix2 r 0) = sigRaw P x := by
  rw [pay11_apply]
  simp only [s10 P x XE x6 x7 x8 x9 x10 x11 x12 x13 x14 x15 x16 x17 x18 x19 x20 x21 x22 x23 x24 x25 x26 x27 x28 x29 x30 x31 T r hxe, dense, T.t25, T.t26]
  rfl

include T hxe in
/-- The features times the first part of the colour head's weights. -/
theorem s13 (j : Fin 128) : k0_pay13 (k0_pay9 XE (k0_pay7 XE x6 x7 x8 x9 x10) (k0_pay8 x11) x12 x13 x14 x15 x16 x17 x18) x19 x20 x21 x22 x23 x24 x27 (ix2 r j)
    = ∑ k : Fin 256, feat P x k * P.wr0 j (Fin.castAdd 27 k) := by
  rw [pay13_apply]
  simp only [s10 P x XE x6 x7 x8 x9 x10 x11 x12 x13 x14 x15 x16 x17 x18 x19 x20 x21 x22 x23 x24 x25 x26 x27 x28 x29 x30 x31 T r hxe, dense, T.t23, T.t24, T.t27]
  rfl

include T hxe hde in
/-- The colour columns of row r. -/
theorem body_rgb (j : Fin 3) (jc : Fin 4) (hj : jc.val = j.val) :
    body XE DE x6 x7 x8 x9 x10 x11 x12 x13 x14 x15 x16 x17 x18 x19 x20 x21 x22 x23 x24 x25 x26 x27 x28 x29 x30 x31 (ix2 r jc) = rgb P x d j := by
  unfold body
  rw [pay1_rgb _ _ _ _ _ _ _ r j jc hj, T.t30, T.t31]
  unfold headAt
  simp only [s13 P x XE x6 x7 x8 x9 x10 x11 x12 x13 x14 x15 x16 x17 x18 x19 x20 x21 x22 x23 x24 x25 x26 x27 x28 x29 x30 x31 T r hxe, T.t28, T.t29]
  refine congrArg Ideal.logistic (congrArg (fun f => dense P.wr1 P.br1 f j) (funext fun k => ?_))
  show relu (((∑ k' : Fin 256, feat P x k' * P.wr0 k (Fin.castAdd 27 k')) + ∑ k' : Fin 27, DE (ix2 r k') * P.wr0 k (Fin.natAdd 256 k')) + P.br0 k) = _
  simp only [hde]
  rfl

include T hxe in
/-- The density column of row r. -/
theorem body_sigma (jc : Fin 4) (hj : jc.val = 3) :
    body XE DE x6 x7 x8 x9 x10 x11 x12 x13 x14 x15 x16 x17 x18 x19 x20 x21 x22 x23 x24 x25 x26 x27 x28 x29 x30 x31 (ix2 r jc) = sigma P x := by
  unfold body
  rw [pay1_sigma _ _ _ _ _ _ _ r jc hj, s11 P x XE x6 x7 x8 x9 x10 x11 x12 x13 x14 x15 x16 x17 x18 x19 x20 x21 x22 x23 x24 x25 x26 x27 x28 x29 x30 x31 T r hxe]
  rfl

end Chain

end Cert.KernelIdeal.KNet

end
-- ==== Proof.EncAlg.lean ====
/-
  The algebra of the table form of the encoding, on the extended reals.

  The table form multiplies the three coordinates of a point by the three entries of a column of a frequency table,
  adds the products, and selects the sum, its sine or its cosine with the three entries of a column of a 0/1 table.
  A frequency column has the column's scale in the row of the coordinate the column reads and 0 elsewhere, so the sum
  of the three products is that coordinate times the scale: x · 0 = 0 and 0 + y = y hold for every extended real,
  an infinite one included, so no finiteness is asked. A selector column has 1 in exactly one row (row 0 on the first
  three columns, row 1 on a sine column, row 2 on a cosine column), so the selected sum is the one term: y · 1 = y.
-/
import proofs.«106108_j29403346108731_2_alg».proof.Proof.Spec

noncomputable section

namespace Cert.KernelIdeal.KEnc

open Idealize.ShloMosaic Cert.Nerf

/-- The frequency table's entry in row c of column col: the column's scale if the column reads coordinate c. -/
def freqAt (c col : ℕ) : EReal := if chan col = c then scale col else 0

/-- The selector table's row 0: the columns that pass the coordinate itself. -/
def mask0 (col : ℕ) : EReal := if col < 3 then 1 else 0

/-- The selector table's row 1: the sine columns. -/
def mask1 (col : ℕ) : EReal := if 3 ≤ col ∧ (col - 3) % 6 < 3 then 1 else 0

/-- The selector table's row 2: the cosine columns. -/
def mask2 (col : ℕ) : EReal := if 3 ≤ col ∧ 3 ≤ (col - 3) % 6 then 1 else 0

/-- The three products against a frequency column add up to the coordinate the column reads, times its scale. -/
theorem raw_eq (x : Fin 3 → EReal) (col : ℕ) :
    x 0 * freqAt 0 col + x 1 * freqAt 1 col + x 2 * freqAt 2 col = x ⟨chan col, chan_lt col⟩ * scale col := by
  have h := chan_lt col
  unfold freqAt
  rcases (show chan col = 0 ∨ chan col = 1 ∨ chan col = 2 by omega) with h0 | h0 | h0
  · have e : (⟨chan col, chan_lt col⟩ : Fin 3) = 0 := Fin.ext h0
    rw [e, h0, if_pos rfl, if_neg (by decide), if_neg (by decide), mul_zero, mul_zero, add_zero, add_zero]
  · have e : (⟨chan col, chan_lt col⟩ : Fin 3) = 1 := Fin.ext h0
    rw [e, h0, if_neg (by decide), if_pos rfl, if_neg (by decide), mul_zero, mul_zero, zero_add, add_zero]
  · have e : (⟨chan col, chan_lt col⟩ : Fin 3) = 2 := Fin.ext h0
    rw [e, h0, if_neg (by decide), if_neg (by decide), if_pos rfl, mul_zero, mul_zero, zero_add, zero_add]

/-- The table form of one number of the encoding is that number. -/
theorem enc_alg (x : Fin 3 → EReal) (col : ℕ) (raw : EReal)
    (hraw : raw = x 0 * freqAt 0 col + x 1 * freqAt 1 col + x 2 * freqAt 2 col) :
    raw * mask0 col + Ideal.sin raw * mask1 col + Ideal.cos raw * mask2 col = encAt x col := by
  rw [raw_eq] at hraw
  unfold encAt mask0 mask1 mask2
  by_cases h3 : col < 3
  · have hs : scale col = 1 := by unfold scale; rw [if_pos h3]
    rw [if_pos h3, if_pos h3, if_neg (by omega), if_neg (by omega), mul_one, mul_zero, mul_zero, add_zero, add_zero,
      hraw, hs, mul_one]
  · by_cases h6 : (col - 3) % 6 < 3
    · rw [if_neg h3, if_neg h3, if_pos h6, if_pos ⟨by omega, h6⟩, if_neg (by omega), mul_zero, mul_one, mul_zero,
        zero_add, add_zero, hraw]
    · rw [if_neg h3, if_neg h3, if_neg h6, if_neg (by omega), if_pos ⟨by omega, by omega⟩, mul_zero, mul_zero, mul_one,
        zero_add, zero_add, hraw]

end Cert.KernelIdeal.KEnc

end
-- ==== Proof.Tables.lean ====
/-
  The four constant tables of the encoding, entry by entry, on the extended reals.

  A frequency table has 3 rows and W columns (W = 63 for the position, 27 for the direction): the entry in row c of
  column col is the column's scale, 1 on the first three columns and 2^level after them, when the column reads
  coordinate c, and 0 otherwise. A selector table has the same shape: row 0 is 1 on the first three columns, row 1 is 1
  on the sine columns, row 2 is 1 on the cosine columns, and every other entry is 0. The tables are listed row by row,
  so entry (c, col) is the word at position c · W + col; each table's word at position k is given by a formula in
  k / W and k % W, checked position by position, and the eleven words that occur (zero, and the powers 2^0 … 2^9) are
  evaluated once each.
-/
import proofs.«106108_j29403346108731_2_alg».proof.KernelIdeal
import proofs.«106108_j29403346108731_2_alg».proof.Proof.EncAlg
import Idealize.ShloMosaic.Lib.ValueIdx

noncomputable section

namespace Cert.KernelIdeal.KEnc

open Idealize.ShloMosaic Idealize.ShloMosaic.ValueIdx Cert.Nerf

/-! ## The words -/

/-- The word at position k of a frequency table with W columns: in row k / W of column k % W, the pattern of the
    column's scale (of 1 with the level added to the exponent field) when the column reads that row's coordinate. -/
def freqWord (W k : ℕ) : BitVec 32 :=
  if chan (k % W) = k / W then
    (if k % W < 3 then 0x3F800000#32 else BitVec.ofNat 32 (0x3F800000 + lev (k % W) * 0x00800000))
  else 0x00000000#32

/-- The word at position k of a selector table with W columns: the pattern of 1 where the row selects the column. -/
def maskWord (W k : ℕ) : BitVec 32 :=
  if (k / W = 0 ∧ k % W < 3) ∨ (k / W = 1 ∧ 3 ≤ k % W ∧ (k % W - 3) % 6 < 3)
      ∨ (k / W = 2 ∧ 3 ≤ k % W ∧ 3 ≤ (k % W - 3) % 6) then 0x3F800000#32
  else 0x00000000#32

theorem lit0_word : ∀ k : Fin 189, lit0 k = freqWord 63 k.val := by decide +kernel

theorem lit1_word : ∀ k : Fin 189, lit1 k = maskWord 63 k.val := by decide +kernel

theorem lit2_word : ∀ k : Fin 81, lit2 k = freqWord 27 k.val := by decide +kernel

theorem lit3_word : ∀ k : Fin 81, lit3 k = maskWord 27 k.val := by decide +kernel

/-! ## What the words denote -/

/-- The pattern of 1.0. -/
theorem ofBits_one : Ideal.ofBits .f32 0x3F800000#32 = 1 := by
  simp [Ideal.ofBits, Ideal.ieee, -EReal.coe_mul]; norm_num

/-- Adding l to the exponent field of 1.0 gives 2^l, for the ten levels that occur. -/
theorem ofBits_pow2 (l : ℕ) (hl : l < 10) :
    Ideal.ofBits .f32 (BitVec.ofNat 32 (0x3F800000 + l * 0x00800000)) = (((2 : ℝ) ^ l : ℝ) : EReal) := by
  interval_cases l <;> (simp [Ideal.ofBits, Ideal.ieee, -EReal.coe_mul, -EReal.coe_pow]; try norm_num)

/-- Position c · W + col is row c, column col. -/
theorem pos_mod (W c col : ℕ) (hcol : col < W) : (c * W + col) % W = col := by
  rw [Nat.add_comm, Nat.add_mul_mod_self_right, Nat.mod_eq_of_lt hcol]

theorem pos_div (W c col : ℕ) (hcol : col < W) : (c * W + col) / W = c := by
  rw [Nat.add_comm, Nat.add_mul_div_right _ _ (by omega : 0 < W), Nat.div_eq_of_lt hcol, Nat.zero_add]

/-- A frequency table's entry (c, col). -/
theorem ofBits_freqWord (W c col : ℕ) (hcol : col < W) (hlev : lev col < 10) :
    Ideal.ofBits .f32 (freqWord W (c * W + col)) = freqAt c col := by
  unfold freqWord freqAt
  rw [pos_mod W c col hcol, pos_div W c col hcol]
  by_cases h : chan col = c
  · rw [if_pos h, if_pos h]
    unfold scale
    by_cases h3 : col < 3
    · rw [if_pos h3, if_pos h3]; exact ofBits_one
    · rw [if_neg h3, if_neg h3]; exact ofBits_pow2 _ hlev
  · rw [if_neg h, if_neg h]; exact Ideal.ofBits_zero_f32

/-- A selector table's entry (0, col). -/
theorem ofBits_maskWord0 (W col : ℕ) (hcol : col < W) :
    Ideal.ofBits .f32 (maskWord W (0 * W + col)) = mask0 col := by
  unfold maskWord mask0
  rw [pos_mod W 0 col hcol, pos_div W 0 col hcol]
  by_cases h : col < 3
  · rw [if_pos (by omega), if_pos h]; exact ofBits_one
  · rw [if_neg (by omega), if_neg h]; exact Ideal.ofBits_zero_f32

/-- A selector table's entry (1, col). -/
theorem ofBits_maskWord1 (W col : ℕ) (hcol : col < W) :
    Ideal.ofBits .f32 (maskWord W (1 * W + col)) = mask1 col := by
  unfold maskWord mask1
  rw [pos_mod W 1 col hcol, pos_div W 1 col hcol]
  by_cases h : 3 ≤ col ∧ (col - 3) % 6 < 3
  · rw [if_pos (by omega), if_pos h]; exact ofBits_one
  · rw [if_neg (by omega), if_neg h]; exact Ideal.ofBits_zero_f32

/-- A selector table's entry (2, col). -/
theorem ofBits_maskWord2 (W col : ℕ) (hcol : col < W) :
    Ideal.ofBits .f32 (maskWord W (2 * W + col)) = mask2 col := by
  unfold maskWord mask2
  rw [pos_mod W 2 col hcol, pos_div W 2 col hcol]
  by_cases h : 3 ≤ col ∧ 3 ≤ (col - 3) % 6
  · rw [if_pos (by omega), if_pos h]; exact ofBits_one
  · rw [if_neg (by omega), if_neg h]; exact Ideal.ofBits_zero_f32

/-! ## The tables at an entry -/

theorem pos63 (c : Fin 3) (col : Fin 63) :
    ((S3x63.rowMajor (ix2 c col) : Fin 189)).val = c.val * 63 + col.val :=
  Shape.rowMajor_val_two (ix2 c col)

theorem pos27 (c : Fin 3) (col : Fin 27) :
    ((S3x27.rowMajor (ix2 c col) : Fin 81)).val = c.val * 27 + col.val :=
  Shape.rowMajor_val_two (ix2 c col)

theorem lev_lt63 (col : Fin 63) : lev col.val < 10 := by unfold lev; omega

theorem lev_lt27 (col : Fin 27) : lev col.val < 10 := by unfold lev; omega

/-- The position's frequency table. -/
theorem lit0_at (c : Fin 3) (col : Fin 63) :
    Ideal.ofBits .f32 (lit0 (S3x63.rowMajor (ix2 c col))) = freqAt c.val col.val :=
  (congrArg (Ideal.ofBits .f32)
    ((lit0_word (S3x63.rowMajor (ix2 c col))).trans (congrArg (freqWord 63) (pos63 c col)))).trans
    (ofBits_freqWord 63 c.val col.val col.isLt (lev_lt63 col))

/-- The direction's frequency table. -/
theorem lit2_at (c : Fin 3) (col : Fin 27) :
    Ideal.ofBits .f32 (lit2 (S3x27.rowMajor (ix2 c col))) = freqAt c.val col.val :=
  (congrArg (Ideal.ofBits .f32)
    ((lit2_word (S3x27.rowMajor (ix2 c col))).trans (congrArg (freqWord 27) (pos27 c col)))).trans
    (ofBits_freqWord 27 c.val col.val col.isLt (lev_lt27 col))

/-- The position's selector table, row by row. -/
theorem lit1_at0 (col : Fin 63) :
    Ideal.ofBits .f32 (lit1 (S3x63.rowMajor (ix2 (0 : Fin 3) col))) = mask0 col.val :=
  (congrArg (Ideal.ofBits .f32)
    ((lit1_word (S3x63.rowMajor (ix2 (0 : Fin 3) col))).trans (congrArg (maskWord 63) (pos63 0 col)))).trans
    (ofBits_maskWord0 63 col.val col.isLt)

theorem lit1_at1 (col : Fin 63) :
    Ideal.ofBits .f32 (lit1 (S3x63.rowMajor (ix2 (1 : Fin 3) col))) = mask1 col.val :=
  (congrArg (Ideal.ofBits .f32)
    ((lit1_word (S3x63.rowMajor (ix2 (1 : Fin 3) col))).trans (congrArg (maskWord 63) (pos63 1 col)))).trans
    (ofBits_maskWord1 63 col.val col.isLt)

theorem lit1_at2 (col : Fin 63) :
    Ideal.ofBits .f32 (lit1 (S3x63.rowMajor (ix2 (2 : Fin 3) col))) = mask2 col.val :=
  (congrArg (Ideal.ofBits .f32)
    ((lit1_word (S3x63.rowMajor (ix2 (2 : Fin 3) col))).trans (congrArg (maskWord 63) (pos63 2 col)))).trans
    (ofBits_maskWord2 63 col.val col.isLt)

/-- The direction's selector table, row by row. -/
theorem lit3_at0 (col : Fin 27) :
    Ideal.ofBits .f32 (lit3 (S3x27.rowMajor (ix2 (0 : Fin 3) col))) = mask0 col.val :=
  (congrArg (Ideal.ofBits .f32)
    ((lit3_word (S3x27.rowMajor (ix2 (0 : Fin 3) col))).trans (congrArg (maskWord 27) (pos27 0 col)))).trans
    (ofBits_maskWord0 27 col.val col.isLt)

theorem lit3_at1 (col : Fin 27) :
    Ideal.ofBits .f32 (lit3 (S3x27.rowMajor (ix2 (1 : Fin 3) col))) = mask1 col.val :=
  (congrArg (Ideal.ofBits .f32)
    ((lit3_word (S3x27.rowMajor (ix2 (1 : Fin 3) col))).trans (congrArg (maskWord 27) (pos27 1 col)))).trans
    (ofBits_maskWord1 27 col.val col.isLt)

theorem lit3_at2 (col : Fin 27) :
    Ideal.ofBits .f32 (lit3 (S3x27.rowMajor (ix2 (2 : Fin 3) col))) = mask2 col.val :=
  (congrArg (Ideal.ofBits .f32)
    ((lit3_word (S3x27.rowMajor (ix2 (2 : Fin 3) col))).trans (congrArg (maskWord 27) (pos27 2 col)))).trans
    (ofBits_maskWord2 27 col.val col.isLt)

end Cert.KernelIdeal.KEnc

end
-- ==== Proof.KernelEnc.lean ====
/-
  The table form of the encoding, as the kernel's body computes it, is the encoding.

  The body cuts the three columns out of a block of rows, spreads each along the table's width, cuts the three rows out
  of the frequency table, spreads each along the block's rows, multiplies and adds: entry (r, col) of the sum is
  x_r 0 · f 0 col + x_r 1 · f 1 col + x_r 2 · f 2 col. It then takes the sine and the cosine of every entry and adds the
  three of them against the rows of the selector table. With the tables' entries known, the algebra of the table form
  says that entry (r, col) is number col of the encoding of row r.
-/
import proofs.«106108_j29403346108731_2_alg».proof.Proof.Gen.KernelIdeal.Skeleton
import proofs.«106108_j29403346108731_2_alg».proof.Proof.Tables
import Idealize.ShloMosaic.Lib.ValueLayout

noncomputable section

namespace Cert.KernelIdeal.KEnc

open Idealize.ShloMosaic Idealize.ShloMosaic.ValueIdx Cert.Nerf

/-! ## Reading the layout operations and the two functions at an entry -/

section Layout
variable {α : Type}

/-- An [a, 1] column spread to [a, b] reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]

end Layout

/-- The sine of a vector at an entry is the sine of the entry. -/
theorem sin_apply {s : Shape} {φ : FTy} (a : FVec Ideal s φ) (i : s.Idx) :
    Idealize.ShloMosaic.sin a i = Ideal.sin (a i) := rfl

/-- The cosine of a vector at an entry is the cosine of the entry. -/
theorem cos_apply {s : Shape} {φ : FTy} (a : FVec Ideal s φ) (i : s.Idx) :
    Idealize.ShloMosaic.cos a i = Ideal.cos (a i) := rfl

/-! ## The position's slab at an entry -/

/-- Entry (r, col) of the position's slab, in the entries of the row block and of the two tables. -/
theorem pay2_apply (v0 : Vec Ideal S4096x3 .f32) (v2 v3 : Vec Ideal S3x63 .f32) (r : Fin 4096) (col : Fin 63) :
    Gen.k0_pay2 v0 v2 v3 (ix2 r col)
      = (v0 (ix2 r (0 : Fin 3)) * v2 (ix2 (0 : Fin 3) col) + v0 (ix2 r (1 : Fin 3)) * v2 (ix2 (1 : Fin 3) col)
          + v0 (ix2 r (2 : Fin 3)) * v2 (ix2 (2 : Fin 3) col)) * v3 (ix2 (0 : Fin 3) col)
        + Ideal.sin (v0 (ix2 r (0 : Fin 3)) * v2 (ix2 (0 : Fin 3) col) + v0 (ix2 r (1 : Fin 3)) * v2 (ix2 (1 : Fin 3) col)
          + v0 (ix2 r (2 : Fin 3)) * v2 (ix2 (2 : Fin 3) col)) * v3 (ix2 (1 : Fin 3) col)
        + Ideal.cos (v0 (ix2 r (0 : Fin 3)) * v2 (ix2 (0 : Fin 3) col) + v0 (ix2 r (1 : Fin 3)) * v2 (ix2 (1 : Fin 3) col)
          + v0 (ix2 r (2 : Fin 3)) * v2 (ix2 (2 : Fin 3) col)) * v3 (ix2 (2 : Fin 3) col) := by
  unfold Gen.k0_pay2
  simp only [addf_apply, mulf_apply, sin_apply, cos_apply, broadcastTo_a1_ab_apply, broadcastTo_1b_ab_apply,
    slice2_axis1_eq, slice2_axis0_eq]
  rfl

/-- Entry (r, col) of the position's slab is number col of the encoding of row r. -/
theorem enc_pos (v0 : Vec Ideal S4096x3 .f32) (v2 v3 : Vec Ideal S3x63 .f32)
    (hv2 : v2 = fun i => FloatOps.ofBits (F := Ideal) .f32 (lit0 (S3x63.rowMajor i)))
    (hv3 : v3 = fun i => FloatOps.ofBits (F := Ideal) .f32 (lit1 (S3x63.rowMajor i)))
    (r : Fin 4096) (col : Fin 63) :
    Gen.k0_pay2 v0 v2 v3 (ix2 r col) = encAt (fun c => v0 (ix2 r c)) col.val := by
  have f0 : v2 (ix2 (0 : Fin 3) col) = freqAt 0 col.val := by rw [hv2]; exact lit0_at 0 col
  have f1 : v2 (ix2 (1 : Fin 3) col) = freqAt 1 col.val := by rw [hv2]; exact lit0_at 1 col
  have f2 : v2 (ix2 (2 : Fin 3) col) = freqAt 2 col.val := by rw [hv2]; exact lit0_at 2 col
  have m0 : v3 (ix2 (0 : Fin 3) col) = mask0 col.val := by rw [hv3]; exact lit1_at0 col
  have m1 : v3 (ix2 (1 : Fin 3) col) = mask1 col.val := by rw [hv3]; exact lit1_at1 col
  have m2 : v3 (ix2 (2 : Fin 3) col) = mask2 col.val := by rw [hv3]; exact lit1_at2 col
  rw [pay2_apply, f0, f1, f2, m0, m1, m2]
  exact enc_alg (fun c => v0 (ix2 r c)) col.val _ rfl

/-! ## The direction's slab at an entry -/

/-- Entry (r, col) of the direction's slab, in the entries of the row block and of the two tables. -/
theorem pay6_apply (v1 : Vec Ideal S4096x3 .f32) (v34 v35 : Vec Ideal S3x27 .f32) (r : Fin 4096) (col : Fin 27) :
    Gen.k0_pay6 v34 v35 (Gen.k0_pay3 v1) (Gen.k0_pay4 v1 v34) (Gen.k0_pay5 v1 v34) (ix2 r col)
      = (v1 (ix2 r (0 : Fin 3)) * v34 (ix2 (0 : Fin 3) col) + v1 (ix2 r (1 : Fin 3)) * v34 (ix2 (1 : Fin 3) col)
          + v1 (ix2 r (2 : Fin 3)) * v34 (ix2 (2 : Fin 3) col)) * v35 (ix2 (0 : Fin 3) col)
        + Ideal.sin (v1 (ix2 r (0 : Fin 3)) * v34 (ix2 (0 : Fin 3) col) + v1 (ix2 r (1 : Fin 3)) * v34 (ix2 (1 : Fin 3) col)
          + v1 (ix2 r (2 : Fin 3)) * v34 (ix2 (2 : Fin 3) col)) * v35 (ix2 (1 : Fin 3) col)
        + Ideal.cos (v1 (ix2 r (0 : Fin 3)) * v34 (ix2 (0 : Fin 3) col) + v1 (ix2 r (1 : Fin 3)) * v34 (ix2 (1 : Fin 3) col)
          + v1 (ix2 r (2 : Fin 3)) * v34 (ix2 (2 : Fin 3) col)) * v35 (ix2 (2 : Fin 3) col) := by
  unfold Gen.k0_pay6 Gen.k0_pay3 Gen.k0_pay4 Gen.k0_pay5
  simp only [addf_apply, mulf_apply, sin_apply, cos_apply, broadcastTo_a1_ab_apply, broadcastTo_1b_ab_apply,
    slice2_axis1_eq, slice2_axis0_eq]
  rfl

/-- Entry (r, col) of the direction's slab is number col of the encoding of row r. -/
theorem enc_dir (v1 : Vec Ideal S4096x3 .f32) (v34 v35 : Vec Ideal S3x27 .f32)
    (hv34 : v34 = fun i => FloatOps.ofBits (F := Ideal) .f32 (lit2 (S3x27.rowMajor i)))
    (hv35 : v35 = fun i => FloatOps.ofBits (F := Ideal) .f32 (lit3 (S3x27.rowMajor i)))
    (r : Fin 4096) (col : Fin 27) :
    Gen.k0_pay6 v34 v35 (Gen.k0_pay3 v1) (Gen.k0_pay4 v1 v34) (Gen.k0_pay5 v1 v34) (ix2 r col)
      = encAt (fun c => v1 (ix2 r c)) col.val := by
  have f0 : v34 (ix2 (0 : Fin 3) col) = freqAt 0 col.val := by rw [hv34]; exact lit2_at 0 col
  have f1 : v34 (ix2 (1 : Fin 3) col) = freqAt 1 col.val := by rw [hv34]; exact lit2_at 1 col
  have f2 : v34 (ix2 (2 : Fin 3) col) = freqAt 2 col.val := by rw [hv34]; exact lit2_at 2 col
  have m0 : v35 (ix2 (0 : Fin 3) col) = mask0 col.val := by rw [hv35]; exact lit3_at0 col
  have m1 : v35 (ix2 (1 : Fin 3) col) = mask1 col.val := by rw [hv35]; exact lit3_at1 col
  have m2 : v35 (ix2 (2 : Fin 3) col) = mask2 col.val := by rw [hv35]; exact lit3_at2 col
  rw [pay6_apply, f0, f1, f2, m0, m1, m2]
  exact enc_alg (fun c => v1 (ix2 r c)) col.val _ rfl

end Cert.KernelIdeal.KEnc

end
-- ==== Proof.WinBlocksA.lean ====
/-
  The blocks of the first sixteen windows of the region, read at an entry. Windows 0 and 1 cut an array of 262144
  rows into 64 blocks of 4096 rows: entry (r, k) of block t is entry (4096·t + r, k) of the array. Every other window's
  block is its whole array at every point of the grid (its block index is 0 on every axis and its block has the array's
  extents), so an entry of the block is the same entry of the array.
-/
import proofs.«106108_j29403346108731_2_alg».proof.Proof.KernelIdealFrameP
import Idealize.ShloMosaic.Lib.ValueLayout

set_option maxRecDepth 16384

noncomputable section

namespace Cert.KernelIdeal.KWin

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ)

/-- A row of a row block is a row of the array. -/
theorem row_lt (t : Fin cfg0.N) (r : Fin 4096) : 4096 * t.val + r.val < 262144 := by
  have h : cfg0.N = 64 := N_0
  have := t.isLt
  omega

/-- Window 0: block t is rows 4096·t … 4096·t + 4095 of its array. -/
theorem iblk0_eq (c : Dev nD) (t : Fin cfg0.N) :
    iblk m c 0 t = (win0_0.blk t).view.read (Elt Ideal) (V m c main_arg0) := rfl

theorem idx0 : ∀ t : Fin cfg0.N, win0_0.index t 0 = t.val ∧ win0_0.index t 1 = 0 :=
  (by decide +kernel : ∀ t : Fin grid0.N, _)

theorem read0 (f : Vec Ideal S262144x3 .f32) (t : Fin cfg0.N) (r : Fin 4096) (k : Fin 3) :
    (win0_0.blk t).view.read (Elt Ideal) f (ix2 r k) = f (ix2 ⟨4096 * t.val + r.val, row_lt t r⟩ k) := by
  rw [View.read_apply]
  show f _ = _
  refine congrArg f (funext fun a => Fin.ext ?_)
  match a with
  | ⟨0, _⟩ =>
    show win0_0.index t 0 * 4096 + 1 * r.val = 4096 * t.val + r.val
    rw [(idx0 t).1]; omega
  | ⟨1, _⟩ =>
    show win0_0.index t 1 * 3 + 1 * k.val = k.val
    rw [(idx0 t).2]; omega

theorem blk0 (c : Dev nD) (t : Fin cfg0.N) (r : Fin 4096) (k : Fin 3) :
    (iblk m c 0 t : Vec Ideal S4096x3 .f32) (ix2 r k)
      = (V m c main_arg0 : Vec Ideal S262144x3 .f32) (ix2 ⟨4096 * t.val + r.val, row_lt t r⟩ k) :=
  (congrFun (iblk0_eq m c t) (ix2 r k)).trans (read0 (V m c main_arg0) t r k)

/-- Window 1: block t is rows 4096·t … 4096·t + 4095 of its array. -/
theorem iblk1_eq (c : Dev nD) (t : Fin cfg0.N) :
    iblk m c 1 t = (win0_1.blk t).view.read (Elt Ideal) (V m c main_arg1) := rfl

theorem idx1 : ∀ t : Fin cfg0.N, win0_1.index t 0 = t.val ∧ win0_1.index t 1 = 0 :=
  (by decide +kernel : ∀ t : Fin grid0.N, _)

theorem read1 (f : Vec Ideal S262144x3 .f32) (t : Fin cfg0.N) (r : Fin 4096) (k : Fin 3) :
    (win0_1.blk t).view.read (Elt Ideal) f (ix2 r k) = f (ix2 ⟨4096 * t.val + r.val, row_lt t r⟩ k) := by
  rw [View.read_apply]
  show f _ = _
  refine congrArg f (funext fun a => Fin.ext ?_)
  match a with
  | ⟨0, _⟩ =>
    show win0_1.index t 0 * 4096 + 1 * r.val = 4096 * t.val + r.val
    rw [(idx1 t).1]; omega
  | ⟨1, _⟩ =>
    show win0_1.index t 1 * 3 + 1 * k.val = k.val
    rw [(idx1 t).2]; omega

theorem blk1 (c : Dev nD) (t : Fin cfg0.N) (r : Fin 4096) (k : Fin 3) :
    (iblk m c 1 t : Vec Ideal S4096x3 .f32) (ix2 r k)
      = (V m c main_arg1 : Vec Ideal S262144x3 .f32) (ix2 ⟨4096 * t.val + r.val, row_lt t r⟩ k) :=
  (congrFun (iblk1_eq m c t) (ix2 r k)).trans (read1 (V m c main_arg1) t r k)

/-- Window 2: its block at any point is its whole array. -/
theorem iblk2_eq (c : Dev nD) (t : Fin cfg0.N) :
    iblk m c 2 t = (win0_2.blk t).view.read (Elt Ideal) (V m c main_cst) := rfl

theorem read2 (f : Vec Ideal S3x63 .f32) (t : Fin cfg0.N) (p : Fin 3) (q : Fin 63) :
    (win0_2.blk t).view.read (Elt Ideal) f (ix2 p q) = f (ix2 p q) := by
  rw [View.read_apply]
  show f _ = _
  refine congrArg f (funext fun a => Fin.ext ?_)
  match a with
  | ⟨0, _⟩ => show 0 * 3 + 1 * p.val = p.val; omega
  | ⟨1, _⟩ => show 0 * 63 + 1 * q.val = q.val; omega

theorem blk2 (c : Dev nD) (t : Fin cfg0.N) (p : Fin 3) (q : Fin 63) :
    (iblk m c 2 t : Vec Ideal S3x63 .f32) (ix2 p q) = (V m c main_cst : Vec Ideal S3x63 .f32) (ix2 p q) :=
  (congrFun (iblk2_eq m c t) (ix2 p q)).trans (read2 (V m c main_cst) t p q)

/-- Window 3: its block at any point is its whole array. -/
theorem iblk3_eq (c : Dev nD) (t : Fin cfg0.N) :
    iblk m c 3 t = (win0_3.blk t).view.read (Elt Ideal) (V m c main_cst_0) := rfl

theorem read3 (f : Vec Ideal S3x63 .f32) (t : Fin cfg0.N) (p : Fin 3) (q : Fin 63) :
    (win0_3.blk t).view.read (Elt Ideal) f (ix2 p q) = f (ix2 p q) := by
  rw [View.read_apply]
  show f _ = _
  refine congrArg f (funext fun a => Fin.ext ?_)
  match a with
  | ⟨0, _⟩ => show 0 * 3 + 1 * p.val = p.val; omega
  | ⟨1, _⟩ => show 0 * 63 + 1 * q.val = q.val; omega

theorem blk3 (c : Dev nD) (t : Fin cfg0.N) (p : Fin 3) (q : Fin 63) :
    (iblk m c 3 t : Vec Ideal S3x63 .f32) (ix2 p q) = (V m c main_cst_0 : Vec Ideal S3x63 .f32) (ix2 p q) :=
  (congrFun (iblk3_eq m c t) (ix2 p q)).trans (read3 (V m c main_cst_0) t p q)

/-- Window 4: its block at any point is its whole array. -/
theorem iblk4_eq (c : Dev nD) (t : Fin cfg0.N) :
    iblk m c 4 t = (win0_4.blk t).view.read (Elt Ideal) (V m c main_cst_1) := rfl

theorem read4 (f : Vec Ideal S3x27 .f32) (t : Fin cfg0.N) (p : Fin 3) (q : Fin 27) :
    (win0_4.blk t).view.read (Elt Ideal) f (ix2 p q) = f (ix2 p q) := by
  rw [View.read_apply]
  show f _ = _
  refine congrArg f (funext fun a => Fin.ext ?_)
  match a with
  | ⟨0, _⟩ => show 0 * 3 + 1 * p.val = p.val; omega
  | ⟨1, _⟩ => show 0 * 27 + 1 * q.val = q.val; omega

theorem blk4 (c : Dev nD) (t : Fin cfg0.N) (p : Fin 3) (q : Fin 27) :
    (iblk m c 4 t : Vec Ideal S3x27 .f32) (ix2 p q) = (V m c main_cst_1 : Vec Ideal S3x27 .f32) (ix2 p q) :=
  (congrFun (iblk4_eq m c t) (ix2 p q)).trans (read4 (V m c main_cst_1) t p q)

/-- Window 5: its block at any point is its whole array. -/
theorem iblk5_eq (c : Dev nD) (t : Fin cfg0.N) :
    iblk m c 5 t = (win0_5.blk t).view.read (Elt Ideal) (V m c main_cst_2) := rfl

theorem read5 (f : Vec Ideal S3x27 .f32) (t : Fin cfg0.N) (p : Fin 3) (q : Fin 27) :
    (win0_5.blk t).view.read (Elt Ideal) f (ix2 p q) = f (ix2 p q) := by
  rw [View.read_apply]
  show f _ = _
  refine congrArg f (funext fun a => Fin.ext ?_)
  match a with
  | ⟨0, _⟩ => show 0 * 3 + 1 * p.val = p.val; omega
  | ⟨1, _⟩ => show 0 * 27 + 1 * q.val = q.val; omega

theorem blk5 (c : Dev nD) (t : Fin cfg0.N) (p : Fin 3) (q : Fin 27) :
    (iblk m c 5 t : Vec Ideal S3x27 .f32) (ix2 p q) = (V m c main_cst_2 : Vec Ideal S3x27 .f32) (ix2 p q) :=
  (congrFun (iblk5_eq m c t) (ix2 p q)).trans (read5 (V m c main_cst_2) t p q)

/-- Window 6: its block at any point is its whole array. -/
theorem iblk6_eq (c : Dev nD) (t : Fin cfg0.N) :
    iblk m c 6 t = (win0_6.blk t).view.read (Elt Ideal) (V m c main_v1) := rfl

theorem read6 (f : Vec Ideal S63x256 .bf16) (t : Fin cfg0.N) (p : Fin 63) (q : Fin 256) :
    (win0_6.blk t).view.read (Elt Ideal) f (ix2 p q) = f (ix2 p q) := by
  rw [View.read_apply]
  show f _ = _
  refine congrArg f (funext fun a => Fin.ext ?_)
  match a with
  | ⟨0, _⟩ => show 0 * 63 + 1 * p.val = p.val; omega
  | ⟨1, _⟩ => show 0 * 256 + 1 * q.val = q.val; omega

theorem blk6 (c : Dev nD) (t : Fin cfg0.N) (p : Fin 63) (q : Fin 256) :
    (iblk m c 6 t : Vec Ideal S63x256 .bf16) (ix2 p q) = (V m c main_v1 : Vec Ideal S63x256 .bf16) (ix2 p q) :=
  (congrFun (iblk6_eq m c t) (ix2 p q)).trans (read6 (V m c main_v1) t p q)

/-- Window 7: its block at any point is its whole array. -/
theorem iblk7_eq (c : Dev nD) (t : Fin cfg0.N) :
    iblk m c 7 t = (win0_7.blk t).view.read (Elt Ideal) (V m c main_arg3) := rfl

theorem read7 (f : Vec Ideal S256 .f32) (t : Fin cfg0.N) (p : Fin 256) :
    (win0_7.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk7 (c : Dev nD) (t : Fin cfg0.N) (p : Fin 256) :
    (iblk m c 7 t : Vec Ideal S256 .f32) (ix1 p) = (V m c main_arg3 : Vec Ideal S256 .f32) (ix1 p) :=
  (congrFun (iblk7_eq m c t) (ix1 p)).trans (read7 (V m c main_arg3) t p)

/-- Window 8: its block at any point is its whole array. -/
theorem iblk8_eq (c : Dev nD) (t : Fin cfg0.N) :
    iblk m c 8 t = (win0_8.blk t).view.read (Elt Ideal) (V m c main_v3) := rfl

theorem read8 (f : Vec Ideal S256x256 .bf16) (t : Fin cfg0.N) (p : Fin 256) (q : Fin 256) :
    (win0_8.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk8 (c : Dev nD) (t : Fin cfg0.N) (p : Fin 256) (q : Fin 256) :
    (iblk m c 8 t : Vec Ideal S256x256 .bf16) (ix2 p q) = (V m c main_v3 : Vec Ideal S256x256 .bf16) (ix2 p q) :=
  (congrFun (iblk8_eq m c t) (ix2 p q)).trans (read8 (V m c main_v3) t p q)

/-- Window 9: its block at any point is its whole array. -/
theorem iblk9_eq (c : Dev nD) (t : Fin cfg0.N) :
    iblk m c 9 t = (win0_9.blk t).view.read (Elt Ideal) (V m c main_arg5) := rfl

theorem read9 (f : Vec Ideal S256 .f32) (t : Fin cfg0.N) (p : Fin 256) :
    (win0_9.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk9 (c : Dev nD) (t : Fin cfg0.N) (p : Fin 256) :
    (iblk m c 9 t : Vec Ideal S256 .f32) (ix1 p) = (V m c main_arg5 : Vec Ideal S256 .f32) (ix1 p) :=
  (congrFun (iblk9_eq m c t) (ix1 p)).trans (read9 (V m c main_arg5) t p)

/-- Window 10: its block at any point is its whole array. -/
theorem iblk10_eq (c : Dev nD) (t : Fin cfg0.N) :
    iblk m c 10 t = (win0_10.blk t).view.read (Elt Ideal) (V m c main_v5) := rfl

theorem read10 (f : Vec Ideal S256x256 .bf16) (t : Fin cfg0.N) (p : Fin 256) (q : Fin 256) :
    (win0_10.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk10 (c : Dev nD) (t : Fin cfg0.N) (p : Fin 256) (q : Fin 256) :
    (iblk m c 10 t : Vec Ideal S256x256 .bf16) (ix2 p q) = (V m c main_v5 : Vec Ideal S256x256 .bf16) (ix2 p q) :=
  (congrFun (iblk10_eq m c t) (ix2 p q)).trans (read10 (V m c main_v5) t p q)

/-- Window 11: its block at any point is its whole array. -/
theorem iblk11_eq (c : Dev nD) (t : Fin cfg0.N) :
    iblk m c 11 t = (win0_11.blk t).view.read (Elt Ideal) (V m c main_arg7) := rfl

theorem read11 (f : Vec Ideal S256 .f32) (t : Fin cfg0.N) (p : Fin 256) :
    (win0_11.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk11 (c : Dev nD) (t : Fin cfg0.N) (p : Fin 256) :
    (iblk m c 11 t : Vec Ideal S256 .f32) (ix1 p) = (V m c main_arg7 : Vec Ideal S256 .f32) (ix1 p) :=
  (congrFun (iblk11_eq m c t) (ix1 p)).trans (read11 (V m c main_arg7) t p)

/-- Window 12: its block at any point is its whole array. -/
theorem iblk12_eq (c : Dev nD) (t : Fin cfg0.N) :
    iblk m c 12 t = (win0_12.blk t).view.read (Elt Ideal) (V m c main_v7) := rfl

theorem read12 (f : Vec Ideal S256x256 .bf16) (t : Fin cfg0.N) (p : Fin 256) (q : Fin 256) :
    (win0_12.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk12 (c : Dev nD) (t : Fin cfg0.N) (p : Fin 256) (q : Fin 256) :
    (iblk m c 12 t : Vec Ideal S256x256 .bf16) (ix2 p q) = (V m c main_v7 : Vec Ideal S256x256 .bf16) (ix2 p q) :=
  (congrFun (iblk12_eq m c t) (ix2 p q)).trans (read12 (V m c main_v7) t p q)

/-- Window 13: its block at any point is its whole array. -/
theorem iblk13_eq (c : Dev nD) (t : Fin cfg0.N) :
    iblk m c 13 t = (win0_13.blk t).view.read (Elt Ideal) (V m c main_arg9) := rfl

theorem read13 (f : Vec Ideal S256 .f32) (t : Fin cfg0.N) (p : Fin 256) :
    (win0_13.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk13 (c : Dev nD) (t : Fin cfg0.N) (p : Fin 256) :
    (iblk m c 13 t : Vec Ideal S256 .f32) (ix1 p) = (V m c main_arg9 : Vec Ideal S256 .f32) (ix1 p) :=
  (congrFun (iblk13_eq m c t) (ix1 p)).trans (read13 (V m c main_arg9) t p)

/-- Window 14: its block at any point is its whole array. -/
theorem iblk14_eq (c : Dev nD) (t : Fin cfg0.N) :
    iblk m c 14 t = (win0_14.blk t).view.read (Elt Ideal) (V m c main_v9) := rfl

theorem read14 (f : Vec Ideal S256x256 .bf16) (t : Fin cfg0.N) (p : Fin 256) (q : Fin 256) :
    (win0_14.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk14 (c : Dev nD) (t : Fin cfg0.N) (p : Fin 256) (q : Fin 256) :
    (iblk m c 14 t : Vec Ideal S256x256 .bf16) (ix2 p q) = (V m c main_v9 : Vec Ideal S256x256 .bf16) (ix2 p q) :=
  (congrFun (iblk14_eq m c t) (ix2 p q)).trans (read14 (V m c main_v9) t p q)

/-- Window 15: its block at any point is its whole array. -/
theorem iblk15_eq (c : Dev nD) (t : Fin cfg0.N) :
    iblk m c 15 t = (win0_15.blk t).view.read (Elt Ideal) (V m c main_arg11) := rfl

theorem read15 (f : Vec Ideal S256 .f32) (t : Fin cfg0.N) (p : Fin 256) :
    (win0_15.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk15 (c : Dev nD) (t : Fin cfg0.N) (p : Fin 256) :
    (iblk m c 15 t : Vec Ideal S256 .f32) (ix1 p) = (V m c main_arg11 : Vec Ideal S256 .f32) (ix1 p) :=
  (congrFun (iblk15_eq m c t) (ix1 p)).trans (read15 (V m c main_arg11) t p)

end Cert.KernelIdeal.KWin

end
-- ==== Proof.WinBlocksB.lean ====
/-
  The blocks of windows 16 to 31 of the region, read at an entry: each of these windows' blocks is its whole array at
  every point of the grid (its block index is 0 on every axis and its block has the array's extents), so an entry of
  the block is the same entry of the array.
-/
import proofs.«106108_j29403346108731_2_alg».proof.Proof.KernelIdealFrameP
import Idealize.ShloMosaic.Lib.ValueLayout

set_option maxRecDepth 16384

noncomputable section

namespace Cert.KernelIdeal.KWin

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ)

/-- Window 16: its block at any point is its whole array. -/
theorem iblk16_eq (c : Dev nD) (t : Fin cfg0.N) :
    iblk m c 16 t = (win0_16.blk t).view.read (Elt Ideal) (V m c main_v12) := rfl

theorem read16 (f : Vec Ideal S256x256 .bf16) (t : Fin cfg0.N) (p : Fin 256) (q : Fin 256) :
    (win0_16.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk16 (c : Dev nD) (t : Fin cfg0.N) (p : Fin 256) (q : Fin 256) :
    (iblk m c 16 t : Vec Ideal S256x256 .bf16) (ix2 p q) = (V m c main_v12 : Vec Ideal S256x256 .bf16) (ix2 p q) :=
  (congrFun (iblk16_eq m c t) (ix2 p q)).trans (read16 (V m c main_v12) t p q)

/-- Window 17: its block at any point is its whole array. -/
theorem iblk17_eq (c : Dev nD) (t : Fin cfg0.N) :
    iblk m c 17 t = (win0_17.blk t).view.read (Elt Ideal) (V m c main_v13) := rfl

theorem read17 (f : Vec Ideal S63x256 .bf16) (t : Fin cfg0.N) (p : Fin 63) (q : Fin 256) :
    (win0_17.blk t).view.read (Elt Ideal) f (ix2 p q) = f (ix2 p q) := by
  rw [View.read_apply]
  show f _ = _
  refine congrArg f (funext fun a => Fin.ext ?_)
  match a with
  | ⟨0, _⟩ => show 0 * 63 + 1 * p.val = p.val; omega
  | ⟨1, _⟩ => show 0 * 256 + 1 * q.val = q.val; omega

theorem blk17 (c : Dev nD) (t : Fin cfg0.N) (p : Fin 63) (q : Fin 256) :
    (iblk m c 17 t : Vec Ideal S63x256 .bf16) (ix2 p q) = (V m c main_v13 : Vec Ideal S63x256 .bf16) (ix2 p q) :=
  (congrFun (iblk17_eq m c t) (ix2 p q)).trans (read17 (V m c main_v13) t p q)

/-- Window 18: its block at any point is its whole array. -/
theorem iblk18_eq (c : Dev nD) (t : Fin cfg0.N) :
    iblk m c 18 t = (win0_18.blk t).view.read (Elt Ideal) (V m c main_arg13) := rfl

theorem read18 (f : Vec Ideal S256 .f32) (t : Fin cfg0.N) (p : Fin 256) :
    (win0_18.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk18 (c : Dev nD) (t : Fin cfg0.N) (p : Fin 256) :
    (iblk m c 18 t : Vec Ideal S256 .f32) (ix1 p) = (V m c main_arg13 : Vec Ideal S256 .f32) (ix1 p) :=
  (congrFun (iblk18_eq m c t) (ix1 p)).trans (read18 (V m c main_arg13) t p)

/-- Window 19: its block at any point is its whole array. -/
theorem iblk19_eq (c : Dev nD) (t : Fin cfg0.N) :
    iblk m c 19 t = (win0_19.blk t).view.read (Elt Ideal) (V m c main_v15) := rfl

theorem read19 (f : Vec Ideal S256x256 .bf16) (t : Fin cfg0.N) (p : Fin 256) (q : Fin 256) :
    (win0_19.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk19 (c : Dev nD) (t : Fin cfg0.N) (p : Fin 256) (q : Fin 256) :
    (iblk m c 19 t : Vec Ideal S256x256 .bf16) (ix2 p q) = (V m c main_v15 : Vec Ideal S256x256 .bf16) (ix2 p q) :=
  (congrFun (iblk19_eq m c t) (ix2 p q)).trans (read19 (V m c main_v15) t p q)

/-- Window 20: its block at any point is its whole array. -/
theorem iblk20_eq (c : Dev nD) (t : Fin cfg0.N) :
    iblk m c 20 t = (win0_20.blk t).view.read (Elt Ideal) (V m c main_arg15) := rfl

theorem read20 (f : Vec Ideal S256 .f32) (t : Fin cfg0.N) (p : Fin 256) :
    (win0_20.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk20 (c : Dev nD) (t : Fin cfg0.N) (p : Fin 256) :
    (iblk m c 20 t : Vec Ideal S256 .f32) (ix1 p) = (V m c main_arg15 : Vec Ideal S256 .f32) (ix1 p) :=
  (congrFun (iblk20_eq m c t) (ix1 p)).trans (read20 (V m c main_arg15) t p)

/-- Window 21: its block at any point is its whole array. -/
theorem iblk21_eq (c : Dev nD) (t : Fin cfg0.N) :
    iblk m c 21 t = (win0_21.blk t).view.read (Elt Ideal) (V m c main_v17) := rfl

theorem read21 (f : Vec Ideal S256x256 .bf16) (t : Fin cfg0.N) (p : Fin 256) (q : Fin 256) :
    (win0_21.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk21 (c : Dev nD) (t : Fin cfg0.N) (p : Fin 256) (q : Fin 256) :
    (iblk m c 21 t : Vec Ideal S256x256 .bf16) (ix2 p q) = (V m c main_v17 : Vec Ideal S256x256 .bf16) (ix2 p q) :=
  (congrFun (iblk21_eq m c t) (ix2 p q)).trans (read21 (V m c main_v17) t p q)

/-- Window 22: its block at any point is its whole array. -/
theorem iblk22_eq (c : Dev nD) (t : Fin cfg0.N) :
    iblk m c 22 t = (win0_22.blk t).view.read (Elt Ideal) (V m c main_arg17) := rfl

theorem read22 (f : Vec Ideal S256 .f32) (t : Fin cfg0.N) (p : Fin 256) :
    (win0_22.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk22 (c : Dev nD) (t : Fin cfg0.N) (p : Fin 256) :
    (iblk m c 22 t : Vec Ideal S256 .f32) (ix1 p) = (V m c main_arg17 : Vec Ideal S256 .f32) (ix1 p) :=
  (congrFun (iblk22_eq m c t) (ix1 p)).trans (read22 (V m c main_arg17) t p)

/-- Window 23: its block at any point is its whole array. -/
theorem iblk23_eq (c : Dev nD) (t : Fin cfg0.N) :
    iblk m c 23 t = (win0_23.blk t).view.read (Elt Ideal) (V m c main_v20) := rfl

theorem read23 (f : Vec Ideal S256x256 .bf16) (t : Fin cfg0.N) (p : Fin 256) (q : Fin 256) :
    (win0_23.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 256 + 1 * q.val = q.val; omega

theorem blk23 (c : Dev nD) (t : Fin cfg0.N) (p : Fin 256) (q : Fin 256) :
    (iblk m c 23 t : Vec Ideal S256x256 .bf16) (ix2 p q) = (V m c main_v20 : Vec Ideal S256x256 .bf16) (ix2 p q) :=
  (congrFun (iblk23_eq m c t) (ix2 p q)).trans (read23 (V m c main_v20) t p q)

/-- Window 24: its block at any point is its whole array. -/
theorem iblk24_eq (c : Dev nD) (t : Fin cfg0.N) :
    iblk m c 24 t = (win0_24.blk t).view.read (Elt Ideal) (V m c main_v22) := rfl

theorem read24 (f : Vec Ideal S256 .f32) (t : Fin cfg0.N) (p : Fin 256) :
    (win0_24.blk t).view.read (Elt Ideal) f (ix1 p) = f (ix1 p) := by
  rw [View.read_apply]
  show f _ = _
  refine congrArg f (funext fun a => Fin.ext ?_)
  match a with
  | ⟨0, _⟩ => show 0 * 256 + 1 * p.val = p.val; omega

theorem blk24 (c : Dev nD) (t : Fin cfg0.N) (p : Fin 256) :
    (iblk m c 24 t : Vec Ideal S256 .f32) (ix1 p) = (V m c main_v22 : Vec Ideal S256 .f32) (ix1 p) :=
  (congrFun (iblk24_eq m c t) (ix1 p)).trans (read24 (V m c main_v22) t p)

/-- Window 25: its block at any point is its whole array. -/
theorem iblk25_eq (c : Dev nD) (t : Fin cfg0.N) :
    iblk m c 25 t = (win0_25.blk t).view.read (Elt Ideal) (V m c main_v21) := rfl

theorem read25 (f : Vec Ideal S256x1 .bf16) (t : Fin cfg0.N) (p : Fin 256) (q : Fin 1) :
    (win0_25.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 1 + 1 * q.val = q.val; omega

theorem blk25 (c : Dev nD) (t : Fin cfg0.N) (p : Fin 256) (q : Fin 1) :
    (iblk m c 25 t : Vec Ideal S256x1 .bf16) (ix2 p q) = (V m c main_v21 : Vec Ideal S256x1 .bf16) (ix2 p q) :=
  (congrFun (iblk25_eq m c t) (ix2 p q)).trans (read25 (V m c main_v21) t p q)

/-- Window 26: its block at any point is its whole array. -/
theorem iblk26_eq (c : Dev nD) (t : Fin cfg0.N) :
    iblk m c 26 t = (win0_26.blk t).view.read (Elt Ideal) (V m c main_v23) := rfl

theorem read26 (f : Vec Ideal S1 .f32) (t : Fin cfg0.N) (p : Fin 1) :
    (win0_26.blk t).view.read (Elt Ideal) f (ix1 p) = f (ix1 p) := by
  rw [View.read_apply]
  show f _ = _
  refine congrArg f (funext fun a => Fin.ext ?_)
  match a with
  | ⟨0, _⟩ => show 0 * 1 + 1 * p.val = p.val; omega

theorem blk26 (c : Dev nD) (t : Fin cfg0.N) (p : Fin 1) :
    (iblk m c 26 t : Vec Ideal S1 .f32) (ix1 p) = (V m c main_v23 : Vec Ideal S1 .f32) (ix1 p) :=
  (congrFun (iblk26_eq m c t) (ix1 p)).trans (read26 (V m c main_v23) t p)

/-- Window 27: its block at any point is its whole array. -/
theorem iblk27_eq (c : Dev nD) (t : Fin cfg0.N) :
    iblk m c 27 t = (win0_27.blk t).view.read (Elt Ideal) (V m c main_v26) := rfl

theorem read27 (f : Vec Ideal S256x128 .bf16) (t : Fin cfg0.N) (p : Fin 256) (q : Fin 128) :
    (win0_27.blk t).view.read (Elt Ideal) f (ix2 p q) = f (ix2 p q) := by
  rw [View.read_apply]
  show f _ = _
  refine congrArg f (funext fun a => Fin.ext ?_)
  match a with
  | ⟨0, _⟩ => show 0 * 256 + 1 * p.val = p.val; omega
  | ⟨1, _⟩ => show 0 * 128 + 1 * q.val = q.val; omega

theorem blk27 (c : Dev nD) (t : Fin cfg0.N) (p : Fin 256) (q : Fin 128) :
    (iblk m c 27 t : Vec Ideal S256x128 .bf16) (ix2 p q) = (V m c main_v26 : Vec Ideal S256x128 .bf16) (ix2 p q) :=
  (congrFun (iblk27_eq m c t) (ix2 p q)).trans (read27 (V m c main_v26) t p q)

/-- Window 28: its block at any point is its whole array. -/
theorem iblk28_eq (c : Dev nD) (t : Fin cfg0.N) :
    iblk m c 28 t = (win0_28.blk t).view.read (Elt Ideal) (V m c main_v27) := rfl

theorem read28 (f : Vec Ideal S27x128 .bf16) (t : Fin cfg0.N) (p : Fin 27) (q : Fin 128) :
    (win0_28.blk t).view.read (Elt Ideal) f (ix2 p q) = f (ix2 p q) := by
  rw [View.read_apply]
  show f _ = _
  refine congrArg f (funext fun a => Fin.ext ?_)
  match a with
  | ⟨0, _⟩ => show 0 * 27 + 1 * p.val = p.val; omega
  | ⟨1, _⟩ => show 0 * 128 + 1 * q.val = q.val; omega

theorem blk28 (c : Dev nD) (t : Fin cfg0.N) (p : Fin 27) (q : Fin 128) :
    (iblk m c 28 t : Vec Ideal S27x128 .bf16) (ix2 p q) = (V m c main_v27 : Vec Ideal S27x128 .bf16) (ix2 p q) :=
  (congrFun (iblk28_eq m c t) (ix2 p q)).trans (read28 (V m c main_v27) t p q)

/-- Window 29: its block at any point is its whole array. -/
theorem iblk29_eq (c : Dev nD) (t : Fin cfg0.N) :
    iblk m c 29 t = (win0_29.blk t).view.read (Elt Ideal) (V m c main_arg21) := rfl

theorem read29 (f : Vec Ideal S128 .f32) (t : Fin cfg0.N) (p : Fin 128) :
    (win0_29.blk t).view.read (Elt Ideal) f (ix1 p) = f (ix1 p) := by
  rw [View.read_apply]
  show f _ = _
  refine congrArg f (funext fun a => Fin.ext ?_)
  match a with
  | ⟨0, _⟩ => show 0 * 128 + 1 * p.val = p.val; omega

theorem blk29 (c : Dev nD) (t : Fin cfg0.N) (p : Fin 128) :
    (iblk m c 29 t : Vec Ideal S128 .f32) (ix1 p) = (V m c main_arg21 : Vec Ideal S128 .f32) (ix1 p) :=
  (congrFun (iblk29_eq m c t) (ix1 p)).trans (read29 (V m c main_arg21) t p)

/-- Window 30: its block at any point is its whole array. -/
theorem iblk30_eq (c : Dev nD) (t : Fin cfg0.N) :
    iblk m c 30 t = (win0_30.blk t).view.read (Elt Ideal) (V m c main_v29) := rfl

theorem read30 (f : Vec Ideal S128x3 .bf16) (t : Fin cfg0.N) (p : Fin 128) (q : Fin 3) :
    (win0_30.blk t).view.read (Elt Ideal) f (ix2 p q) = f (ix2 p q) := by
  rw [View.read_apply]
  show f _ = _
  refine congrArg f (funext fun a => Fin.ext ?_)
  match a with
  | ⟨0, _⟩ => show 0 * 128 + 1 * p.val = p.val; omega
  | ⟨1, _⟩ => show 0 * 3 + 1 * q.val = q.val; omega

theorem blk30 (c : Dev nD) (t : Fin cfg0.N) (p : Fin 128) (q : Fin 3) :
    (iblk m c 30 t : Vec Ideal S128x3 .bf16) (ix2 p q) = (V m c main_v29 : Vec Ideal S128x3 .bf16) (ix2 p q) :=
  (congrFun (iblk30_eq m c t) (ix2 p q)).trans (read30 (V m c main_v29) t p q)

/-- Window 31: its block at any point is its whole array. -/
theorem iblk31_eq (c : Dev nD) (t : Fin cfg0.N) :
    iblk m c 31 t = (win0_31.blk t).view.read (Elt Ideal) (V m c main_arg23) := rfl

theorem read31 (f : Vec Ideal S3 .f32) (t : Fin cfg0.N) (p : Fin 3) :
    (win0_31.blk t).view.read (Elt Ideal) f (ix1 p) = f (ix1 p) := by
  rw [View.read_apply]
  show f _ = _
  refine congrArg f (funext fun a => Fin.ext ?_)
  match a with
  | ⟨0, _⟩ => show 0 * 3 + 1 * p.val = p.val; omega

theorem blk31 (c : Dev nD) (t : Fin cfg0.N) (p : Fin 3) :
    (iblk m c 31 t : Vec Ideal S3 .f32) (ix1 p) = (V m c main_arg23 : Vec Ideal S3 .f32) (ix1 p) :=
  (congrFun (iblk31_eq m c t) (ix1 p)).trans (read31 (V m c main_arg23) t p)

end Cert.KernelIdeal.KWin

end
-- ==== Proof.WinHost.lean ====
/-
  What the host operations before the region leave in the buffers the region's windows read: the four constant
  tables, and for each weight matrix its transpose (fan-in × fan-out) in the short float format — for the two layers on
  joined inputs cut into its first 256 rows and the rest, for the 257-output layer cut into its first 256 columns and
  the last, that layer's bias cut likewise. Each is read off the list of operations: the operation that writes the
  buffer gives its value from its operand's contents, and no later operation writes it again.
-/
import proofs.«106108_j29403346108731_2_alg».proof.Proof.KernelIdealFrameP
import Idealize.ShloMosaic.Lib.ValueIdx

set_option maxRecDepth 16384

noncomputable section

namespace Cert.KernelIdeal.KWin

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ)

/-- The contents the region finds are those after the one stretch of host operations before it. -/
theorem V_eq (c : Dev nD) (b : Ref sig .tc) :
    V m c b = StableHlo.after hostOps0 (fun b => m (c, b)) (Proc.devRef .tc b) := rfl

/-- The table cst as the region finds it. -/
theorem V_cst (c : Dev nD) : @Eq (Vec Ideal S3x63 .f32) (V m c main_cst)
    (fun i => FloatOps.ofBits (F := Ideal) .f32 (lit0 (S3x63.rowMajor i))) := by
  refine (V_eq m c main_cst).trans ?_
  open Idealize.ShloMosaic.StableHlo in after_results_simp
  rfl

/-- The table cst_0 as the region finds it. -/
theorem V_cst_0 (c : Dev nD) : @Eq (Vec Ideal S3x63 .f32) (V m c main_cst_0)
    (fun i => FloatOps.ofBits (F := Ideal) .f32 (lit1 (S3x63.rowMajor i))) := by
  refine (V_eq m c main_cst_0).trans ?_
  open Idealize.ShloMosaic.StableHlo in after_results_simp
  rfl

/-- The table cst_1 as the region finds it. -/
theorem V_cst_1 (c : Dev nD) : @Eq (Vec Ideal S3x27 .f32) (V m c main_cst_1)
    (fun i => FloatOps.ofBits (F := Ideal) .f32 (lit2 (S3x27.rowMajor i))) := by
  refine (V_eq m c main_cst_1).trans ?_
  open Idealize.ShloMosaic.StableHlo in after_results_simp
  rfl

/-- The table cst_2 as the region finds it. -/
theorem V_cst_2 (c : Dev nD) : @Eq (Vec Ideal S3x27 .f32) (V m c main_cst_2)
    (fun i => FloatOps.ofBits (F := Ideal) .f32 (lit3 (S3x27.rowMajor i))) := by
  refine (V_eq m c main_cst_2).trans ?_
  open Idealize.ShloMosaic.StableHlo in after_results_simp
  rfl

/-- What the host operations leave in buffer v1: the first layer's weights, transposed. -/
theorem V_v1 (c : Dev nD) : @Eq (FVec Ideal S63x256 .bf16) (V m c main_v1)
    (truncf .bf16 (transpose S63x256 [1, 0] (m ((c : Thread nD τ).loc main_arg2)) transposes_S256x63_S63x256_1_0) bitsLt_bf16_f32) := by
  refine (V_eq m c main_v1).trans ?_
  open Idealize.ShloMosaic.StableHlo in after_results_simp

/-- What the host operations leave in buffer v3: a weight matrix, transposed. -/
theorem V_v3 (c : Dev nD) : @Eq (FVec Ideal S256x256 .bf16) (V m c main_v3)
    (truncf .bf16 (transpose S256x256 [1, 0] (m ((c : Thread nD τ).loc main_arg4)) transposes_S256x256_S256x256_1_0) bitsLt_bf16_f32) := by
  refine (V_eq m c main_v3).trans ?_
  open Idealize.ShloMosaic.StableHlo in after_results_simp

/-- What the host operations leave in buffer v5: a weight matrix, transposed. -/
theorem V_v5 (c : Dev nD) : @Eq (FVec Ideal S256x256 .bf16) (V m c main_v5)
    (truncf .bf16 (transpose S256x256 [1, 0] (m ((c : Thread nD τ).loc main_arg6)) transposes_S256x256_S256x256_1_0) bitsLt_bf16_f32) := by
  refine (V_eq m c main_v5).trans ?_
  open Idealize.ShloMosaic.StableHlo in after_results_simp

/-- What the host operations leave in buffer v7: a weight matrix, transposed. -/
theorem V_v7 (c : Dev nD) : @Eq (FVec Ideal S256x256 .bf16) (V m c main_v7)
    (truncf .bf16 (transpose S256x256 [1, 0] (m ((c : Thread nD τ).loc main_arg8)) transposes_S256x256_S256x256_1_0) bitsLt_bf16_f32) := by
  refine (V_eq m c main_v7).trans ?_
  open Idealize.ShloMosaic.StableHlo in after_results_simp

/-- What the host operations leave in buffer v9: a weight matrix, transposed. -/
theorem V_v9 (c : Dev nD) : @Eq (FVec Ideal S256x256 .bf16) (V m c main_v9)
    (truncf .bf16 (transpose S256x256 [1, 0] (m ((c : Thread nD τ).loc main_arg10)) transposes_S256x256_S256x256_1_0) bitsLt_bf16_f32) := by
  refine (V_eq m c main_v9).trans ?_
  open Idealize.ShloMosaic.StableHlo in after_results_simp

/-- What the host operations leave in buffer v12: the first 256 rows of the transposed weights of the layer on the join with the position's encoding. -/
theorem V_v12 (c : Dev nD) : @Eq (FVec Ideal S256x256 .bf16) (V m c main_v12)
    (extractStridedSlice S256x256 ![0, 0] (truncf .bf16 (transpose S319x256 [1, 0] (m ((c : Thread nD τ).loc main_arg12)) transposes_S256x319_S319x256_1_0) bitsLt_bf16_f32) slices_S319x256_S256x256_0_0) := by
  refine (V_eq m c main_v12).trans ?_
  open Idealize.ShloMosaic.StableHlo in after_results_simp

/-- What the host operations leave in buffer v13: their last 63 rows. -/
theorem V_v13 (c : Dev nD) : @Eq (FVec Ideal S63x256 .bf16) (V m c main_v13)
    (extractStridedSlice S63x256 ![256, 0] (truncf .bf16 (transpose S319x256 [1, 0] (m ((c : Thread nD τ).loc main_arg12)) transposes_S256x319_S319x256_1_0) bitsLt_bf16_f32) slices_S319x256_S63x256_256_0) := by
  refine (V_eq m c main_v13).trans ?_
  open Idealize.ShloMosaic.StableHlo in after_results_simp

/-- What the host operations leave in buffer v15: a weight matrix, transposed. -/
theorem V_v15 (c : Dev nD) : @Eq (FVec Ideal S256x256 .bf16) (V m c main_v15)
    (truncf .bf16 (transpose S256x256 [1, 0] (m ((c : Thread nD τ).loc main_arg14)) transposes_S256x256_S256x256_1_0) bitsLt_bf16_f32) := by
  refine (V_eq m c main_v15).trans ?_
  open Idealize.ShloMosaic.StableHlo in after_results_simp

/-- What the host operations leave in buffer v17: a weight matrix, transposed. -/
theorem V_v17 (c : Dev nD) : @Eq (FVec Ideal S256x256 .bf16) (V m c main_v17)
    (truncf .bf16 (transpose S256x256 [1, 0] (m ((c : Thread nD τ).loc main_arg16)) transposes_S256x256_S256x256_1_0) bitsLt_bf16_f32) := by
  refine (V_eq m c main_v17).trans ?_
  open Idealize.ShloMosaic.StableHlo in after_results_simp

/-- What the host operations leave in buffer v20: the first 256 columns of the transposed weights of the 257-output layer. -/
theorem V_v20 (c : Dev nD) : @Eq (FVec Ideal S256x256 .bf16) (V m c main_v20)
    (extractStridedSlice S256x256 ![0, 0] (truncf .bf16 (transpose S256x257 [1, 0] (m ((c : Thread nD τ).loc main_arg18)) transposes_S257x256_S256x257_1_0) bitsLt_bf16_f32) slices_S256x257_S256x256_0_0) := by
  refine (V_eq m c main_v20).trans ?_
  open Idealize.ShloMosaic.StableHlo in after_results_simp

/-- What the host operations leave in buffer v21: their last column. -/
theorem V_v21 (c : Dev nD) : @Eq (FVec Ideal S256x1 .bf16) (V m c main_v21)
    (extractStridedSlice S256x1 ![0, 256] (truncf .bf16 (transpose S256x257 [1, 0] (m ((c : Thread nD τ).loc main_arg18)) transposes_S257x256_S256x257_1_0) bitsLt_bf16_f32) slices_S256x257_S256x1_0_256) := by
  refine (V_eq m c main_v21).trans ?_
  open Idealize.ShloMosaic.StableHlo in after_results_simp

/-- What the host operations leave in buffer v22: the first 256 biases of the 257-output layer. -/
theorem V_v22 (c : Dev nD) : @Eq (FVec Ideal S256 .f32) (V m c main_v22)
    (extractStridedSlice S256 ![0] (m ((c : Thread nD τ).loc main_arg19)) slices_S257_S256_0) := by
  refine (V_eq m c main_v22).trans ?_
  open Idealize.ShloMosaic.StableHlo in after_results_simp

/-- What the host operations leave in buffer v23: its last bias. -/
theorem V_v23 (c : Dev nD) : @Eq (FVec Ideal S1 .f32) (V m c main_v23)
    (extractStridedSlice S1 ![256] (m ((c : Thread nD τ).loc main_arg19)) slices_S257_S1_256) := by
  refine (V_eq m c main_v23).trans ?_
  open Idealize.ShloMosaic.StableHlo in after_results_simp

/-- What the host operations leave in buffer v26: the first 256 rows of the transposed weights of the layer on the join with the direction's encoding. -/
theorem V_v26 (c : Dev nD) : @Eq (FVec Ideal S256x128 .bf16) (V m c main_v26)
    (extractStridedSlice S256x128 ![0, 0] (truncf .bf16 (transpose S283x128 [1, 0] (m ((c : Thread nD τ).loc main_arg20)) transposes_S128x283_S283x128_1_0) bitsLt_bf16_f32) slices_S283x128_S256x128_0_0) := by
  refine (V_eq m c main_v26).trans ?_
  open Idealize.ShloMosaic.StableHlo in after_results_simp

/-- What the host operations leave in buffer v27: their last 27 rows. -/
theorem V_v27 (c : Dev nD) : @Eq (FVec Ideal S27x128 .bf16) (V m c main_v27)
    (extractStridedSlice S27x128 ![256, 0] (truncf .bf16 (transpose S283x128 [1, 0] (m ((c : Thread nD τ).loc main_arg20)) transposes_S128x283_S283x128_1_0) bitsLt_bf16_f32) slices_S283x128_S27x128_256_0) := by
  refine (V_eq m c main_v27).trans ?_
  open Idealize.ShloMosaic.StableHlo in after_results_simp

/-- What the host operations leave in buffer v29: the colour layer's weights, transposed. -/
theorem V_v29 (c : Dev nD) : @Eq (FVec Ideal S128x3 .bf16) (V m c main_v29)
    (truncf .bf16 (transpose S128x3 [1, 0] (m ((c : Thread nD τ).loc main_arg22)) transposes_S3x128_S128x3_1_0) bitsLt_bf16_f32) := by
  refine (V_eq m c main_v29).trans ?_
  open Idealize.ShloMosaic.StableHlo in after_results_simp

end Cert.KernelIdeal.KWin

end
-- ==== Proof.Windows.lean ====
/-
  The region's windows in terms of the arguments as launched. Block t of the two row windows is rows
  4096·t … 4096·t + 4095 of the positions and of the directions; the four table windows hold the four constant tables;
  and the 26 weight and bias blocks hold the parameters of the specification read off the weight and bias arguments:
  a weight block is the argument transposed (the host transposes it before the region, and changes its float format,
  which is the identity here), cut where the layer is split, and a bias block is the argument or its cut.
-/
import proofs.«106108_j29403346108731_2_alg».proof.Proof.KernelIdealFrameP
import proofs.«106108_j29403346108731_2_alg».proof.Proof.Args
import proofs.«106108_j29403346108731_2_alg».proof.Proof.KernelChain
import proofs.«106108_j29403346108731_2_alg».proof.Proof.WinBlocksA
import proofs.«106108_j29403346108731_2_alg».proof.Proof.WinBlocksB
import proofs.«106108_j29403346108731_2_alg».proof.Proof.WinHost
import Idealize.ShloMosaic.Lib.ValueLayout

set_option maxRecDepth 16384

noncomputable section

namespace Cert.KernelIdeal.KWin

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ)

open Cert.Nerf Cert.Nerf.KOps

/-! ## The two row blocks -/

/-- Entry (r, k) of window 0's block t is entry (4096·t + r, k) of the positions as launched. -/
theorem rows0 (c : Dev nD) (t : Fin cfg0.N) (r : Fin 4096) (k : Fin 3) :
    (iblk m c 0 t : Vec Ideal S4096x3 .f32) (ix2 r k)
      = ((m ((c : Thread nD τ).loc main_arg0)) : S262144x3.Idx → EReal) (ix2 ⟨4096 * t.val + r.val, row_lt t r⟩ k) := by
  rw [blk0, V_main_arg0]

/-- Entry (r, k) of window 1's block t is entry (4096·t + r, k) of the directions as launched. -/
theorem rows1 (c : Dev nD) (t : Fin cfg0.N) (r : Fin 4096) (k : Fin 3) :
    (iblk m c 1 t : Vec Ideal S4096x3 .f32) (ix2 r k)
      = ((m ((c : Thread nD τ).loc main_arg1)) : S262144x3.Idx → EReal) (ix2 ⟨4096 * t.val + r.val, row_lt t r⟩ k) := by
  rw [blk1, V_main_arg1]

/-! ## The four tables -/

/-- Window 2's block is the constant table cst. -/
theorem tab2 (c : Dev nD) (t : Fin cfg0.N) : @Eq (Vec Ideal S3x63 .f32) (iblk m c 2 t)
    (fun i => FloatOps.ofBits (F := Ideal) .f32 (lit0 (S3x63.rowMajor i))) := by
  funext i
  obtain ⟨p, q, rfl⟩ : ∃ (p : Fin 3) (q : Fin 63), i = ix2 p q := ⟨i 0, i 1, eq_ix2 i⟩
  rw [blk2, V_cst]

/-- Window 3's block is the constant table cst_0. -/
theorem tab3 (c : Dev nD) (t : Fin cfg0.N) : @Eq (Vec Ideal S3x63 .f32) (iblk m c 3 t)
    (fun i => FloatOps.ofBits (F := Ideal) .f32 (lit1 (S3x63.rowMajor i))) := by
  funext i
  obtain ⟨p, q, rfl⟩ : ∃ (p : Fin 3) (q : Fin 63), i = ix2 p q := ⟨i 0, i 1, eq_ix2 i⟩
  rw [blk3, V_cst_0]

/-- Window 4's block is the constant table cst_1. -/
theorem tab4 (c : Dev nD) (t : Fin cfg0.N) : @Eq (Vec Ideal S3x27 .f32) (iblk m c 4 t)
    (fun i => FloatOps.ofBits (F := Ideal) .f32 (lit2 (S3x27.rowMajor i))) := by
  funext i
  obtain ⟨p, q, rfl⟩ : ∃ (p : Fin 3) (q : Fin 27), i = ix2 p q := ⟨i 0, i 1, eq_ix2 i⟩
  rw [blk4, V_cst_1]

/-- Window 5's block is the constant table cst_2. -/
theorem tab5 (c : Dev nD) (t : Fin cfg0.N) : @Eq (Vec Ideal S3x27 .f32) (iblk m c 5 t)
    (fun i => FloatOps.ofBits (F := Ideal) .f32 (lit3 (S3x27.rowMajor i))) := by
  funext i
  obtain ⟨p, q, rfl⟩ : ∃ (p : Fin 3) (q : Fin 27), i = ix2 p q := ⟨i 0, i 1, eq_ix2 i⟩
  rw [blk5, V_cst_2]

/-! ## The weight and bias blocks, entry by entry

A weight block holds the transposed matrix: entry (k, j) of the block is entry (j, k) of the argument. The two blocks of
a layer on joined inputs are the first 256 and the remaining rows of one transposed matrix, so they hold the argument's
first 256 and remaining columns; the two blocks of the 257-output layer are the first 256 columns and the last one of
its transposed matrix, so they hold the argument's first 256 rows and its last. -/

theorem f6 (c : Dev nD) (t : Fin cfg0.N) (j : Fin 256) (k : Fin 63) :
    (iblk m c 6 t : Vec Ideal S63x256 .bf16) (ix2 k j) = ((m ((c : Thread nD τ).loc main_arg2)) : S256x63.Idx → EReal) (ix2 j k) := by
  rw [blk6, V_v1]
  exact transpose_ix2_apply _ _ k j

theorem f7 (c : Dev nD) (t : Fin cfg0.N) (j : Fin 256) :
    (iblk m c 7 t : Vec Ideal S256 .f32) (ix1 j) = ((m ((c : Thread nD τ).loc main_arg3)) : S256.Idx → EReal) (ix1 j) := by
  rw [blk7, V_main_arg3]

theorem f8 (c : Dev nD) (t : Fin cfg0.N) (j : Fin 256) (k : Fin 256) :
    (iblk m c 8 t : Vec Ideal S256x256 .bf16) (ix2 k j) = ((m ((c : Thread nD τ).loc main_arg4)) : S256x256.Idx → EReal) (ix2 j k) := by
  rw [blk8, V_v3]
  exact transpose_ix2_apply _ _ k j

theorem f9 (c : Dev nD) (t : Fin cfg0.N) (j : Fin 256) :
    (iblk m c 9 t : Vec Ideal S256 .f32) (ix1 j) = ((m ((c : Thread nD τ).loc main_arg5)) : S256.Idx → EReal) (ix1 j) := by
  rw [blk9, V_main_arg5]

theorem f10 (c : Dev nD) (t : Fin cfg0.N) (j : Fin 256) (k : Fin 256) :
    (iblk m c 10 t : Vec Ideal S256x256 .bf16) (ix2 k j) = ((m ((c : Thread nD τ).loc main_arg6)) : S256x256.Idx → EReal) (ix2 j k) := by
  rw [blk10, V_v5]
  exact transpose_ix2_apply _ _ k j

theorem f11 (c : Dev nD) (t : Fin cfg0.N) (j : Fin 256) :
    (iblk m c 11 t : Vec Ideal S256 .f32) (ix1 j) = ((m ((c : Thread nD τ).loc main_arg7)) : S256.Idx → EReal) (ix1 j) := by
  rw [blk11, V_main_arg7]

theorem f12 (c : Dev nD) (t : Fin cfg0.N) (j : Fin 256) (k : Fin 256) :
    (iblk m c 12 t : Vec Ideal S256x256 .bf16) (ix2 k j) = ((m ((c : Thread nD τ).loc main_arg8)) : S256x256.Idx → EReal) (ix2 j k) := by
  rw [blk12, V_v7]
  exact transpose_ix2_apply _ _ k j

theorem f13 (c : Dev nD) (t : Fin cfg0.N) (j : Fin 256) :
    (iblk m c 13 t : Vec Ideal S256 .f32) (ix1 j) = ((m ((c : Thread nD τ).loc main_arg9)) : S256.Idx → EReal) (ix1 j) := by
  rw [blk13, V_main_arg9]

theorem f14 (c : Dev nD) (t : Fin cfg0.N) (j : Fin 256) (k : Fin 256) :
    (iblk m c 14 t : Vec Ideal S256x256 .bf16) (ix2 k j) = ((m ((c : Thread nD τ).loc main_arg10)) : S256x256.Idx → EReal) (ix2 j k) := by
  rw [blk14, V_v9]
  exact transpose_ix2_apply _ _ k j

theorem f15 (c : Dev nD) (t : Fin cfg0.N) (j : Fin 256) :
    (iblk m c 15 t : Vec Ideal S256 .f32) (ix1 j) = ((m ((c : Thread nD τ).loc main_arg11)) : S256.Idx → EReal) (ix1 j) := by
  rw [blk15, V_main_arg11]

theorem f16 (c : Dev nD) (t : Fin cfg0.N) (j : Fin 256) (k : Fin 256) :
    (iblk m c 16 t : Vec Ideal S256x256 .bf16) (ix2 k j) = ((m ((c : Thread nD τ).loc main_arg12)) : S256x319.Idx → EReal) (ix2 j (Fin.castAdd 63 k)) := by
  rw [blk16, V_v12]
  refine (slice2_axis0_apply 0 _ _ k j (Fin.castAdd 63 k) (Nat.zero_add _).symm).trans ?_
  exact transpose_ix2_apply _ _ (Fin.castAdd 63 k) j

theorem f17 (c : Dev nD) (t : Fin cfg0.N) (j : Fin 256) (k : Fin 63) :
    (iblk m c 17 t : Vec Ideal S63x256 .bf16) (ix2 k j) = ((m ((c : Thread nD τ).loc main_arg12)) : S256x319.Idx → EReal) (ix2 j (Fin.natAdd 256 k)) := by
  rw [blk17, V_v13]
  refine (slice2_axis0_apply 256 _ _ k j (Fin.natAdd 256 k) rfl).trans ?_
  exact transpose_ix2_apply _ _ (Fin.natAdd 256 k) j

theorem f18 (c : Dev nD) (t : Fin cfg0.N) (j : Fin 256) :
    (iblk m c 18 t : Vec Ideal S256 .f32) (ix1 j) = ((m ((c : Thread nD τ).loc main_arg13)) : S256.Idx → EReal) (ix1 j) := by
  rw [blk18, V_main_arg13]

theorem f19 (c : Dev nD) (t : Fin cfg0.N) (j : Fin 256) (k : Fin 256) :
    (iblk m c 19 t : Vec Ideal S256x256 .bf16) (ix2 k j) = ((m ((c : Thread nD τ).loc main_arg14)) : S256x256.Idx → EReal) (ix2 j k) := by
  rw [blk19, V_v15]
  exact transpose_ix2_apply _ _ k j

theorem f20 (c : Dev nD) (t : Fin cfg0.N) (j : Fin 256) :
    (iblk m c 20 t : Vec Ideal S256 .f32) (ix1 j) = ((m ((c : Thread nD τ).loc main_arg15)) : S256.Idx → EReal) (ix1 j) := by
  rw [blk20, V_main_arg15]

theorem f21 (c : Dev nD) (t : Fin cfg0.N) (j : Fin 256) (k : Fin 256) :
    (iblk m c 21 t : Vec Ideal S256x256 .bf16) (ix2 k j) = ((m ((c : Thread nD τ).loc main_arg16)) : S256x256.Idx → EReal) (ix2 j k) := by
  rw [blk21, V_v17]
  exact transpose_ix2_apply _ _ k j

theorem f22 (c : Dev nD) (t : Fin cfg0.N) (j : Fin 256) :
    (iblk m c 22 t : Vec Ideal S256 .f32) (ix1 j) = ((m ((c : Thread nD τ).loc main_arg17)) : S256.Idx → EReal) (ix1 j) := by
  rw [blk22, V_main_arg17]

theorem f23 (c : Dev nD) (t : Fin cfg0.N) (j : Fin 256) (k : Fin 256) :
    (iblk m c 23 t : Vec Ideal S256x256 .bf16) (ix2 k j) = ((m ((c : Thread nD τ).loc main_arg18)) : S257x256.Idx → EReal) (ix2 (Fin.castSucc j) k) := by
  rw [blk23, V_v20]
  refine (slice2_axis1_apply 0 _ _ k j (Fin.castSucc j) (Nat.zero_add _).symm).trans ?_
  exact transpose_ix2_apply _ _ k (Fin.castSucc j)

theorem f24 (c : Dev nD) (t : Fin cfg0.N) (j : Fin 256) :
    (iblk m c 24 t : Vec Ideal S256 .f32) (ix1 j) = ((m ((c : Thread nD τ).loc main_arg19)) : S257.Idx → EReal) (ix1 (Fin.castSucc j)) := by
  rw [blk24, V_v22]
  exact extractStridedSlice_apply _ _ _ (ix1 j) (ix1 (Fin.castSucc j)) (fun a => by
    match a with
    | ⟨0, _⟩ => exact (Nat.zero_add _).symm)

theorem f25 (c : Dev nD) (t : Fin cfg0.N) (k : Fin 256) :
    (iblk m c 25 t : Vec Ideal S256x1 .bf16) (ix2 k (0 : Fin 1)) = ((m ((c : Thread nD τ).loc main_arg18)) : S257x256.Idx → EReal) (ix2 (Fin.last 256) k) := by
  rw [blk25, V_v21]
  refine (slice2_axis1_apply 256 _ _ k (0 : Fin 1) (Fin.last 256) rfl).trans ?_
  exact transpose_ix2_apply _ _ k (Fin.last 256)

theorem f26 (c : Dev nD) (t : Fin cfg0.N) :
    (iblk m c 26 t : Vec Ideal S1 .f32) (ix1 (0 : Fin 1)) = ((m ((c : Thread nD τ).loc main_arg19)) : S257.Idx → EReal) (ix1 (Fin.last 256)) := by
  rw [blk26, V_v23]
  exact extractStridedSlice_apply _ _ _ (ix1 (0 : Fin 1)) (ix1 (Fin.last 256)) (fun a => by
    match a with
    | ⟨0, _⟩ => rfl)

theorem f27 (c : Dev nD) (t : Fin cfg0.N) (j : Fin 128) (k : Fin 256) :
    (iblk m c 27 t : Vec Ideal S256x128 .bf16) (ix2 k j) = ((m ((c : Thread nD τ).loc main_arg20)) : S128x283.Idx → EReal) (ix2 j (Fin.castAdd 27 k)) := by
  rw [blk27, V_v26]
  refine (slice2_axis0_apply 0 _ _ k j (Fin.castAdd 27 k) (Nat.zero_add _).symm).trans ?_
  exact transpose_ix2_apply _ _ (Fin.castAdd 27 k) j

theorem f28 (c : Dev nD) (t : Fin cfg0.N) (j : Fin 128) (k : Fin 27) :
    (iblk m c 28 t : Vec Ideal S27x128 .bf16) (ix2 k j) = ((m ((c : Thread nD τ).loc main_arg20)) : S128x283.Idx → EReal) (ix2 j (Fin.natAdd 256 k)) := by
  rw [blk28, V_v27]
  refine (slice2_axis0_apply 256 _ _ k j (Fin.natAdd 256 k) rfl).trans ?_
  exact transpose_ix2_apply _ _ (Fin.natAdd 256 k) j

theorem f29 (c : Dev nD) (t : Fin cfg0.N) (j : Fin 128) :
    (iblk m c 29 t : Vec Ideal S128 .f32) (ix1 j) = ((m ((c : Thread nD τ).loc main_arg21)) : S128.Idx → EReal) (ix1 j) := by
  rw [blk29, V_main_arg21]

theorem f30 (c : Dev nD) (t : Fin cfg0.N) (j : Fin 3) (k : Fin 128) :
    (iblk m c 30 t : Vec Ideal S128x3 .bf16) (ix2 k j) = ((m ((c : Thread nD τ).loc main_arg22)) : S3x128.Idx → EReal) (ix2 j k) := by
  rw [blk30, V_v29]
  exact transpose_ix2_apply _ _ k j

theorem f31 (c : Dev nD) (t : Fin cfg0.N) (j : Fin 3) :
    (iblk m c 31 t : Vec Ideal S3 .f32) (ix1 j) = ((m ((c : Thread nD τ).loc main_arg23)) : S3.Idx → EReal) (ix1 j) := by
  rw [blk31, V_main_arg23]

/-! ## Every block holds its parameter -/

/-- The 26 weight and bias blocks at any point hold the parameters read off the arguments as launched. -/
theorem ties (c : Dev nD) (t : Fin cfg0.N) :
    Cert.KernelIdeal.KNet.Ties
      (paramsOf (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23)))
      (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) where
  t6 := funext fun j => funext fun k => f6 m c t j k
  t7 := funext fun j => f7 m c t j
  t8 := funext fun j => funext fun k => f8 m c t j k
  t9 := funext fun j => f9 m c t j
  t10 := funext fun j => funext fun k => f10 m c t j k
  t11 := funext fun j => f11 m c t j
  t12 := funext fun j => funext fun k => f12 m c t j k
  t13 := funext fun j => f13 m c t j
  t14 := funext fun j => funext fun k => f14 m c t j k
  t15 := funext fun j => f15 m c t j
  t16 := fun j k => f16 m c t j k
  t17 := fun j k => f17 m c t j k
  t18 := funext fun j => f18 m c t j
  t19 := funext fun j => funext fun k => f19 m c t j k
  t20 := funext fun j => f20 m c t j
  t21 := funext fun j => funext fun k => f21 m c t j k
  t22 := funext fun j => f22 m c t j
  t23 := fun j k => f23 m c t j k
  t24 := fun j => f24 m c t j
  t25 := fun k => f25 m c t k
  t26 := f26 m c t
  t27 := fun j k => f27 m c t j k
  t28 := fun j k => f28 m c t j k
  t29 := funext fun j => f29 m c t j
  t30 := funext fun j => funext fun k => f30 m c t j k
  t31 := funext fun j => f31 m c t j

end Cert.KernelIdeal.KWin

end
-- ==== Proof.Final.lean ====
/-
  The kernel's output array after the run. Point t of the grid writes back rows 4096·t … 4096·t + 4095; what it
  writes, at row r and column j, is the network of the specification at the point in row 4096·t + r of the position
  and direction arrays: the colour in columns 0–2, the density in column 3. The 64 blocks tile the array, so the
  array ends as that one function of the arguments.
-/
import proofs.«106108_j29403346108731_2_alg».proof.Proof.KernelIdealFrameP
import proofs.«106108_j29403346108731_2_alg».proof.Proof.Args
import proofs.«106108_j29403346108731_2_alg».proof.Proof.KernelChain
import proofs.«106108_j29403346108731_2_alg».proof.Proof.KernelEnc
import proofs.«106108_j29403346108731_2_alg».proof.Proof.Windows
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KFinal

open Cert.KernelIdeal Cert.KernelIdeal.Gen Cert.KernelIdeal.GenP Idealize.ShloMosaic.ValueIdx Cert.Nerf

variable (m : (ℓ : Loc nD τ sig) → Buf (Elt Ideal) ℓ) (ρ : Dev nD → PrngReg)

/-- The argument arrays as launched, as functions of the index. -/
abbrev A0 (c : Dev nD) : S262144x3.Idx → EReal := m ((c : Thread nD τ).loc main_arg0)
abbrev A1 (c : Dev nD) : S262144x3.Idx → EReal := m ((c : Thread nD τ).loc main_arg1)
abbrev A2 (c : Dev nD) : S256x63.Idx → EReal := m ((c : Thread nD τ).loc main_arg2)
abbrev A3 (c : Dev nD) : S256.Idx → EReal := m ((c : Thread nD τ).loc main_arg3)
abbrev A4 (c : Dev nD) : S256x256.Idx → EReal := m ((c : Thread nD τ).loc main_arg4)
abbrev A5 (c : Dev nD) : S256.Idx → EReal := m ((c : Thread nD τ).loc main_arg5)
abbrev A6 (c : Dev nD) : S256x256.Idx → EReal := m ((c : Thread nD τ).loc main_arg6)
abbrev A7 (c : Dev nD) : S256.Idx → EReal := m ((c : Thread nD τ).loc main_arg7)
abbrev A8 (c : Dev nD) : S256x256.Idx → EReal := m ((c : Thread nD τ).loc main_arg8)
abbrev A9 (c : Dev nD) : S256.Idx → EReal := m ((c : Thread nD τ).loc main_arg9)
abbrev A10 (c : Dev nD) : S256x256.Idx → EReal := m ((c : Thread nD τ).loc main_arg10)
abbrev A11 (c : Dev nD) : S256.Idx → EReal := m ((c : Thread nD τ).loc main_arg11)
abbrev A12 (c : Dev nD) : S256x319.Idx → EReal := m ((c : Thread nD τ).loc main_arg12)
abbrev A13 (c : Dev nD) : S256.Idx → EReal := m ((c : Thread nD τ).loc main_arg13)
abbrev A14 (c : Dev nD) : S256x256.Idx → EReal := m ((c : Thread nD τ).loc main_arg14)
abbrev A15 (c : Dev nD) : S256.Idx → EReal := m ((c : Thread nD τ).loc main_arg15)
abbrev A16 (c : Dev nD) : S256x256.Idx → EReal := m ((c : Thread nD τ).loc main_arg16)
abbrev A17 (c : Dev nD) : S256.Idx → EReal := m ((c : Thread nD τ).loc main_arg17)
abbrev A18 (c : Dev nD) : S257x256.Idx → EReal := m ((c : Thread nD τ).loc main_arg18)
abbrev A19 (c : Dev nD) : S257.Idx → EReal := m ((c : Thread nD τ).loc main_arg19)
abbrev A20 (c : Dev nD) : S128x283.Idx → EReal := m ((c : Thread nD τ).loc main_arg20)
abbrev A21 (c : Dev nD) : S128.Idx → EReal := m ((c : Thread nD τ).loc main_arg21)
abbrev A22 (c : Dev nD) : S3x128.Idx → EReal := m ((c : Thread nD τ).loc main_arg22)
abbrev A23 (c : Dev nD) : S3.Idx → EReal := m ((c : Thread nD τ).loc main_arg23)

/-- The parameters the launched weight and bias arguments give. -/
abbrev Pm (c : Dev nD) : Params := paramsOf (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c)

/-- The output array: the colour of row n's point in columns 0–2, its density in column 3. -/
def G (c : Dev nD) : S262144x4.Idx → EReal := fun i =>
  if h : (i 1).val < 3 then rgb (Pm m c) (rowOf (A0 m c) (i 0)) (rowOf (A1 m c) (i 0)) ⟨(i 1).val, h⟩
  else sigma (Pm m c) (rowOf (A0 m c) (i 0))

theorem hz : (![0, 0] : Fin 2 → Nat) = fun _ => 0 := funext fun a => by fin_cases a <;> rfl
theorem hz1 : (![0] : Fin 1 → Nat) = fun _ => 0 := funext fun a => by fin_cases a; rfl

/-- The output window's block index at point t is (t, 0). -/
theorem idx32 : ∀ t : Fin cfg0.N, win0_32.index t (0 : Fin 2) = t.val ∧ win0_32.index t (1 : Fin 2) = 0 :=
  (by decide +kernel : ∀ t : Fin grid0.N, _)

theorem t_lt (t : Fin cfg0.N) : t.val < 64 := by have := t.isLt; have hN : cfg0.N = 64 := N_0; omega

/-- Entry (r, j) of point t's block is entry (4096·t + r, j) of the array. -/
theorem emb32 (t : Fin cfg0.N) (r : Fin 4096) (jc : Fin 4) :
    ((cfg0.win 32).blk t).view.emb (ix2 r jc) = ix2 (⟨4096 * t.val + r.val, by have := t_lt t; have := r.isLt; omega⟩ : Fin 262144) jc := by
  obtain ⟨e0, e1⟩ := idx32 t
  funext a
  apply Fin.ext
  match a with
  | ⟨0, _⟩ => show win0_32.index t (0 : Fin 2) * 4096 + 1 * r.val = 4096 * t.val + r.val; rw [e0]; omega
  | ⟨1, _⟩ => show win0_32.index t (1 : Fin 2) * 4 + 1 * jc.val = jc.val; rw [e1]; omega

/-- What point t writes back is block t of the output function. -/
theorem flushed_eq (c : Dev nD) (t : Fin cfg0.N) :
    (dats m 0 c).flushed 32 t = ((cfg0.win 32).blk t).view.read (Elt Ideal) (G m c) := by
  show (cfg0.win 32).cut (grid0.coords t) ((dats m 0 c).after 32 t) = _
  rw [after0_32]
  unfold out0_32
  rw [View.canon_unit_zero hz]
  simp only [View.ld_unit_zero (S := S4096x3) hz, View.ld_unit_zero (S := S3x63) hz, View.ld_unit_zero (S := S3x27) hz, View.ld_unit_zero (S := S63x256) hz, View.ld_unit_zero (S := S256x256) hz, View.ld_unit_zero (S := S256x1) hz, View.ld_unit_zero (S := S256x128) hz, View.ld_unit_zero (S := S27x128) hz, View.ld_unit_zero (S := S128x3) hz, View.ld_unit_zero (S := S256) hz1, View.ld_unit_zero (S := S1) hz1, View.ld_unit_zero (S := S128) hz1, View.ld_unit_zero (S := S3) hz1]
  funext y
  obtain ⟨r, jc, rfl⟩ : ∃ (r : Fin 4096) (jc : Fin 4), y = ix2 r jc := ⟨y 0, y 1, eq_ix2 y⟩
  rw [View.read_apply, emb32]
  show KNet.body (k0_pay2 (iblk m c 0 t) (iblk m c 2 t) (iblk m c 3 t))
      (k0_pay6 (iblk m c 4 t) (iblk m c 5 t) (k0_pay3 (iblk m c 1 t)) (k0_pay4 (iblk m c 1 t) (iblk m c 4 t)) (k0_pay5 (iblk m c 1 t) (iblk m c 4 t)))
      (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (ix2 r jc) = _
  have hxe : ∀ k : Fin 63, k0_pay2 (iblk m c 0 t) (iblk m c 2 t) (iblk m c 3 t) (ix2 r k)
      = xe (rowOf (A0 m c) (⟨4096 * t.val + r.val, by have := t_lt t; have := r.isLt; omega⟩ : Fin 262144)) k := fun k =>
    (KEnc.enc_pos _ _ _ (KWin.tab2 m c t) (KWin.tab3 m c t) r k).trans
      (congrArg (fun x => encAt x k.val) (funext fun c' => KWin.rows0 m c t r c'))
  have hde : ∀ k : Fin 27, k0_pay6 (iblk m c 4 t) (iblk m c 5 t) (k0_pay3 (iblk m c 1 t)) (k0_pay4 (iblk m c 1 t) (iblk m c 4 t)) (k0_pay5 (iblk m c 1 t) (iblk m c 4 t)) (ix2 r k)
      = de (rowOf (A1 m c) (⟨4096 * t.val + r.val, by have := t_lt t; have := r.isLt; omega⟩ : Fin 262144)) k := fun k =>
    (KEnc.enc_dir _ _ _ (KWin.tab4 m c t) (KWin.tab5 m c t) r k).trans
      (congrArg (fun x => encAt x k.val) (funext fun c' => KWin.rows1 m c t r c'))
  unfold G
  by_cases h : jc.val < 3
  · rw [dif_pos h]
    exact KNet.body_rgb (Pm m c) _ _ _ _ _ _ _ _ _ _ _ _ _ _ _ _ _ _ _ _ _ _ _ _ _ _ _ _ _ _ (KWin.ties m c t) r hxe hde ⟨jc.val, h⟩ jc rfl
  · rw [dif_neg h]
    exact KNet.body_sigma (Pm m c) _ _ _ _ _ _ _ _ _ _ _ _ _ _ _ _ _ _ _ _ _ _ _ _ _ _ _ _ _ (KWin.ties m c t) r hxe jc (by have := jc.isLt; omega)

/-- An entry is in point t's block iff each coordinate is in the block's range on its axis. -/
theorem mem_blk32 (t : Fin cfg0.N) (i : S262144x4.Idx) :
    i ∈ ((cfg0.win 32).blk t).view.set ↔ ∀ a : Fin 2, win0_32.index t a * S4096x4.size a ≤ (i a).val ∧ (i a).val < win0_32.index t a * S4096x4.size a + S4096x4.size a := by
  show i ∈ ((View.whole main_v30).slice (win0_32.rect t)).set ↔ _
  rw [View.set_slice_whole, Rect.mem_set_unit]
  exact Iff.rfl

/-- Every entry of the array is in the block of the point its row falls to. -/
theorem cover (i : S262144x4.Idx) : ∃ t : Fin cfg0.N, (cfg0.win 32).flush t = true ∧ i ∈ ((cfg0.win 32).blk t).view.set := by
  have hi0 : (i 0).val < 262144 := (i 0).isLt
  have hi1 : (i 1).val < 4 := (i 1).isLt
  have hN : cfg0.N = 64 := N_0
  obtain ⟨t, ht⟩ : ∃ t : Fin cfg0.N, t.val = (i 0).val / 4096 := ⟨⟨(i 0).val / 4096, by rw [hN]; omega⟩, rfl⟩
  refine ⟨t, flush0_32 t, ?_⟩
  rw [mem_blk32]
  obtain ⟨e0, e1⟩ := idx32 t
  intro a
  match a with
  | ⟨0, _⟩ =>
    show win0_32.index t (0 : Fin 2) * 4096 ≤ (i 0).val ∧ (i 0).val < win0_32.index t (0 : Fin 2) * 4096 + 4096
    rw [e0, ht]; omega
  | ⟨1, _⟩ =>
    show win0_32.index t (1 : Fin 2) * 4 ≤ (i 1).val ∧ (i 1).val < win0_32.index t (1 : Fin 2) * 4 + 4
    rw [e1]; omega

/-- The array after the run. -/
theorem final (c : Dev nD) : (dats m 0 c).arrAt 32 cfg0.N = G m c :=
  (dats m 0 c).arrAt_eq_of_cover 32 (G m c) (fun t _ => flushed_eq m c t) (cover)

end Cert.KernelIdeal.KFinal

end
-- ==== Proof.KernelRun.lean ====
/-
  The kernel's run, read: after the region the host takes columns 0–2 of the output array as the colour result and
  column 3, reshaped to a vector, as the density result. With the output array at the specification's function
  (the 64 blocks tile it), both results are that function's columns; the arguments end as launched.
-/
import proofs.«106108_j29403346108731_2_alg».proof.Proof.Final
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.GenP Idealize.ShloMosaic.ValueIdx Idealize.ShloMosaic.StableHlo Cert.Nerf

variable (m : (ℓ : Loc nD τ sig) → Buf (Elt Ideal) ℓ) (ρ : Dev nD → PrngReg)

/-- The colour result: columns 0–2 of the output array. -/
def out0 (c : Dev nD) : S262144x3.Idx → EReal :=
  extractStridedSlice S262144x3 ![0, 0] (KFinal.G m c) slices_S262144x4_S262144x3_0_0

/-- The density result: column 3 of the output array, as a vector. -/
def out1 (c : Dev nD) : S262144.Idx → EReal :=
  shapeCast S262144 (extractStridedSlice S262144x1 ![0, 3] (KFinal.G m c) slices_S262144x4_S262144x1_0_3) shapeCasts_S262144x1_S262144

/-- What the lines after the region find in the output array. -/
theorem with30 (c : Dev nD) :
    Pipeline.withArrays (cfgs 0).spec c (V0 m c) (fun w => (dats m 0 c).arrAt w (cfgs 0).N) (Proc.devRef .tc main_v30) = KFinal.G m c :=
  (Pipeline.withArrays_arr spec0 launch0.win.arr_inj c _ _ 32).trans (KFinal.final m c)

theorem tail31 (c : Dev nD) : Pipeline.afterTail₀ cfgs (dats m) 0 (V0 m) [hostOps1] c main_v31 = out0 m c := by
  unfold Pipeline.afterTail₀
  show StableHlo.after hostOps1 _ (Proc.devRef .tc main_v31) = _
  after_results
  rw [with30]
  rfl

theorem tail33 (c : Dev nD) : Pipeline.afterTail₀ cfgs (dats m) 0 (V0 m) [hostOps1] c main_v33 = out1 m c := by
  unfold Pipeline.afterTail₀
  show StableHlo.after hostOps1 _ (Proc.devRef .tc main_v33) = _
  after_results
  rw [with30]
  rfl

set_option maxHeartbeats 4000000 in
/-- The run: both results at the specification's columns, every argument as launched. -/
theorem run : θ_run defs (onTc (τ := τ) (main (F := Ideal))) ⟨m, fun _ => 0, ρ⟩ (fun r => ∀ c : Dev nD,
      r.2.mem ((c.tc : Thread nD τ).loc main_v31) = out0 m c
      ∧ r.2.mem ((c.tc : Thread nD τ).loc main_v33) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨
      ((h c).2 main_v31 (Pipeline.mem_restRefs_of main_v31 (by decide) (by decide))).trans (tail31 m c),
      ((h c).2 main_v33 (Pipeline.mem_restRefs_of main_v33 (by decide) (by decide))).trans (tail33 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 7).trans (((dats m 0 c).arrAt_in 7 rfl _).trans ((A_eq m c 7).trans (V_main_arg3 m c))),
      (((h c).2 main_arg4 (Pipeline.mem_restRefs_of main_arg4 (by decide) (by decide))).trans (W_main_arg4 m (dats m) c)),
      ((h c).1 9).trans (((dats m 0 c).arrAt_in 9 rfl _).trans ((A_eq m c 9).trans (V_main_arg5 m c))),
      (((h c).2 main_arg6 (Pipeline.mem_restRefs_of main_arg6 (by decide) (by decide))).trans (W_main_arg6 m (dats m) c)),
      ((h c).1 11).trans (((dats m 0 c).arrAt_in 11 rfl _).trans ((A_eq m c 11).trans (V_main_arg7 m c))),
      (((h c).2 main_arg8 (Pipeline.mem_restRefs_of main_arg8 (by decide) (by decide))).trans (W_main_arg8 m (dats m) c)),
      ((h c).1 13).trans (((dats m 0 c).arrAt_in 13 rfl _).trans ((A_eq m c 13).trans (V_main_arg9 m c))),
      (((h c).2 main_arg10 (Pipeline.mem_restRefs_of main_arg10 (by decide) (by decide))).trans (W_main_arg10 m (dats m) c)),
      ((h c).1 15).trans (((dats m 0 c).arrAt_in 15 rfl _).trans ((A_eq m c 15).trans (V_main_arg11 m c))),
      (((h c).2 main_arg12 (Pipeline.mem_restRefs_of main_arg12 (by decide) (by decide))).trans (W_main_arg12 m (dats m) c)),
      ((h c).1 18).trans (((dats m 0 c).arrAt_in 18 rfl _).trans ((A_eq m c 18).trans (V_main_arg13 m c))),
      (((h c).2 main_arg14 (Pipeline.mem_restRefs_of main_arg14 (by decide) (by decide))).trans (W_main_arg14 m (dats m) c)),
      ((h c).1 20).trans (((dats m 0 c).arrAt_in 20 rfl _).trans ((A_eq m c 20).trans (V_main_arg15 m c))),
      (((h c).2 main_arg16 (Pipeline.mem_restRefs_of main_arg16 (by decide) (by decide))).trans (W_main_arg16 m (dats m) c)),
      ((h c).1 22).trans (((dats m 0 c).arrAt_in 22 rfl _).trans ((A_eq m c 22).trans (V_main_arg17 m c))),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      ((h c).1 29).trans (((dats m 0 c).arrAt_in 29 rfl _).trans ((A_eq m c 29).trans (V_main_arg21 m c))),
      (((h c).2 main_arg22 (Pipeline.mem_restRefs_of main_arg22 (by decide) (by decide))).trans (W_main_arg22 m (dats m) c)),
      ((h c).1 31).trans (((dats m 0 c).arrAt_in 31 rfl _).trans ((A_eq m c 31).trans (V_main_arg23 m c)))⟩) (run_main m ρ)

/-- The colour result at (n, j). -/
theorem out0_apply (c : Dev nD) (n : Fin 262144) (j : Fin 3) :
    out0 m c (ix2 n j) = rgb (KFinal.Pm m c) (rowOf (KFinal.A0 m c) n) (rowOf (KFinal.A1 m c) n) j := by
  unfold out0
  rw [slice2_axis1_apply 0 (KFinal.G m c) slices_S262144x4_S262144x3_0_0 n j ⟨j.val, by have := j.isLt; omega⟩ (by simp)]
  unfold KFinal.G
  rw [dif_pos (show ((ix2 n (⟨j.val, by have := j.isLt; omega⟩ : Fin 4)) 1).val < 3 from j.isLt)]

/-- The density result at n. -/
theorem out1_apply (c : Dev nD) (n : Fin 262144) :
    out1 m c (ix1 n) = sigma (KFinal.Pm m c) (rowOf (KFinal.A0 m c) n) := by
  unfold out1
  rw [shapeCast_apply _ shapeCasts_S262144x1_S262144 (ix1 n) (ix2 n (0 : Fin 1)) (by
    rw [Shape.rowMajor_val_two, Shape.rowMajor_val_one]; show n.val * 1 + 0 = n.val; omega)]
  rw [slice2_axis1_apply 3 (KFinal.G m c) slices_S262144x4_S262144x1_0_3 n (0 : Fin 1) (3 : Fin 4) (by decide)]
  unfold KFinal.G
  rw [dif_neg (show ¬ ((ix2 n (3 : Fin 4)) 1).val < 3 from Nat.lt_irrefl 3)]

end Cert.KernelIdeal.KRun

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«106108_j29403346108731_2_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.RefLayers.lean ====
/-
  One layer of the reference read at an index. The reference writes a layer as: the weight argument transposed, the
  matrix product of the activations with it, the bias argument placed as a row and repeated down the rows, the sum of
  the two, and (for a rectified layer) the maximum with a broadcast zero. At row n and output j that is the dense
  layer of the specification on row n of the activations: (∑ k, h (n, k) · w (j, k)) + b j, rectified. When the
  activations are two arrays joined along the columns, the sum over the joined columns splits into the sum over the
  first array's columns and the sum over the second's: the specification's two partial products.
-/
import proofs.«106108_j29403346108731_2_alg».proof.Proof.Args
import proofs.«106108_j29403346108731_2_alg».proof.Proof.LibPlainDot
import proofs.«106108_j29403346108731_2_alg».proof.Proof.LibHostReads

noncomputable section

open scoped BigOperators

namespace Cert.ReferenceIdeal.RefValue

open Idealize.ShloMosaic Idealize.ShloMosaic.ValueIdx Idealize.ShloMosaic.HostReads Idealize.ShloMosaic.PlainDot Cert.Nerf

variable {R K N : Nat}

/-- The maximum with a broadcast zero word is the rectifier. -/
theorem relu_apply {s : Shape} (v : FVec Ideal s .f32) (bc0 : (⟨0, ![]⟩ : Shape).BroadcastsInDim s ![]) (i : s.Idx) :
    maximumf v (broadcastInDim s ![] bc0 (constant (F := Ideal) ⟨0, ![]⟩ .f32 0x00000000#32)) i = relu (v i) := by
  rw [maximumf_apply, broadcastInDim_apply _ bc0 _ i ix0 (fun a => a.elim0), constant_apply, Ideal.ofBits_zero_f32]
  rfl

/-- The product with the transposed weight plus the repeated bias row, at (n, j): the dense layer on row n. -/
theorem dense_apply (h : FVec Ideal ⟨2, ![R, K]⟩ .f32) (w : FVec Ideal ⟨2, ![N, K]⟩ .f32) (b : FVec Ideal ⟨1, ![N]⟩ .f32)
    (tr : (⟨2, ![N, K]⟩ : Shape).Transposes [1, 0] ⟨2, ![K, N]⟩)
    (bc1 : (⟨1, ![N]⟩ : Shape).BroadcastsInDim ⟨2, ![1, N]⟩ ![1])
    (bc2 : (⟨2, ![1, N]⟩ : Shape).BroadcastsInDim ⟨2, ![R, N]⟩ ![0, 1])
    (n : Fin R) (j : Fin N) :
    addf (Host.dotGeneral (DotDims.plain R K N) none h (transpose ⟨2, ![K, N]⟩ [1, 0] w tr))
        (broadcastInDim ⟨2, ![R, N]⟩ ![0, 1] bc2 (broadcastInDim ⟨2, ![1, N]⟩ ![1] bc1 b)) (ix2 n j)
      = dense (wOf w) (bOf b) (fun k => h (ix2 n k)) j := by
  rw [addf_apply, plainDot_apply, bcast_row_apply, bcast_toRow_apply]
  show _ = (∑ k : Fin K, h (ix2 n k) * w (ix2 j k)) + b (ix1 j)
  congr 1
  refine Finset.sum_congr rfl fun k _ => ?_
  rw [transpose2_apply]

/-- A rectified layer at (n, j). -/
theorem dense_relu_apply (h : FVec Ideal ⟨2, ![R, K]⟩ .f32) (w : FVec Ideal ⟨2, ![N, K]⟩ .f32) (b : FVec Ideal ⟨1, ![N]⟩ .f32)
    (tr : (⟨2, ![N, K]⟩ : Shape).Transposes [1, 0] ⟨2, ![K, N]⟩)
    (bc1 : (⟨1, ![N]⟩ : Shape).BroadcastsInDim ⟨2, ![1, N]⟩ ![1])
    (bc2 : (⟨2, ![1, N]⟩ : Shape).BroadcastsInDim ⟨2, ![R, N]⟩ ![0, 1])
    (bc0 : (⟨0, ![]⟩ : Shape).BroadcastsInDim ⟨2, ![R, N]⟩ ![])
    (n : Fin R) (j : Fin N) :
    maximumf (addf (Host.dotGeneral (DotDims.plain R K N) none h (transpose ⟨2, ![K, N]⟩ [1, 0] w tr))
        (broadcastInDim ⟨2, ![R, N]⟩ ![0, 1] bc2 (broadcastInDim ⟨2, ![1, N]⟩ ![1] bc1 b)))
      (broadcastInDim ⟨2, ![R, N]⟩ ![] bc0 (constant (F := Ideal) ⟨0, ![]⟩ .f32 0x00000000#32)) (ix2 n j)
      = relu (dense (wOf w) (bOf b) (fun k => h (ix2 n k)) j) := by
  rw [relu_apply, dense_apply]

section Joined
variable {K₁ K₂ : Nat}

/-- Two arrays joined along the columns, read in the first array's columns … -/
theorem joined_left (h : FVec Ideal ⟨2, ![R, K₁]⟩ .f32) (e : FVec Ideal ⟨2, ![R, K₂]⟩ .f32)
    (hc : Shape.Concatenates [(⟨2, ![R, K₁]⟩ : Shape), ⟨2, ![R, K₂]⟩] ⟨2, ![R, K₁ + K₂]⟩ 1) (n : Fin R) (k : Fin K₁) :
    concatenate ⟨2, ![R, K₁ + K₂]⟩ 1 [⟨⟨2, ![R, K₁]⟩, h⟩, ⟨⟨2, ![R, K₂]⟩, e⟩] hc (ix2 n (Fin.castAdd K₂ k)) = h (ix2 n k) :=
  concatenate_pair_apply_left _ h e hc (ix2 n (Fin.castAdd K₂ k)) rfl (ix2 n k) (fun b => by
    match b with
    | ⟨0, _⟩ => rfl
    | ⟨1, _⟩ => rfl)

/-- … and in the second array's. -/
theorem joined_right (h : FVec Ideal ⟨2, ![R, K₁]⟩ .f32) (e : FVec Ideal ⟨2, ![R, K₂]⟩ .f32)
    (hc : Shape.Concatenates [(⟨2, ![R, K₁]⟩ : Shape), ⟨2, ![R, K₂]⟩] ⟨2, ![R, K₁ + K₂]⟩ 1) (n : Fin R) (k : Fin K₂) :
    concatenate ⟨2, ![R, K₁ + K₂]⟩ 1 [⟨⟨2, ![R, K₁]⟩, h⟩, ⟨⟨2, ![R, K₂]⟩, e⟩] hc (ix2 n (Fin.natAdd K₁ k)) = e (ix2 n k) :=
  concatenate_pair_apply_right _ h e hc (ix2 n (Fin.natAdd K₁ k)) rfl rfl (ix2 n k) (fun b hb => by
    match b, hb with
    | ⟨0, _⟩, _ => rfl
    | ⟨1, _⟩, hb => exact absurd rfl hb)
    (by show k.val + K₁ = K₁ + k.val; omega)

/-- The dense layer on two joined arrays, at (n, j): the two partial products plus the bias. -/
theorem dense2_apply (h : FVec Ideal ⟨2, ![R, K₁]⟩ .f32) (e : FVec Ideal ⟨2, ![R, K₂]⟩ .f32)
    (w : FVec Ideal ⟨2, ![N, K₁ + K₂]⟩ .f32) (b : FVec Ideal ⟨1, ![N]⟩ .f32)
    (hc : Shape.Concatenates [(⟨2, ![R, K₁]⟩ : Shape), ⟨2, ![R, K₂]⟩] ⟨2, ![R, K₁ + K₂]⟩ 1)
    (tr : (⟨2, ![N, K₁ + K₂]⟩ : Shape).Transposes [1, 0] ⟨2, ![K₁ + K₂, N]⟩)
    (bc1 : (⟨1, ![N]⟩ : Shape).BroadcastsInDim ⟨2, ![1, N]⟩ ![1])
    (bc2 : (⟨2, ![1, N]⟩ : Shape).BroadcastsInDim ⟨2, ![R, N]⟩ ![0, 1])
    (n : Fin R) (j : Fin N) :
    addf (Host.dotGeneral (DotDims.plain R (K₁ + K₂) N) none
          (concatenate ⟨2, ![R, K₁ + K₂]⟩ 1 [⟨⟨2, ![R, K₁]⟩, h⟩, ⟨⟨2, ![R, K₂]⟩, e⟩] hc)
          (transpose ⟨2, ![K₁ + K₂, N]⟩ [1, 0] w tr))
        (broadcastInDim ⟨2, ![R, N]⟩ ![0, 1] bc2 (broadcastInDim ⟨2, ![1, N]⟩ ![1] bc1 b)) (ix2 n j)
      = dense2 (wOf w) (bOf b) (fun k => h (ix2 n k)) (fun k => e (ix2 n k)) j := by
  rw [dense_apply]
  show (∑ k : Fin (K₁ + K₂), concatenate ⟨2, ![R, K₁ + K₂]⟩ 1 [⟨⟨2, ![R, K₁]⟩, h⟩, ⟨⟨2, ![R, K₂]⟩, e⟩] hc (ix2 n k) * wOf w j k)
      + bOf b j
    = ((∑ k : Fin K₁, h (ix2 n k) * wOf w j (Fin.castAdd K₂ k)) + (∑ k : Fin K₂, e (ix2 n k) * wOf w j (Fin.natAdd K₁ k)))
      + bOf b j
  rw [Fin.sum_univ_add]
  simp only [joined_left, joined_right]

/-- A rectified layer on two joined arrays, at (n, j). -/
theorem dense2_relu_apply (h : FVec Ideal ⟨2, ![R, K₁]⟩ .f32) (e : FVec Ideal ⟨2, ![R, K₂]⟩ .f32)
    (w : FVec Ideal ⟨2, ![N, K₁ + K₂]⟩ .f32) (b : FVec Ideal ⟨1, ![N]⟩ .f32)
    (hc : Shape.Concatenates [(⟨2, ![R, K₁]⟩ : Shape), ⟨2, ![R, K₂]⟩] ⟨2, ![R, K₁ + K₂]⟩ 1)
    (tr : (⟨2, ![N, K₁ + K₂]⟩ : Shape).Transposes [1, 0] ⟨2, ![K₁ + K₂, N]⟩)
    (bc1 : (⟨1, ![N]⟩ : Shape).BroadcastsInDim ⟨2, ![1, N]⟩ ![1])
    (bc2 : (⟨2, ![1, N]⟩ : Shape).BroadcastsInDim ⟨2, ![R, N]⟩ ![0, 1])
    (bc0 : (⟨0, ![]⟩ : Shape).BroadcastsInDim ⟨2, ![R, N]⟩ ![])
    (n : Fin R) (j : Fin N) :
    maximumf (addf (Host.dotGeneral (DotDims.plain R (K₁ + K₂) N) none
          (concatenate ⟨2, ![R, K₁ + K₂]⟩ 1 [⟨⟨2, ![R, K₁]⟩, h⟩, ⟨⟨2, ![R, K₂]⟩, e⟩] hc)
          (transpose ⟨2, ![K₁ + K₂, N]⟩ [1, 0] w tr))
        (broadcastInDim ⟨2, ![R, N]⟩ ![0, 1] bc2 (broadcastInDim ⟨2, ![1, N]⟩ ![1] bc1 b)))
      (broadcastInDim ⟨2, ![R, N]⟩ ![] bc0 (constant (F := Ideal) ⟨0, ![]⟩ .f32 0x00000000#32)) (ix2 n j)
      = relu (dense2 (wOf w) (bOf b) (fun k => h (ix2 n k)) (fun k => e (ix2 n k)) j) := by
  rw [relu_apply, dense2_apply]

end Joined

end Cert.ReferenceIdeal.RefValue

end
-- ==== Proof.RefEnc.lean ====
/-
  The reference's encoding read at an index. The reference computes the frequencies as 2.0 raised to the integers
  0, 1, …, L − 1 converted to floats: at the ideal values the word 0x40000000 is 2 and 2 to the power of the real l is
  2^l. It multiplies each coordinate of a row by each frequency ([N, L, 3]), takes sines and cosines, joins them along
  the last axis ([N, L, 6]: positions 0–2 the sines of coordinates 0–2, positions 3–5 the cosines), lays the levels
  side by side ([N, 6·L]: column q is position q % 6 of level q / 6), and puts the three coordinates in front. Column
  col ≥ 3 is therefore position (col − 3) % 6 of level (col − 3) / 6: a sine of coordinate (col − 3) % 3 when
  (col − 3) % 6 < 3, a cosine of it otherwise — the specification's encoding.
-/
import proofs.«106108_j29403346108731_2_alg».proof.Proof.Gen.ReferenceIdeal.Read
import proofs.«106108_j29403346108731_2_alg».proof.Proof.Args
import proofs.«106108_j29403346108731_2_alg».proof.Proof.LibHostReads

noncomputable section

namespace Cert.ReferenceIdeal.RefValue

open Cert.ReferenceIdeal Cert.ReferenceIdeal.Gen Idealize.ShloMosaic Idealize.ShloMosaic.ValueIdx
  Idealize.ShloMosaic.HostReads Cert.Nerf

/-- The word 0x40000000 is the number 2. -/
theorem two_word : Ideal.ofBits .f32 0x40000000#32 = ((2 : ℝ) : EReal) := by
  simp [Ideal.ofBits, Ideal.ieee, -EReal.coe_mul]; norm_num

/-- A small natural number as a 32-bit word reads back, signed, as itself. -/
theorem iota_toInt (l : Fin 10) : (BitVec.ofNat 32 l.val).toInt = (l.val : ℤ) := by
  revert l; decide

/-- 2.0 to the power of the float of the integer l is 2^l. -/
theorem freq_word (l : ℕ) (hl : l < 10) :
    FloatOps.hostPowf (F := Ideal) (φ := .f32) (FloatOps.ofBits .f32 0x40000000#32) (FloatOps.sitofp .f32 (BitVec.ofNat 32 l))
      = (((2 : ℝ) ^ l : ℝ) : EReal) := by
  rw [Ideal.hostPowf_def, Ideal.ofBits_def, two_word, sitofp_ideal, iota_toInt ⟨l, hl⟩, Ideal.pow_coe_coe]
  congr 1
  show (2 : ℝ) ^ (((l : ℤ)) : ℝ) = 2 ^ l
  rw [Int.cast_natCast, Real.rpow_natCast]

section pos
variable (a0 : (⟨S262144x3, .f32⟩ : BufTy).Contents (Elt Ideal))

/-- The frequency of level l is 2^l (ten levels for a position). -/
theorem freq_pos (l : Fin 10) : Read.val_main_v4 (F := Ideal) (ix1 l) = (((2 : ℝ) ^ l.val : ℝ) : EReal) := by
  rw [Read.val_main_v4_apply, Read.val_main_v3_apply, Read.val_main_cst_apply, Read.val_main_v2_apply,
    Read.val_main_v0_apply]
  exact freq_word l.val (by have := l.isLt; omega)

/-- Coordinate c of row n scaled by the frequency of level l. -/
theorem ang_pos (n : Fin 262144) (l : Fin 10) (c : Fin 3) :
    Read.val_main_v10 a0 (ix3 n l c) = a0 (ix2 n c) * (((2 : ℝ) ^ l.val : ℝ) : EReal) := by
  rw [Read.val_main_v10_apply, Read.val_main_v8_apply, Read.val_main_v5_apply, Read.val_main_v9_apply,
    Read.val_main_v7_apply, Read.val_main_v6_apply]
  rw [show Read.idx_main_v5 (Read.idx_main_v8 (ix3 n l c)) = ix2 n c from
        funext fun a => Fin.ext (by match a with | ⟨0, _⟩ => rfl | ⟨1, _⟩ => rfl),
    show Read.idx_main_v6 (Read.idx_main_v7 (Read.idx_main_v9 (ix3 n l c))) = ix1 l from
        funext fun a => Fin.ext (by match a with | ⟨0, _⟩ => rfl),
    freq_pos]
  rfl

theorem sin_pos (n : Fin 262144) (l : Fin 10) (c : Fin 3) :
    Read.val_main_v11 a0 (ix3 n l c) = Ideal.sin (a0 (ix2 n c) * (((2 : ℝ) ^ l.val : ℝ) : EReal)) := by
  rw [Read.val_main_v11_apply, ang_pos]; rfl

theorem cos_pos (n : Fin 262144) (l : Fin 10) (c : Fin 3) :
    Read.val_main_v12 a0 (ix3 n l c) = Ideal.cos (a0 (ix2 n c) * (((2 : ℝ) ^ l.val : ℝ) : EReal)) := by
  rw [Read.val_main_v12_apply, ang_pos]; rfl

/-- One level's six numbers: positions below 3 are the sines … -/
theorem level_pos_sin (n : Fin 262144) (l : Fin 10) (p : Fin 6) (hp : p.val < 3) :
    Read.val_main_v13 a0 (ix3 n l p) = Ideal.sin (a0 (ix2 n ⟨p.val, hp⟩) * (((2 : ℝ) ^ l.val : ℝ) : EReal)) := by
  unfold Read.val_main_v13
  refine (concatenate_pair_apply_left (2 : Fin S262144x10x6.rank) (Read.val_main_v11 a0) (Read.val_main_v12 a0) _
    (ix3 n l p) rfl (ix3 n l ⟨p.val, hp⟩) (fun b => by
      match b with
      | ⟨0, _⟩ => rfl
      | ⟨1, _⟩ => rfl
      | ⟨2, _⟩ => rfl)).trans ?_
  exact sin_pos a0 n l ⟨p.val, hp⟩

/-- … and the others the cosines. -/
theorem level_pos_cos (n : Fin 262144) (l : Fin 10) (p : Fin 6) (hp : 3 ≤ p.val) :
    Read.val_main_v13 a0 (ix3 n l p)
      = Ideal.cos (a0 (ix2 n ⟨p.val - 3, by have := p.isLt; omega⟩) * (((2 : ℝ) ^ l.val : ℝ) : EReal)) := by
  unfold Read.val_main_v13
  refine (concatenate_pair_apply_right (2 : Fin S262144x10x6.rank) (Read.val_main_v11 a0) (Read.val_main_v12 a0) _
    (ix3 n l p) rfl rfl (ix3 n l ⟨p.val - 3, by have := p.isLt; omega⟩) (fun b hb => by
      match b, hb with
      | ⟨0, _⟩, _ => rfl
      | ⟨1, _⟩, _ => rfl
      | ⟨2, _⟩, hb => exact absurd rfl hb)
    (by show p.val - 3 + 3 = p.val; omega)).trans ?_
  exact cos_pos a0 n l _

/-- The levels laid side by side: column q of the 60 is position q % 6 of level q / 6. -/
theorem flat_pos (n : Fin 262144) (q : Fin 60) :
    Read.val_main_v14 a0 (ix2 n q)
      = Read.val_main_v13 a0 (ix3 n ⟨q.val / 6, by have := q.isLt; omega⟩ ⟨q.val % 6, by omega⟩) := by
  rw [Read.val_main_v14_apply]
  congr 1
  funext a
  apply Fin.ext
  have hq := q.isLt
  have hn := n.isLt
  match a with
  | ⟨0, _⟩ => show (n.val * 60 + q.val) / 60 = n.val; omega
  | ⟨1, _⟩ => show (n.val * 60 + q.val) / 6 % 10 = q.val / 6; omega
  | ⟨2, _⟩ => show (n.val * 60 + q.val) % 6 = q.val % 6; omega

/-- The coordinates first … -/
theorem enc_pos_lo (n : Fin 262144) (col : Fin 63) (h : col.val < 3) :
    Read.val_main_v15 a0 (ix2 n col) = a0 (ix2 n ⟨col.val, h⟩) := by
  unfold Read.val_main_v15
  exact concatenate_pair_apply_left (1 : Fin S262144x63.rank) a0 (Read.val_main_v14 a0) _
    (ix2 n col) rfl (ix2 n ⟨col.val, h⟩) (fun b => by
      match b with
      | ⟨0, _⟩ => rfl
      | ⟨1, _⟩ => rfl)

/-- … then the levels. -/
theorem enc_pos_hi (n : Fin 262144) (col : Fin 63) (h : 3 ≤ col.val) :
    Read.val_main_v15 a0 (ix2 n col)
      = Read.val_main_v14 a0 (ix2 n ⟨col.val - 3, by have := col.isLt; omega⟩) := by
  unfold Read.val_main_v15
  exact concatenate_pair_apply_right (1 : Fin S262144x63.rank) a0 (Read.val_main_v14 a0) _
    (ix2 n col) rfl rfl (ix2 n ⟨col.val - 3, by have := col.isLt; omega⟩) (fun b hb => by
      match b, hb with
      | ⟨0, _⟩, _ => rfl
      | ⟨1, _⟩, hb => exact absurd rfl hb)
    (by show col.val - 3 + 3 = col.val; omega)

/-- The reference's encoding of row n, column by column, is the specification's. -/
theorem ref_enc_pos (n : Fin 262144) (col : Fin 63) :
    Read.val_main_v15 a0 (ix2 n col) = encAt (rowOf a0 n) col.val := by
  unfold encAt
  by_cases h3 : col.val < 3
  · rw [if_pos h3, enc_pos_lo a0 n col h3]
    exact congrArg (fun c => a0 (ix2 n c)) (Fin.ext (by show col.val = chan col.val; unfold chan; rw [if_pos h3]))
  · rw [if_neg h3, enc_pos_hi a0 n col (by omega), flat_pos]
    have hs : scale col.val = (((2 : ℝ) ^ ((col.val - 3) / 6) : ℝ) : EReal) := by unfold scale lev; rw [if_neg h3]
    have hc : chan col.val = (col.val - 3) % 3 := by unfold chan; rw [if_neg h3]
    by_cases hp : (col.val - 3) % 6 < 3
    · rw [if_pos hp, level_pos_sin a0 n _ _ hp, hs]
      exact congrArg (fun c => Ideal.sin (a0 (ix2 n c) * _)) (Fin.ext (by show (col.val - 3) % 6 = chan col.val; omega))
    · rw [if_neg hp, level_pos_cos a0 n _ _ (by show 3 ≤ (col.val - 3) % 6; omega), hs]
      exact congrArg (fun c => Ideal.cos (a0 (ix2 n c) * _)) (Fin.ext (by show (col.val - 3) % 6 - 3 = chan col.val; omega))

end pos

section dir
variable (a1 : (⟨S262144x3, .f32⟩ : BufTy).Contents (Elt Ideal))

/-- The frequency of level l is 2^l (four levels for a direction). -/
theorem freq_dir (l : Fin 4) : Read.val_main_v20 (F := Ideal) (ix1 l) = (((2 : ℝ) ^ l.val : ℝ) : EReal) := by
  rw [Read.val_main_v20_apply, Read.val_main_v19_apply, Read.val_main_cst_0_apply, Read.val_main_v18_apply,
    Read.val_main_v16_apply]
  exact freq_word l.val (by have := l.isLt; omega)

/-- Coordinate c of row n scaled by the frequency of level l. -/
theorem ang_dir (n : Fin 262144) (l : Fin 4) (c : Fin 3) :
    Read.val_main_v26 a1 (ix3 n l c) = a1 (ix2 n c) * (((2 : ℝ) ^ l.val : ℝ) : EReal) := by
  rw [Read.val_main_v26_apply, Read.val_main_v24_apply, Read.val_main_v21_apply, Read.val_main_v25_apply,
    Read.val_main_v23_apply, Read.val_main_v22_apply]
  rw [show Read.idx_main_v21 (Read.idx_main_v24 (ix3 n l c)) = ix2 n c from
        funext fun a => Fin.ext (by match a with | ⟨0, _⟩ => rfl | ⟨1, _⟩ => rfl),
    show Read.idx_main_v22 (Read.idx_main_v23 (Read.idx_main_v25 (ix3 n l c))) = ix1 l from
        funext fun a => Fin.ext (by match a with | ⟨0, _⟩ => rfl),
    freq_dir]
  rfl

theorem sin_dir (n : Fin 262144) (l : Fin 4) (c : Fin 3) :
    Read.val_main_v27 a1 (ix3 n l c) = Ideal.sin (a1 (ix2 n c) * (((2 : ℝ) ^ l.val : ℝ) : EReal)) := by
  rw [Read.val_main_v27_apply, ang_dir]; rfl

theorem cos_dir (n : Fin 262144) (l : Fin 4) (c : Fin 3) :
    Read.val_main_v28 a1 (ix3 n l c) = Ideal.cos (a1 (ix2 n c) * (((2 : ℝ) ^ l.val : ℝ) : EReal)) := by
  rw [Read.val_main_v28_apply, ang_dir]; rfl

/-- One level's six numbers: positions below 3 are the sines … -/
theorem level_dir_sin (n : Fin 262144) (l : Fin 4) (p : Fin 6) (hp : p.val < 3) :
    Read.val_main_v29 a1 (ix3 n l p) = Ideal.sin (a1 (ix2 n ⟨p.val, hp⟩) * (((2 : ℝ) ^ l.val : ℝ) : EReal)) := by
  unfold Read.val_main_v29
  refine (concatenate_pair_apply_left (2 : Fin S262144x4x6.rank) (Read.val_main_v27 a1) (Read.val_main_v28 a1) _
    (ix3 n l p) rfl (ix3 n l ⟨p.val, hp⟩) (fun b => by
      match b with
      | ⟨0, _⟩ => rfl
      | ⟨1, _⟩ => rfl
      | ⟨2, _⟩ => rfl)).trans ?_
  exact sin_dir a1 n l ⟨p.val, hp⟩

/-- … and the others the cosines. -/
theorem level_dir_cos (n : Fin 262144) (l : Fin 4) (p : Fin 6) (hp : 3 ≤ p.val) :
    Read.val_main_v29 a1 (ix3 n l p)
      = Ideal.cos (a1 (ix2 n ⟨p.val - 3, by have := p.isLt; omega⟩) * (((2 : ℝ) ^ l.val : ℝ) : EReal)) := by
  unfold Read.val_main_v29
  refine (concatenate_pair_apply_right (2 : Fin S262144x4x6.rank) (Read.val_main_v27 a1) (Read.val_main_v28 a1) _
    (ix3 n l p) rfl rfl (ix3 n l ⟨p.val - 3, by have := p.isLt; omega⟩) (fun b hb => by
      match b, hb with
      | ⟨0, _⟩, _ => rfl
      | ⟨1, _⟩, _ => rfl
      | ⟨2, _⟩, hb => exact absurd rfl hb)
    (by show p.val - 3 + 3 = p.val; omega)).trans ?_
  exact cos_dir a1 n l _

/-- The levels laid side by side: column q of the 24 is position q % 6 of level q / 6. -/
theorem flat_dir (n : Fin 262144) (q : Fin 24) :
    Read.val_main_v30 a1 (ix2 n q)
      = Read.val_main_v29 a1 (ix3 n ⟨q.val / 6, by have := q.isLt; omega⟩ ⟨q.val % 6, by omega⟩) := by
  rw [Read.val_main_v30_apply]
  congr 1
  funext a
  apply Fin.ext
  have hq := q.isLt
  have hn := n.isLt
  match a with
  | ⟨0, _⟩ => show (n.val * 24 + q.val) / 24 = n.val; omega
  | ⟨1, _⟩ => show (n.val * 24 + q.val) / 6 % 4 = q.val / 6; omega
  | ⟨2, _⟩ => show (n.val * 24 + q.val) % 6 = q.val % 6; omega

/-- The coordinates first … -/
theorem enc_dir_lo (n : Fin 262144) (col : Fin 27) (h : col.val < 3) :
    Read.val_main_v31 a1 (ix2 n col) = a1 (ix2 n ⟨col.val, h⟩) := by
  unfold Read.val_main_v31
  exact concatenate_pair_apply_left (1 : Fin S262144x27.rank) a1 (Read.val_main_v30 a1) _
    (ix2 n col) rfl (ix2 n ⟨col.val, h⟩) (fun b => by
      match b with
      | ⟨0, _⟩ => rfl
      | ⟨1, _⟩ => rfl)

/-- … then the levels. -/
theorem enc_dir_hi (n : Fin 262144) (col : Fin 27) (h : 3 ≤ col.val) :
    Read.val_main_v31 a1 (ix2 n col)
      = Read.val_main_v30 a1 (ix2 n ⟨col.val - 3, by have := col.isLt; omega⟩) := by
  unfold Read.val_main_v31
  exact concatenate_pair_apply_right (1 : Fin S262144x27.rank) a1 (Read.val_main_v30 a1) _
    (ix2 n col) rfl rfl (ix2 n ⟨col.val - 3, by have := col.isLt; omega⟩) (fun b hb => by
      match b, hb with
      | ⟨0, _⟩, _ => rfl
      | ⟨1, _⟩, hb => exact absurd rfl hb)
    (by show col.val - 3 + 3 = col.val; omega)

/-- The reference's encoding of row n, column by column, is the specification's. -/
theorem ref_enc_dir (n : Fin 262144) (col : Fin 27) :
    Read.val_main_v31 a1 (ix2 n col) = encAt (rowOf a1 n) col.val := by
  unfold encAt
  by_cases h3 : col.val < 3
  · rw [if_pos h3, enc_dir_lo a1 n col h3]
    exact congrArg (fun c => a1 (ix2 n c)) (Fin.ext (by show col.val = chan col.val; unfold chan; rw [if_pos h3]))
  · rw [if_neg h3, enc_dir_hi a1 n col (by omega), flat_dir]
    have hs : scale col.val = (((2 : ℝ) ^ ((col.val - 3) / 6) : ℝ) : EReal) := by unfold scale lev; rw [if_neg h3]
    have hc : chan col.val = (col.val - 3) % 3 := by unfold chan; rw [if_neg h3]
    by_cases hp : (col.val - 3) % 6 < 3
    · rw [if_pos hp, level_dir_sin a1 n _ _ hp, hs]
      exact congrArg (fun c => Ideal.sin (a1 (ix2 n c) * _)) (Fin.ext (by show (col.val - 3) % 6 = chan col.val; omega))
    · rw [if_neg hp, level_dir_cos a1 n _ _ (by show 3 ≤ (col.val - 3) % 6; omega), hs]
      exact congrArg (fun c => Ideal.cos (a1 (ix2 n c) * _)) (Fin.ext (by show (col.val - 3) % 6 - 3 = chan col.val; omega))

end dir

end Cert.ReferenceIdeal.RefValue

end
-- ==== Proof.RefNet.lean ====
/-
  The reference's network read at an index. Each layer of the reference is the transposed-weight product, the bias
  row and (but for the two output layers) the rectifier, applied to the layer before it; row n
  of each layer is therefore the specification's layer on row n of the positions and directions. The 257-wide layer
  is cut into its first 256 columns (the features) and its last one (the raw density, reshaped to a vector and
  rectified: the density); the colour is one over one plus the exponential of the negated last layer, which is the
  logistic function by definition.
-/
import proofs.«106108_j29403346108731_2_alg».proof.Proof.Gen.ReferenceIdeal.Read
import proofs.«106108_j29403346108731_2_alg».proof.Proof.Args
import proofs.«106108_j29403346108731_2_alg».proof.Proof.RefLayers
import proofs.«106108_j29403346108731_2_alg».proof.Proof.RefEnc

noncomputable section

namespace Cert.ReferenceIdeal.RefValue

open Cert.ReferenceIdeal Cert.ReferenceIdeal.Gen Idealize.ShloMosaic Idealize.ShloMosaic.ValueIdx
  Idealize.ShloMosaic.HostReads Cert.Nerf

variable (a0 : (⟨S262144x3, .f32⟩ : BufTy).Contents (Elt Ideal)) (a1 : (⟨S262144x3, .f32⟩ : BufTy).Contents (Elt Ideal)) (a2 : (⟨S256x63, .f32⟩ : BufTy).Contents (Elt Ideal)) (a3 : (⟨S256, .f32⟩ : BufTy).Contents (Elt Ideal))
  (a4 : (⟨S256x256, .f32⟩ : BufTy).Contents (Elt Ideal)) (a5 : (⟨S256, .f32⟩ : BufTy).Contents (Elt Ideal)) (a6 : (⟨S256x256, .f32⟩ : BufTy).Contents (Elt Ideal)) (a7 : (⟨S256, .f32⟩ : BufTy).Contents (Elt Ideal))
  (a8 : (⟨S256x256, .f32⟩ : BufTy).Contents (Elt Ideal)) (a9 : (⟨S256, .f32⟩ : BufTy).Contents (Elt Ideal)) (a10 : (⟨S256x256, .f32⟩ : BufTy).Contents (Elt Ideal)) (a11 : (⟨S256, .f32⟩ : BufTy).Contents (Elt Ideal))
  (a12 : (⟨S256x319, .f32⟩ : BufTy).Contents (Elt Ideal)) (a13 : (⟨S256, .f32⟩ : BufTy).Contents (Elt Ideal)) (a14 : (⟨S256x256, .f32⟩ : BufTy).Contents (Elt Ideal)) (a15 : (⟨S256, .f32⟩ : BufTy).Contents (Elt Ideal))
  (a16 : (⟨S256x256, .f32⟩ : BufTy).Contents (Elt Ideal)) (a17 : (⟨S256, .f32⟩ : BufTy).Contents (Elt Ideal)) (a18 : (⟨S257x256, .f32⟩ : BufTy).Contents (Elt Ideal)) (a19 : (⟨S257, .f32⟩ : BufTy).Contents (Elt Ideal))
  (a20 : (⟨S128x283, .f32⟩ : BufTy).Contents (Elt Ideal)) (a21 : (⟨S128, .f32⟩ : BufTy).Contents (Elt Ideal)) (a22 : (⟨S3x128, .f32⟩ : BufTy).Contents (Elt Ideal)) (a23 : (⟨S3, .f32⟩ : BufTy).Contents (Elt Ideal))

/-- The first layer, on the encoding of the position. -/
theorem ref_h1 (n : Fin 262144) (j : Fin 256) :
    Read.val_main_v37 a0 a2 a3 (ix2 n j) = h1 (paramsOf a2 a3 a4 a5 a6 a7 a8 a9 a10 a11 a12 a13 a14 a15 a16 a17 a18 a19 a20 a21 a22 a23) (rowOf a0 n) j := by
  have e : (fun k => Read.val_main_v15 a0 (ix2 n k)) = xe (rowOf a0 n) := funext fun k => ref_enc_pos a0 n k
  unfold Read.val_main_v37 Read.val_main_v36 Read.val_main_v33 Read.val_main_v35 Read.val_main_v34 Read.val_main_v32 Read.val_main_call0_v0 Read.val_main_call0_cst
  refine (dense_relu_apply (R := 262144) (K := 63) (N := 256) (Read.val_main_v15 a0) a2 a3 _ _ _ _ n j).trans ?_
  rw [e]; rfl

/-- The second layer. -/
theorem ref_h2 (n : Fin 262144) (j : Fin 256) :
    Read.val_main_v43 a0 a2 a3 a4 a5 (ix2 n j) = h2 (paramsOf a2 a3 a4 a5 a6 a7 a8 a9 a10 a11 a12 a13 a14 a15 a16 a17 a18 a19 a20 a21 a22 a23) (rowOf a0 n) j := by
  have e : (fun k => Read.val_main_v37 a0 a2 a3 (ix2 n k)) = h1 (paramsOf a2 a3 a4 a5 a6 a7 a8 a9 a10 a11 a12 a13 a14 a15 a16 a17 a18 a19 a20 a21 a22 a23) (rowOf a0 n) := funext fun k => ref_h1 a0 a2 a3 a4 a5 a6 a7 a8 a9 a10 a11 a12 a13 a14 a15 a16 a17 a18 a19 a20 a21 a22 a23 n k
  unfold Read.val_main_v43 Read.val_main_v42 Read.val_main_v39 Read.val_main_v41 Read.val_main_v40 Read.val_main_v38 Read.val_main_call1_v0 Read.val_main_call1_cst
  refine (dense_relu_apply (R := 262144) (K := 256) (N := 256) (Read.val_main_v37 a0 a2 a3) a4 a5 _ _ _ _ n j).trans ?_
  rw [e]; rfl

/-- The third layer. -/
theorem ref_h3 (n : Fin 262144) (j : Fin 256) :
    Read.val_main_v49 a0 a2 a3 a4 a5 a6 a7 (ix2 n j) = h3 (paramsOf a2 a3 a4 a5 a6 a7 a8 a9 a10 a11 a12 a13 a14 a15 a16 a17 a18 a19 a20 a21 a22 a23) (rowOf a0 n) j := by
  have e : (fun k => Read.val_main_v43 a0 a2 a3 a4 a5 (ix2 n k)) = h2 (paramsOf a2 a3 a4 a5 a6 a7 a8 a9 a10 a11 a12 a13 a14 a15 a16 a17 a18 a19 a20 a21 a22 a23) (rowOf a0 n) := funext fun k => ref_h2 a0 a2 a3 a4 a5 a6 a7 a8 a9 a10 a11 a12 a13 a14 a15 a16 a17 a18 a19 a20 a21 a22 a23 n k
  unfold Read.val_main_v49 Read.val_main_v48 Read.val_main_v45 Read.val_main_v47 Read.val_main_v46 Read.val_main_v44 Read.val_main_call2_v0 Read.val_main_call2_cst
  refine (dense_relu_apply (R := 262144) (K := 256) (N := 256) (Read.val_main_v43 a0 a2 a3 a4 a5) a6 a7 _ _ _ _ n j).trans ?_
  rw [e]; rfl

/-- The fourth layer. -/
theorem ref_h4 (n : Fin 262144) (j : Fin 256) :
    Read.val_main_v55 a0 a2 a3 a4 a5 a6 a7 a8 a9 (ix2 n j) = h4 (paramsOf a2 a3 a4 a5 a6 a7 a8 a9 a10 a11 a12 a13 a14 a15 a16 a17 a18 a19 a20 a21 a22 a23) (rowOf a0 n) j := by
  have e : (fun k => Read.val_main_v49 a0 a2 a3 a4 a5 a6 a7 (ix2 n k)) = h3 (paramsOf a2 a3 a4 a5 a6 a7 a8 a9 a10 a11 a12 a13 a14 a15 a16 a17 a18 a19 a20 a21 a22 a23) (rowOf a0 n) := funext fun k => ref_h3 a0 a2 a3 a4 a5 a6 a7 a8 a9 a10 a11 a12 a13 a14 a15 a16 a17 a18 a19 a20 a21 a22 a23 n k
  unfold Read.val_main_v55 Read.val_main_v54 Read.val_main_v51 Read.val_main_v53 Read.val_main_v52 Read.val_main_v50 Read.val_main_call3_v0 Read.val_main_call3_cst
  refine (dense_relu_apply (R := 262144) (K := 256) (N := 256) (Read.val_main_v49 a0 a2 a3 a4 a5 a6 a7) a8 a9 _ _ _ _ n j).trans ?_
  rw [e]; rfl

/-- The fifth layer. -/
theorem ref_h5 (n : Fin 262144) (j : Fin 256) :
    Read.val_main_v61 a0 a2 a3 a4 a5 a6 a7 a8 a9 a10 a11 (ix2 n j) = h5 (paramsOf a2 a3 a4 a5 a6 a7 a8 a9 a10 a11 a12 a13 a14 a15 a16 a17 a18 a19 a20 a21 a22 a23) (rowOf a0 n) j := by
  have e : (fun k => Read.val_main_v55 a0 a2 a3 a4 a5 a6 a7 a8 a9 (ix2 n k)) = h4 (paramsOf a2 a3 a4 a5 a6 a7 a8 a9 a10 a11 a12 a13 a14 a15 a16 a17 a18 a19 a20 a21 a22 a23) (rowOf a0 n) := funext fun k => ref_h4 a0 a2 a3 a4 a5 a6 a7 a8 a9 a10 a11 a12 a13 a14 a15 a16 a17 a18 a19 a20 a21 a22 a23 n k
  unfold Read.val_main_v61 Read.val_main_v60 Read.val_main_v57 Read.val_main_v59 Read.val_main_v58 Read.val_main_v56 Read.val_main_call4_v0 Read.val_main_call4_cst
  refine (dense_relu_apply (R := 262144) (K := 256) (N := 256) (Read.val_main_v55 a0 a2 a3 a4 a5 a6 a7 a8 a9) a10 a11 _ _ _ _ n j).trans ?_
  rw [e]; rfl

/-- The layer on the fifth layer's output joined with the encoding of the position. -/
theorem ref_g1 (n : Fin 262144) (j : Fin 256) :
    Read.val_main_v68 a0 a2 a3 a4 a5 a6 a7 a8 a9 a10 a11 a12 a13 (ix2 n j) = g1 (paramsOf a2 a3 a4 a5 a6 a7 a8 a9 a10 a11 a12 a13 a14 a15 a16 a17 a18 a19 a20 a21 a22 a23) (rowOf a0 n) j := by
  have e : (fun k => Read.val_main_v61 a0 a2 a3 a4 a5 a6 a7 a8 a9 a10 a11 (ix2 n k)) = h5 (paramsOf a2 a3 a4 a5 a6 a7 a8 a9 a10 a11 a12 a13 a14 a15 a16 a17 a18 a19 a20 a21 a22 a23) (rowOf a0 n) := funext fun k => ref_h5 a0 a2 a3 a4 a5 a6 a7 a8 a9 a10 a11 a12 a13 a14 a15 a16 a17 a18 a19 a20 a21 a22 a23 n k
  have e' : (fun k => Read.val_main_v15 a0 (ix2 n k)) = xe (rowOf a0 n) := funext fun k => ref_enc_pos a0 n k
  unfold Read.val_main_v68 Read.val_main_v67 Read.val_main_v64 Read.val_main_v66 Read.val_main_v65 Read.val_main_v63 Read.val_main_v62 Read.val_main_call5_v0 Read.val_main_call5_cst
  refine (dense2_relu_apply (R := 262144) (K₁ := 256) (K₂ := 63) (N := 256) (Read.val_main_v61 a0 a2 a3 a4 a5 a6 a7 a8 a9 a10 a11) (Read.val_main_v15 a0) a12 a13
    _ _ _ _ _ n j).trans ?_
  rw [e, e']; rfl

/-- The layer after it. -/
theorem ref_g2 (n : Fin 262144) (j : Fin 256) :
    Read.val_main_v74 a0 a2 a3 a4 a5 a6 a7 a8 a9 a10 a11 a12 a13 a14 a15 (ix2 n j) = g2 (paramsOf a2 a3 a4 a5 a6 a7 a8 a9 a10 a11 a12 a13 a14 a15 a16 a17 a18 a19 a20 a21 a22 a23) (rowOf a0 n) j := by
  have e : (fun k => Read.val_main_v68 a0 a2 a3 a4 a5 a6 a7 a8 a9 a10 a11 a12 a13 (ix2 n k)) = g1 (paramsOf a2 a3 a4 a5 a6 a7 a8 a9 a10 a11 a12 a13 a14 a15 a16 a17 a18 a19 a20 a21 a22 a23) (rowOf a0 n) := funext fun k => ref_g1 a0 a2 a3 a4 a5 a6 a7 a8 a9 a10 a11 a12 a13 a14 a15 a16 a17 a18 a19 a20 a21 a22 a23 n k
  unfold Read.val_main_v74 Read.val_main_v73 Read.val_main_v70 Read.val_main_v72 Read.val_main_v71 Read.val_main_v69 Read.val_main_call6_v0 Read.val_main_call6_cst
  refine (dense_relu_apply (R := 262144) (K := 256) (N := 256) (Read.val_main_v68 a0 a2 a3 a4 a5 a6 a7 a8 a9 a10 a11 a12 a13) a14 a15 _ _ _ _ n j).trans ?_
  rw [e]; rfl

/-- The next one. -/
theorem ref_g3 (n : Fin 262144) (j : Fin 256) :
    Read.val_main_v80 a0 a2 a3 a4 a5 a6 a7 a8 a9 a10 a11 a12 a13 a14 a15 a16 a17 (ix2 n j) = g3 (paramsOf a2 a3 a4 a5 a6 a7 a8 a9 a10 a11 a12 a13 a14 a15 a16 a17 a18 a19 a20 a21 a22 a23) (rowOf a0 n) j := by
  have e : (fun k => Read.val_main_v74 a0 a2 a3 a4 a5 a6 a7 a8 a9 a10 a11 a12 a13 a14 a15 (ix2 n k)) = g2 (paramsOf a2 a3 a4 a5 a6 a7 a8 a9 a10 a11 a12 a13 a14 a15 a16 a17 a18 a19 a20 a21 a22 a23) (rowOf a0 n) := funext fun k => ref_g2 a0 a2 a3 a4 a5 a6 a7 a8 a9 a10 a11 a12 a13 a14 a15 a16 a17 a18 a19 a20 a21 a22 a23 n k
  unfold Read.val_main_v80 Read.val_main_v79 Read.val_main_v76 Read.val_main_v78 Read.val_main_v77 Read.val_main_v75 Read.val_main_call7_v0 Read.val_main_call7_cst
  refine (dense_relu_apply (R := 262144) (K := 256) (N := 256) (Read.val_main_v74 a0 a2 a3 a4 a5 a6 a7 a8 a9 a10 a11 a12 a13 a14 a15) a16 a17 _ _ _ _ n j).trans ?_
  rw [e]; rfl

/-- The last layer of the second block, 257 wide and not rectified. -/
theorem ref_last (n : Fin 262144) (j : Fin 257) :
    Read.val_main_v85 a0 a2 a3 a4 a5 a6 a7 a8 a9 a10 a11 a12 a13 a14 a15 a16 a17 a18 a19 (ix2 n j) = dense (wOf a18) (bOf a19) (g3 (paramsOf a2 a3 a4 a5 a6 a7 a8 a9 a10 a11 a12 a13 a14 a15 a16 a17 a18 a19 a20 a21 a22 a23) (rowOf a0 n)) j := by
  have e : (fun k => Read.val_main_v80 a0 a2 a3 a4 a5 a6 a7 a8 a9 a10 a11 a12 a13 a14 a15 a16 a17 (ix2 n k)) = g3 (paramsOf a2 a3 a4 a5 a6 a7 a8 a9 a10 a11 a12 a13 a14 a15 a16 a17 a18 a19 a20 a21 a22 a23) (rowOf a0 n) := funext fun k => ref_g3 a0 a2 a3 a4 a5 a6 a7 a8 a9 a10 a11 a12 a13 a14 a15 a16 a17 a18 a19 a20 a21 a22 a23 n k
  unfold Read.val_main_v85 Read.val_main_v82 Read.val_main_v84 Read.val_main_v83 Read.val_main_v81
  refine (dense_apply (R := 262144) (K := 256) (N := 257) (Read.val_main_v80 a0 a2 a3 a4 a5 a6 a7 a8 a9 a10 a11 a12 a13 a14 a15 a16 a17) a18 a19 _ _ _ n j).trans ?_
  rw [e]

/-- Its first 256 columns are the features … -/
theorem ref_feat (n : Fin 262144) (j : Fin 256) :
    Read.val_main_v88 a0 a2 a3 a4 a5 a6 a7 a8 a9 a10 a11 a12 a13 a14 a15 a16 a17 a18 a19 (ix2 n j) = feat (paramsOf a2 a3 a4 a5 a6 a7 a8 a9 a10 a11 a12 a13 a14 a15 a16 a17 a18 a19 a20 a21 a22 a23) (rowOf a0 n) j := by
  have hi : Read.idx_main_v88 (ix2 n j) = ix2 n (Fin.castSucc j) :=
    funext fun a => Fin.ext (by match a with | ⟨0, _⟩ => rfl | ⟨1, _⟩ => rfl)
  rw [Read.val_main_v88_apply, hi]
  exact ref_last a0 a2 a3 a4 a5 a6 a7 a8 a9 a10 a11 a12 a13 a14 a15 a16 a17 a18 a19 a20 a21 a22 a23 n (Fin.castSucc j)

/-- … and its last column, as a vector, the raw density. -/
theorem ref_sigRaw (n : Fin 262144) :
    Read.val_main_v87 a0 a2 a3 a4 a5 a6 a7 a8 a9 a10 a11 a12 a13 a14 a15 a16 a17 a18 a19 (ix1 n) = sigRaw (paramsOf a2 a3 a4 a5 a6 a7 a8 a9 a10 a11 a12 a13 a14 a15 a16 a17 a18 a19 a20 a21 a22 a23) (rowOf a0 n) := by
  have hi : Read.idx_main_v86 (Read.idx_main_v87 (ix1 n)) = ix2 n (Fin.last 256) :=
    funext fun a => Fin.ext (by
      match a with
      | ⟨0, _⟩ => show n.val / 1 = n.val; omega
      | ⟨1, _⟩ => rfl)
  rw [Read.val_main_v87_apply, Read.val_main_v86_apply, hi]
  exact ref_last a0 a2 a3 a4 a5 a6 a7 a8 a9 a10 a11 a12 a13 a14 a15 a16 a17 a18 a19 a20 a21 a22 a23 n (Fin.last 256)

/-- The reference's density at row n is the specification's. -/
theorem ref_sigma (n : Fin 262144) :
    Read.val_main_v107 a0 a2 a3 a4 a5 a6 a7 a8 a9 a10 a11 a12 a13 a14 a15 a16 a17 a18 a19 (ix1 n) = sigma (paramsOf a2 a3 a4 a5 a6 a7 a8 a9 a10 a11 a12 a13 a14 a15 a16 a17 a18 a19 a20 a21 a22 a23) (rowOf a0 n) := by
  unfold Read.val_main_v107 Read.val_main_call9_v0 Read.val_main_call9_cst
  refine (relu_apply (Read.val_main_v87 a0 a2 a3 a4 a5 a6 a7 a8 a9 a10 a11 a12 a13 a14 a15 a16 a17 a18 a19) _ (ix1 n)).trans ?_
  rw [ref_sigRaw]; rfl

/-- The layer on the features joined with the encoding of the direction. -/
theorem ref_r1 (n : Fin 262144) (j : Fin 128) :
    Read.val_main_v95 a0 a1 a2 a3 a4 a5 a6 a7 a8 a9 a10 a11 a12 a13 a14 a15 a16 a17 a18 a19 a20 a21 (ix2 n j) = r1 (paramsOf a2 a3 a4 a5 a6 a7 a8 a9 a10 a11 a12 a13 a14 a15 a16 a17 a18 a19 a20 a21 a22 a23) (rowOf a0 n) (rowOf a1 n) j := by
  have e : (fun k => Read.val_main_v88 a0 a2 a3 a4 a5 a6 a7 a8 a9 a10 a11 a12 a13 a14 a15 a16 a17 a18 a19 (ix2 n k)) = feat (paramsOf a2 a3 a4 a5 a6 a7 a8 a9 a10 a11 a12 a13 a14 a15 a16 a17 a18 a19 a20 a21 a22 a23) (rowOf a0 n) := funext fun k => ref_feat a0 a2 a3 a4 a5 a6 a7 a8 a9 a10 a11 a12 a13 a14 a15 a16 a17 a18 a19 a20 a21 a22 a23 n k
  have e' : (fun k => Read.val_main_v31 a1 (ix2 n k)) = de (rowOf a1 n) := funext fun k => ref_enc_dir a1 n k
  unfold Read.val_main_v95 Read.val_main_v94 Read.val_main_v91 Read.val_main_v93 Read.val_main_v92 Read.val_main_v90 Read.val_main_v89 Read.val_main_call8_v0 Read.val_main_call8_cst
  refine (dense2_relu_apply (R := 262144) (K₁ := 256) (K₂ := 27) (N := 128) (Read.val_main_v88 a0 a2 a3 a4 a5 a6 a7 a8 a9 a10 a11 a12 a13 a14 a15 a16 a17 a18 a19) (Read.val_main_v31 a1) a20 a21
    _ _ _ _ _ n j).trans ?_
  rw [e, e']; rfl

/-- The colour layer before the logistic function. -/
theorem ref_pre_rgb (n : Fin 262144) (j : Fin 3) :
    Read.val_main_v100 a0 a1 a2 a3 a4 a5 a6 a7 a8 a9 a10 a11 a12 a13 a14 a15 a16 a17 a18 a19 a20 a21 a22 a23 (ix2 n j) = dense (wOf a22) (bOf a23) (r1 (paramsOf a2 a3 a4 a5 a6 a7 a8 a9 a10 a11 a12 a13 a14 a15 a16 a17 a18 a19 a20 a21 a22 a23) (rowOf a0 n) (rowOf a1 n)) j := by
  have e : (fun k => Read.val_main_v95 a0 a1 a2 a3 a4 a5 a6 a7 a8 a9 a10 a11 a12 a13 a14 a15 a16 a17 a18 a19 a20 a21 (ix2 n k)) = r1 (paramsOf a2 a3 a4 a5 a6 a7 a8 a9 a10 a11 a12 a13 a14 a15 a16 a17 a18 a19 a20 a21 a22 a23) (rowOf a0 n) (rowOf a1 n) := funext fun k => ref_r1 a0 a1 a2 a3 a4 a5 a6 a7 a8 a9 a10 a11 a12 a13 a14 a15 a16 a17 a18 a19 a20 a21 a22 a23 n k
  unfold Read.val_main_v100 Read.val_main_v97 Read.val_main_v99 Read.val_main_v98 Read.val_main_v96
  refine (dense_apply (R := 262144) (K := 128) (N := 3) (Read.val_main_v95 a0 a1 a2 a3 a4 a5 a6 a7 a8 a9 a10 a11 a12 a13 a14 a15 a16 a17 a18 a19 a20 a21) a22 a23 _ _ _ n j).trans ?_
  rw [e]

/-- The word 0x3F800000 is the number 1. -/
theorem one_word : Ideal.ofBits .f32 0x3F800000#32 = 1 := by
  simp [Ideal.ofBits, Ideal.ieee, -EReal.coe_mul]; norm_num

/-- The reference's colour at row n: one over one plus the exponential of the negated layer, the logistic function. -/
theorem ref_rgb (n : Fin 262144) (j : Fin 3) :
    Read.val_main_v106 a0 a1 a2 a3 a4 a5 a6 a7 a8 a9 a10 a11 a12 a13 a14 a15 a16 a17 a18 a19 a20 a21 a22 a23 (ix2 n j) = rgb (paramsOf a2 a3 a4 a5 a6 a7 a8 a9 a10 a11 a12 a13 a14 a15 a16 a17 a18 a19 a20 a21 a22 a23) (rowOf a0 n) (rowOf a1 n) j := by
  rw [Read.val_main_v106_apply, Read.val_main_v105_apply, Read.val_main_cst_2_apply, Read.val_main_v104_apply,
    Read.val_main_v103_apply, Read.val_main_cst_1_apply, Read.val_main_v102_apply, Read.val_main_v101_apply, ref_pre_rgb]
  show Ideal.div (Ideal.ofBits .f32 0x3F800000#32) (Ideal.ofBits .f32 0x3F800000#32 + Ideal.exp (-(dense (wOf a22) (bOf a23) (r1 (paramsOf a2 a3 a4 a5 a6 a7 a8 a9 a10 a11 a12 a13 a14 a15 a16 a17 a18 a19 a20 a21 a22 a23) (rowOf a0 n) (rowOf a1 n)) j)))
    = Ideal.logistic (dense (wOf a22) (bOf a23) (r1 (paramsOf a2 a3 a4 a5 a6 a7 a8 a9 a10 a11 a12 a13 a14 a15 a16 a17 a18 a19 a20 a21 a22 a23) (rowOf a0 n) (rowOf a1 n)) j)
  rw [one_word]; rfl

end Cert.ReferenceIdeal.RefValue

end
-- ==== Proof.lean ====
/-
  The certificate of a NeRF-style network: a Pallas kernel over 64 tiles of 4096 rows against a plain jnp reference.

  Both programs encode each position (63 numbers) and direction (27 numbers) — the coordinates, then the sines and
  cosines of the coordinates scaled by 1, 2, 4, … — and run the same eleven dense layers, ending in a colour under the
  logistic function and a rectified density. The kernel differs from the reference in how it gets there: it builds
  the encoding from a table of frequencies and a 0/1 selection table instead of powers of two and a concatenation;
  it keeps the weights transposed and in a shorter float format, which at the ideal values is the same numbers; it
  splits the two layers on joined inputs, and the 257-output layer, into partial products; and it writes colour and
  density into one four-column array that the host then cuts apart. On the extended reals all of these are the same
  function of the arguments, index by index (Spec.lean): x·0 = 0 and y + 0 = y hold for every extended real, a sum
  over a joined index range is the sum of the two partial sums, and the logistic function written out as
  1 / (1 + e^(−x)) is the logistic function. No finiteness of the inputs is used.

  The kernel's side: each payload of the body at an index (KernelNet, KernelEnc over Tables), the chain to the
  specification (KernelChain), what each window's block holds (Windows), the output array after the run (Final) and the
  two results the host cuts from it (KernelRun). The reference's side: RefEnc, RefLayers, RefNet over the generated
  reading of its run. The frames of the two kernel programs are the patched copies of the generated frame modules
  (KernelFrameP, KernelIdealFrameP); the reference's frame is its generated run with the results dropped.
-/
import proofs.«106108_j29403346108731_2_alg».proof.Defs
import proofs.«106108_j29403346108731_2_alg».proof.Proof.Gen.Kernel
import proofs.«106108_j29403346108731_2_alg».proof.Proof.Gen.KernelIdeal
import proofs.«106108_j29403346108731_2_alg».proof.Proof.Gen.ReferenceIdeal
import proofs.«106108_j29403346108731_2_alg».proof.Proof.Gen.Pre_finite_inputs
import proofs.«106108_j29403346108731_2_alg».proof.Proof.Gen.ReferenceIdeal.Run
import proofs.«106108_j29403346108731_2_alg».proof.Proof.Gen.ReferenceIdeal.Read
import proofs.«106108_j29403346108731_2_alg».proof.Proof.KernelFrameP
import proofs.«106108_j29403346108731_2_alg».proof.Proof.KernelIdealFrameP
import proofs.«106108_j29403346108731_2_alg».proof.Proof.KernelRun
import proofs.«106108_j29403346108731_2_alg».proof.Proof.RefNet
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

/-- The reference's run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both runs end with the colour at the specification's colour of each row's point and the density at its
    density: the kernel's by the output array's columns, the reference's by the reading of its run. -/
theorem algebraic : Cert.algebraic_KernelIdeal_ReferenceIdeal := by
  intro m ρ m' ρ' _ hagree
  refine ⟨fun c => Cert.KernelIdeal.KRun.out0 m c, fun c => Cert.KernelIdeal.KRun.out1 m c, Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19, e20, e21, e22, e23⟩ := hagree c
    rw [Cert.ReferenceIdeal.Read.val_main_v106_eq, e0, e1, e2, e3, e4, e5, e6, e7, e8, e9, e10, e11, e12, e13, e14, e15, e16, e17, e18, e19, e20, e21, e22, e23]
    funext i
    obtain ⟨n, j, rfl⟩ : ∃ (n : Fin 262144) (j : Fin 3), i = ix2 n j := ⟨i 0, i 1, eq_ix2 i⟩
    exact (Cert.ReferenceIdeal.RefValue.ref_rgb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) n j).trans
      (Cert.KernelIdeal.KRun.out0_apply m c n j).symm
  · obtain ⟨e0, e1, e2, e3, e4, e5, e6, e7, e8, e9, e10, e11, e12, e13, e14, e15, e16, e17, e18, e19, e20, e21, e22, e23⟩ := hagree c
    rw [Cert.ReferenceIdeal.Read.val_main_v107_eq, e0, e2, e3, e4, e5, e6, e7, e8, e9, e10, e11, e12, e13, e14, e15, e16, e17, e18, e19]
    funext i
    obtain ⟨n, rfl⟩ : ∃ n : Fin 262144, i = ix1 n := ⟨i 0, eq_ix1 i⟩
    exact (Cert.ReferenceIdeal.RefValue.ref_sigma (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) n).trans
      (Cert.KernelIdeal.KRun.out1_apply m c n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
